-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v65)) (v1 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_v64) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_v83) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x128 : Shape := ⟨2, ![128, 128]⟩
abbrev S2x600000 : Shape := ⟨2, ![2, 600000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg7 : FVec F S128x128 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  main_v38

def fn_part1 {F : FTy → Type} [FloatOps F] (main_arg4 : FVec F S128x128 .f32) (main_arg5 : FVec F S128x128 .f32) (main_arg6 : FVec F S128x128 .f32) (main_arg7 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_v33

def fn {F : FTy → Type} [FloatOps F] (main_arg0 : FVec F S50000x128 .f32) (main_arg1 : FVec F S50000x128 .f32) (main_arg2 : FVec F S128x128 .f32) (main_arg3 : FVec F S128x128 .f32) (main_arg4 : FVec F S128x128 .f32) (main_arg5 : FVec F S128x128 .f32) (main_arg6 : FVec F S128x128 .f32) (main_arg7 : FVec F S128x128 .f32) (main_arg8 : IVec S2x600000 32) (main_arg9 : IVec S2x600000 32) (main_arg10 : IVec S2x600000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_v13 main_v16
-- ==== Kernel.lean ====
abbrev S50000x128 : Shape := ⟨2, ![50000, 128]⟩
abbrev S128x128 : Shape := ⟨2, ![128, 128]⟩
abbrev S2x600000 : Shape := ⟨2, ![2, 600000]⟩
abbrev S128x512 : Shape := ⟨2, ![128, 512]⟩
abbrev S128x256 : Shape := ⟨2, ![128, 256]⟩
abbrev S5000x128 : Shape := ⟨2, ![5000, 128]⟩
abbrev S5000x512 : Shape := ⟨2, ![5000, 512]⟩
abbrev S5000x256 : Shape := ⟨2, ![5000, 256]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S50000x1 : Shape := ⟨2, ![50000, 1]⟩
abbrev S5000x1 : Shape := ⟨2, ![5000, 1]⟩
abbrev S2000x128 : Shape := ⟨2, ![2000, 128]⟩
abbrev S2000x1 : Shape := ⟨2, ![2000, 1]⟩

abbrev nBuf : Space → Nat
  | .hbm => 96
  | .vmem => 40
  | .smem => 0
  | _ => 0

abbrev bufTy : (tb : Table) → Fin (tcTables nBuf tb) → BufTy
  | .hbm, ⟨0, _⟩ => ⟨S50000x128, .f32⟩
  | .hbm, ⟨1, _⟩ => ⟨S50000x128, .f32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S128x128, .f32⟩
  | .hbm, ⟨8, _⟩ => ⟨S2x600000, .i32⟩
  | .hbm, ⟨9, _⟩ => ⟨S2x600000, .i32⟩
  | .hbm, ⟨10, _⟩ => ⟨S2x600000, .i32⟩
  | .hbm, ⟨11, _⟩ => ⟨S128x512, .f32⟩
  | .hbm, ⟨12, _⟩ => ⟨S128x256, .f32⟩
  | .hbm, ⟨13, _⟩ => ⟨S50000x128, .f32⟩
  | .hbm, ⟨14, _⟩ => ⟨S50000x128, .f32⟩
  | .hbm, ⟨15, _⟩ => ⟨S50000x128, .f32⟩
  | .hbm, ⟨16, _⟩ => ⟨S50000x128, .f32⟩
  | .hbm, ⟨17, _⟩ => ⟨S50000x128, .f32⟩
  | .hbm, ⟨18, _⟩ => ⟨S50000x128, .f32⟩
  | .hbm, ⟨19, _⟩ => ⟨S50000x128, .bf16⟩
  | .hbm, ⟨20, _⟩ => ⟨S1x600000, .i32⟩
  | .hbm, ⟨21, _⟩ => ⟨S600000, .i32⟩
  | .hbm, ⟨22, _⟩ => ⟨S_, .i32⟩
  | .hbm, ⟨23, _⟩ => ⟨S600000, .i32⟩
  | .hbm, ⟨24, _⟩ => ⟨S600000, .i1⟩
  | .hbm, ⟨25, _⟩ => ⟨S_, .i32⟩
  | .hbm, ⟨26, _⟩ => ⟨S600000, .i32⟩
  | .hbm, ⟨27, _⟩ => ⟨S600000, .i32⟩
  | .hbm, ⟨28, _⟩ => ⟨S600000, .i32⟩
  | .hbm, ⟨29, _⟩ => ⟨S600000x1, .i32⟩
  | .hbm, ⟨30, _⟩ => ⟨S600000x128, .bf16⟩
  | .hbm, ⟨31, _⟩ => ⟨S1x600000, .i32⟩
  | .hbm, ⟨32, _⟩ => ⟨S600000, .i32⟩
  | .hbm, ⟨33, _⟩ => ⟨S600000x128, .f32⟩
  | .hbm, ⟨34, _⟩ => ⟨S_, .f32⟩
  | .hbm, ⟨35, _⟩ => ⟨S50000x128, .f32⟩
  | .hbm, ⟨36, _⟩ => ⟨S600000x1, .i32⟩
  | .hbm, ⟨37, _⟩ => ⟨S50000x128, .f32⟩
  | .hbm, ⟨38, _⟩ => ⟨S_, .f32⟩
  | .hbm, ⟨39, _⟩ => ⟨S600000x1, .f32⟩
  | .hbm, ⟨40, _⟩ => ⟨S_, .f32⟩
  | .hbm, ⟨41, _⟩ => ⟨S50000x1, .f32⟩
  | .hbm, ⟨42, _⟩ => ⟨S600000x1, .i32⟩
  | .hbm, ⟨43, _⟩ => ⟨S50000x1, .f32⟩
  | .hbm, ⟨44, _⟩ => ⟨S50000x128, .bf16⟩
  | .hbm, ⟨45, _⟩ => ⟨S1x600000, .i32⟩
  | .hbm, ⟨46, _⟩ => ⟨S600000, .i32⟩
  | .hbm, ⟨47, _⟩ => ⟨S_, .i32⟩
  | .hbm, ⟨48, _⟩ => ⟨S600000, .i32⟩
  | .hbm, ⟨49, _⟩ => ⟨S600000, .i1⟩
  | .hbm, ⟨50, _⟩ => ⟨S_, .i32⟩
  | .hbm, ⟨51, _⟩ => ⟨S600000, .i32⟩
  | .hbm, ⟨52, _⟩ => ⟨S600000, .i32⟩
  | .hbm, ⟨53, _⟩ => ⟨S600000, .i32⟩
  | .hbm, ⟨54, _⟩ => ⟨S600000x1, .i32⟩
  | .hbm, ⟨55, _⟩ => ⟨S600000x128, .bf16⟩
  | .hbm, ⟨56, _⟩ => ⟨S1x600000, .i32⟩
  | .hbm, ⟨57, _⟩ => ⟨S600000, .i32⟩
  | .hbm, ⟨58, _⟩ => ⟨S600000x128, .f32⟩
  | .hbm, ⟨59, _⟩ => ⟨S_, .f32⟩
  | .hbm, ⟨60, _⟩ => ⟨S50000x128, .f32⟩
  | .hbm, ⟨61, _⟩ => ⟨S600000x1, .i32⟩
  | .hbm, ⟨62, _⟩ => ⟨S50000x128, .f32⟩
  | .hbm, ⟨63, _⟩ => ⟨S_, .f32⟩
  | .hbm, ⟨64, _⟩ => ⟨S600000x1, .f32⟩
  | .hbm, ⟨65, _⟩ => ⟨S_, .f32⟩
  | .hbm, ⟨66, _⟩ => ⟨S50000x1, .f32⟩
  | .hbm, ⟨67, _⟩ => ⟨S600000x1, .i32⟩
  | .hbm, ⟨68, _⟩ => ⟨S50000x1, .f32⟩
  | .hbm, ⟨69, _⟩ => ⟨S50000x128, .bf16⟩
  | .hbm, ⟨70, _⟩ => ⟨S1x600000, .i32⟩
  | .hbm, ⟨71, _⟩ => ⟨S600000, .i32⟩
  | .hbm, ⟨72, _⟩ => ⟨S_, .i32⟩
  | .hbm, ⟨73, _⟩ => ⟨S600000, .i32⟩
  | .hbm, ⟨74, _⟩ => ⟨S600000, .i1⟩
  | .hbm, ⟨75, _⟩ => ⟨S_, .i32⟩
  | .hbm, ⟨76, _⟩ => ⟨S600000, .i32⟩
  | .hbm, ⟨77, _⟩ => ⟨S600000, .i32⟩
  | .hbm, ⟨78, _⟩ => ⟨S600000, .i32⟩
  | .hbm, ⟨79, _⟩ => ⟨S600000x1, .i32⟩
  | .hbm, ⟨80, _⟩ => ⟨S600000x128, .bf16⟩
  | .hbm, ⟨81, _⟩ => ⟨S1x600000, .i32⟩
  | .hbm, ⟨82, _⟩ => ⟨S600000, .i32⟩
  | .hbm, ⟨83, _⟩ => ⟨S600000x128, .f32⟩
  | .hbm, ⟨84, _⟩ => ⟨S_, .f32⟩
  | .hbm, ⟨85, _⟩ => ⟨S50000x128, .f32⟩
  | .hbm, ⟨86, _⟩ => ⟨S600000x1, .i32⟩
  | .hbm, ⟨87, _⟩ => ⟨S50000x128, .f32⟩
  | .hbm, ⟨88, _⟩ => ⟨S_, .f32⟩
  | .hbm, ⟨89, _⟩ => ⟨S600000x1, .f32⟩
  | .hbm, ⟨90, _⟩ => ⟨S_, .f32⟩
  | .hbm, ⟨91, _⟩ => ⟨S50000x1, .f32⟩
  | .hbm, ⟨92, _⟩ => ⟨S600000x1, .i32⟩
  | .hbm, ⟨93, _⟩ => ⟨S50000x1, .f32⟩
  | .hbm, ⟨94, _⟩ => ⟨S50000x128, .f32⟩
  | .hbm, ⟨95, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x512, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x256, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x1, .f32⟩
  | .local _ .vmem, ⟨23, _⟩ => ⟨S5000x1, .f32⟩
  | .local _ .vmem, ⟨24, _⟩ => ⟨S5000x128, .f32⟩
  | .local _ .vmem, ⟨25, _⟩ => ⟨S5000x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S2000x1, .f32⟩
  | .local _ .vmem, ⟨31, _⟩ => ⟨S2000x1, .f32⟩
  | .local _ .vmem, ⟨32, _⟩ => ⟨S2000x128, .f32⟩
  | .local _ .vmem, ⟨33, _⟩ => ⟨S2000x128, .f32⟩
  | .local _ .vmem, ⟨34, _⟩ => ⟨S2000x128, .f32⟩
  | .local _ .vmem, ⟨35, _⟩ => ⟨S2000x128, .f32⟩
  | .local _ .vmem, ⟨36, _⟩ => ⟨S2000x1, .f32⟩
  | .local _ .vmem, ⟨37, _⟩ => ⟨S2000x1, .f32⟩
  | .local _ .vmem, ⟨38, _⟩ => ⟨S2000x128, .f32⟩
  | .local _ .vmem, ⟨39, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2_0 : Ref sig .tc := ⟨.hbm, 13, rfl⟩
abbrev main_v2_1 : Ref sig .tc := ⟨.hbm, 14, rfl⟩
abbrev main_v2_2 : Ref sig .tc := ⟨.hbm, 15, rfl⟩
abbrev main_v2_3 : Ref sig .tc := ⟨.hbm, 16, rfl⟩
abbrev main_v3_0 : Ref sig .tc := ⟨.hbm, 17, rfl⟩
abbrev main_v3_1 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_c : Ref sig .tc := ⟨.hbm, 22, rfl⟩
abbrev main_v7 : Ref sig .tc := ⟨.hbm, 23, rfl⟩
abbrev main_v8 : Ref sig .tc := ⟨.hbm, 24, rfl⟩
abbrev main_c_0 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_1 : Ref sig .tc := ⟨.hbm, 38, rfl⟩
abbrev main_v20 : Ref sig .tc := ⟨.hbm, 39, rfl⟩
abbrev main_cst_2 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_c_3 : Ref sig .tc := ⟨.hbm, 47, rfl⟩
abbrev main_v27 : Ref sig .tc := ⟨.hbm, 48, rfl⟩
abbrev main_v28 : Ref sig .tc := ⟨.hbm, 49, rfl⟩
abbrev main_c_4 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_5 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_6 : Ref sig .tc := ⟨.hbm, 63, rfl⟩
abbrev main_v40 : Ref sig .tc := ⟨.hbm, 64, rfl⟩
abbrev main_cst_7 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_c_8 : Ref sig .tc := ⟨.hbm, 72, rfl⟩
abbrev main_v47 : Ref sig .tc := ⟨.hbm, 73, rfl⟩
abbrev main_v48 : Ref sig .tc := ⟨.hbm, 74, rfl⟩
abbrev main_c_9 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_10 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_cst_11 : Ref sig .tc := ⟨.hbm, 88, rfl⟩
abbrev main_v60 : Ref sig .tc := ⟨.hbm, 89, rfl⟩
abbrev main_cst_12 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg2_1 : Ref sig .tc := ⟨.vmem, 31, rfl⟩
abbrev cc3_stg3_0 : Ref sig .tc := ⟨.vmem, 32, rfl⟩
abbrev cc3_stg3_1 : Ref sig .tc := ⟨.vmem, 33, rfl⟩
abbrev cc3_stg4_0 : Ref sig .tc := ⟨.vmem, 34, rfl⟩
abbrev cc3_stg4_1 : Ref sig .tc := ⟨.vmem, 35, rfl⟩
abbrev cc3_stg5_0 : Ref sig .tc := ⟨.vmem, 36, rfl⟩
abbrev cc3_stg5_1 : Ref sig .tc := ⟨.vmem, 37, rfl⟩
abbrev cc3_stg6_0 : Ref sig .tc := ⟨.vmem, 38, rfl⟩
abbrev cc3_stg6_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem2_1 : DmaSem sig := 15
abbrev cc1_sem3_0 : DmaSem sig := 16
abbrev cc1_sem3_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem3_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem2_1 : DmaSem sig := 31
abbrev cc3_sem3_0 : DmaSem sig := 32
abbrev cc3_sem3_1 : DmaSem sig := 33
abbrev cc3_sem4_0 : DmaSem sig := 34
abbrev cc3_sem4_1 : DmaSem sig := 35
abbrev cc3_sem5_0 : DmaSem sig := 36
abbrev cc3_sem5_1 : DmaSem sig := 37
abbrev cc3_sem6_0 : DmaSem sig := 38
abbrev cc3_sem6_1 : DmaSem sig := 39

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S2000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S2000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S2000x1 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S2000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  concatenates_S128x128_S128x128_S128x128_S128x128_S128x512_d1 : Shape.Concatenates [S128x128, S128x128, S128x128, S128x128] S128x512 1
  concatenates_S128x128_S128x128_S128x256_d1 : Shape.Concatenates [S128x128, S128x128] S128x256 1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x512_S128x512_0_0 : ∀ a, (![0, 0] : Fin 2 → Nat) a + S128x512.size a ≤ S128x512.size a
  h_S128x512 : 0 < S128x512.numel
  shapeCasts_S128x512_S128x512 : S128x512.ShapeCasts S128x512
  slices_S5000x512_o0_0_S5000x128 : S5000x512.Slices ![0, 0] S5000x128
  slices_S5000x512_o0_128_S5000x128 : S5000x512.Slices ![0, 128] S5000x128
  slices_S5000x512_o0_256_S5000x128 : S5000x512.Slices ![0, 256] S5000x128
  slices_S5000x512_o0_384_S5000x128 : S5000x512.Slices ![0, 384] S5000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  slices_S5000x256_o0_0_S5000x128 : S5000x256.Slices ![0, 0] S5000x128
  slices_S5000x256_o0_128_S5000x128 : S5000x256.Slices ![0, 128] S5000x128
  slices_S2x600000_S1x600000_0_0 : S2x600000.Slices ![0, 0] S1x600000
  shapeCasts_S1x600000_S600000 : S1x600000.ShapeCasts S600000
  bcast_S_S600000 : S_.BroadcastsInDim S600000 (![] : Fin 0 → Fin S600000.rank)
  bcast_S600000_S600000x1_0 : S600000.BroadcastsInDim S600000x1 (![0] : Fin 1 → Fin S600000x1.rank)
  slices_S2x600000_S1x600000_1_0 : S2x600000.Slices ![1, 0] S1x600000
  bcast_S_S50000x128 : S_.BroadcastsInDim S50000x128 (![] : Fin 0 → Fin S50000x128.rank)
  bcast_S_S600000x1 : S_.BroadcastsInDim S600000x1 (![] : Fin 0 → Fin S600000x1.rank)
  bcast_S_S50000x1 : S_.BroadcastsInDim S50000x1 (![] : Fin 0 → Fin S50000x1.rank)
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  dot_S5000x128_S128x512_S5000x512_1_0_0_1_n_n_wf : DotDims.WF S5000x128 S128x512 S5000x512 [1] [0] [0] [1] [] []
  dot_S5000x128_S128x256_S5000x256_1_0_0_1_n_n_wf : DotDims.WF S5000x128 S128x256 S5000x256 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000x1_S600000x1_S600000x1_1_0_0_1_wf : ScatterDims.WF S50000x1 S600000x1 S600000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S128x512.size a
  hwx0_1 : ∀ i : grid0.Coords, EltTy.bits .f32 = 32 ∨ (Rect.block (s := S128x512) S128x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S50000x128.size a
  hwx0_4 : ∀ i : grid0.Coords, EltTy.bits .f32 = 32 ∨ (Rect.block (s := S50000x128) S5000x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x256.size a ≤ S128x256.size a
  hwx1_1 : ∀ i : grid1.Coords, EltTy.bits .f32 = 32 ∨ (Rect.block (s := S128x256) S128x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S50000x1.size a
  hwx2_2 : ∀ i : grid2.Coords, EltTy.bits .f32 = 32 ∨ (Rect.block (s := S50000x1) S5000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S50000x128.size a
  hwx2_3 : ∀ i : grid2.Coords, EltTy.bits .f32 = 32 ∨ (Rect.block (s := S50000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S50000x128.size a
  hwx3_1 : ∀ i : grid3.Coords, EltTy.bits .f32 = 32 ∨ (Rect.block (s := S50000x128) S2000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S50000x1.size a
  hwx3_2 : ∀ i : grid3.Coords, EltTy.bits .f32 = 32 ∨ (Rect.block (s := S50000x1) S2000x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x128.size a ≤ S50000x128.size a
  hwx3_3 : ∀ i : grid3.Coords, EltTy.bits .f32 = 32 ∨ (Rect.block (s := S50000x128) S2000x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x128.size a ≤ S50000x128.size a
  hwx3_4 : ∀ i : grid3.Coords, EltTy.bits .f32 = 32 ∨ (Rect.block (s := S50000x128) S2000x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x1.size a ≤ S50000x1.size a
  hwx3_5 : ∀ i : grid3.Coords, EltTy.bits .f32 = 32 ∨ (Rect.block (s := S50000x1) S2000x1.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2000x128.size a ≤ S50000x128.size a
  hwx3_6 : ∀ i : grid3.Coords, EltTy.bits .f32 = 32 ∨ (Rect.block (s := S50000x128) S2000x128.size (cc3_transform_6 i) (hinb3_6 i)).WholeWords (EltTy.packing .f32)

variable [Facts₀]

def dot_S5000x128_S128x512_S5000x512_1_0_0_1_n_n : DotDims S5000x128 S128x512 S5000x512 where
  lhsContracting := [1]
  rhsContracting := [0]
  lhsNonContracting := [0]
  rhsNonContracting := [1]
  lhsBatch := []
  rhsBatch := []
  wf := dot_S5000x128_S128x512_S5000x512_1_0_0_1_n_n_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000x1_S600000x1_S600000x1_1_0_0_1 : ScatterDims S50000x1 S600000x1 S600000x1 where
  updateWindowDims := [1]
  insertedWindowDims := [0]
  scatterDimsToOperandDims := [0]
  indexVectorDim := 1
  wf := scatter_S50000x1_S600000x1_S600000x1_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S5000x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S5000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_2) S5000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_3) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg1) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S128x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3_0) S5000x128.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3_1) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v3_1) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v19) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v23) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v64) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v2_1) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v39) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v43) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v2_3) S2000x128.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v59) S2000x128.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v63) S2000x1.size cc3_transform_5 reads3_5 false false 2 stage3_5 sem3_5
    hrank3 hreads3_5 hinb3_5 nbuf3_5 (Memref.isWhole_whole _) hwx3_5 hstage3_5

abbrev win3_6 : Pipeline.Window sig grid3 :=
  Pipeline.Window.ofSpec (Memref.whole main_v65) S2000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S50000x128 : Shape := ⟨2, ![50000, 128]⟩
abbrev S128x128 : Shape := ⟨2, ![128, 128]⟩
abbrev S2x600000 : Shape := ⟨2, ![2, 600000]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S50000x1 : Shape := ⟨2, ![50000, 1]⟩

abbrev nBuf : Space → Nat
  | .hbm => 123
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S50000x128, .f32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S128x128, .f32⟩
  | .hbm, ⟨8, _⟩ => ⟨S2x600000, .i32⟩
  | .hbm, ⟨9, _⟩ => ⟨S2x600000, .i32⟩
  | .hbm, ⟨10, _⟩ => ⟨S2x600000, .i32⟩
  | .hbm, ⟨11, _⟩ => ⟨S50000x128, .f32⟩
  | .hbm, ⟨12, _⟩ => ⟨S50000x128, .f32⟩
  | .hbm, ⟨13, _⟩ => ⟨S1x600000, .i32⟩
  | .hbm, ⟨14, _⟩ => ⟨S600000, .i32⟩
  | .hbm, ⟨15, _⟩ => ⟨S_, .i32⟩
  | .hbm, ⟨16, _⟩ => ⟨S600000, .i32⟩
  | .hbm, ⟨17, _⟩ => ⟨S600000, .i1⟩
  | .hbm, ⟨18, _⟩ => ⟨S_, .i32⟩
  | .hbm, ⟨19, _⟩ => ⟨S600000, .i32⟩
  | .hbm, ⟨20, _⟩ => ⟨S600000, .i32⟩
  | .hbm, ⟨21, _⟩ => ⟨S600000, .i32⟩
  | .hbm, ⟨22, _⟩ => ⟨S600000x1, .i32⟩
  | .hbm, ⟨23, _⟩ => ⟨S600000x128, .f32⟩
  | .hbm, ⟨24, _⟩ => ⟨S1x600000, .i32⟩
  | .hbm, ⟨25, _⟩ => ⟨S600000, .i32⟩
  | .hbm, ⟨26, _⟩ => ⟨S_, .f32⟩
  | .hbm, ⟨27, _⟩ => ⟨S50000x128, .f32⟩
  | .hbm, ⟨28, _⟩ => ⟨S600000x1, .i32⟩
  | .hbm, ⟨29, _⟩ => ⟨S50000x128, .f32⟩
  | .hbm, ⟨30, _⟩ => ⟨S_, .f32⟩
  | .hbm, ⟨31, _⟩ => ⟨S600000x1, .f32⟩
  | .hbm, ⟨32, _⟩ => ⟨S_, .f32⟩
  | .hbm, ⟨33, _⟩ => ⟨S50000x1, .f32⟩
  | .hbm, ⟨34, _⟩ => ⟨S600000x1, .i32⟩
  | .hbm, ⟨35, _⟩ => ⟨S50000x1, .f32⟩
  | .hbm, ⟨36, _⟩ => ⟨S_, .f32⟩
  | .hbm, ⟨37, _⟩ => ⟨S50000x1, .f32⟩
  | .hbm, ⟨38, _⟩ => ⟨S50000x1, .f32⟩
  | .hbm, ⟨39, _⟩ => ⟨S50000x128, .f32⟩
  | .hbm, ⟨40, _⟩ => ⟨S50000x128, .f32⟩
  | .hbm, ⟨41, _⟩ => ⟨S50000x128, .f32⟩
  | .hbm, ⟨42, _⟩ => ⟨S50000x128, .f32⟩
  | .hbm, ⟨43, _⟩ => ⟨S50000x128, .f32⟩
  | .hbm, ⟨44, _⟩ => ⟨S1x600000, .i32⟩
  | .hbm, ⟨45, _⟩ => ⟨S600000, .i32⟩
  | .hbm, ⟨46, _⟩ => ⟨S_, .i32⟩
  | .hbm, ⟨47, _⟩ => ⟨S600000, .i32⟩
  | .hbm, ⟨48, _⟩ => ⟨S600000, .i1⟩
  | .hbm, ⟨49, _⟩ => ⟨S_, .i32⟩
  | .hbm, ⟨50, _⟩ => ⟨S600000, .i32⟩
  | .hbm, ⟨51, _⟩ => ⟨S600000, .i32⟩
  | .hbm, ⟨52, _⟩ => ⟨S600000, .i32⟩
  | .hbm, ⟨53, _⟩ => ⟨S600000x1, .i32⟩
  | .hbm, ⟨54, _⟩ => ⟨S600000x128, .f32⟩
  | .hbm, ⟨55, _⟩ => ⟨S1x600000, .i32⟩
  | .hbm, ⟨56, _⟩ => ⟨S600000, .i32⟩
  | .hbm, ⟨57, _⟩ => ⟨S_, .f32⟩
  | .hbm, ⟨58, _⟩ => ⟨S50000x128, .f32⟩
  | .hbm, ⟨59, _⟩ => ⟨S600000x1, .i32⟩
  | .hbm, ⟨60, _⟩ => ⟨S50000x128, .f32⟩
  | .hbm, ⟨61, _⟩ => ⟨S_, .f32⟩
  | .hbm, ⟨62, _⟩ => ⟨S600000x1, .f32⟩
  | .hbm, ⟨63, _⟩ => ⟨S_, .f32⟩
  | .hbm, ⟨64, _⟩ => ⟨S50000x1, .f32⟩
  | .hbm, ⟨65, _⟩ => ⟨S600000x1, .i32⟩
  | .hbm, ⟨66, _⟩ => ⟨S50000x1, .f32⟩
  | .hbm, ⟨67, _⟩ => ⟨S_, .f32⟩
  | .hbm, ⟨68, _⟩ => ⟨S50000x1, .f32⟩
  | .hbm, ⟨69, _⟩ => ⟨S50000x1, .f32⟩
  | .hbm, ⟨70, _⟩ => ⟨S50000x128, .f32⟩
  | .hbm, ⟨71, _⟩ => ⟨S50000x128, .f32⟩
  | .hbm, ⟨72, _⟩ => ⟨S50000x128, .f32⟩
  | .hbm, ⟨73, _⟩ => ⟨S50000x128, .f32⟩
  | .hbm, ⟨74, _⟩ => ⟨S50000x128, .f32⟩
  | .hbm, ⟨75, _⟩ => ⟨S1x600000, .i32⟩
  | .hbm, ⟨76, _⟩ => ⟨S600000, .i32⟩
  | .hbm, ⟨77, _⟩ => ⟨S_, .i32⟩
  | .hbm, ⟨78, _⟩ => ⟨S600000, .i32⟩
  | .hbm, ⟨79, _⟩ => ⟨S600000, .i1⟩
  | .hbm, ⟨80, _⟩ => ⟨S_, .i32⟩
  | .hbm, ⟨81, _⟩ => ⟨S600000, .i32⟩
  | .hbm, ⟨82, _⟩ => ⟨S600000, .i32⟩
  | .hbm, ⟨83, _⟩ => ⟨S600000, .i32⟩
  | .hbm, ⟨84, _⟩ => ⟨S600000x1, .i32⟩
  | .hbm, ⟨85, _⟩ => ⟨S600000x128, .f32⟩
  | .hbm, ⟨86, _⟩ => ⟨S1x600000, .i32⟩
  | .hbm, ⟨87, _⟩ => ⟨S600000, .i32⟩
  | .hbm, ⟨88, _⟩ => ⟨S_, .f32⟩
  | .hbm, ⟨89, _⟩ => ⟨S50000x128, .f32⟩
  | .hbm, ⟨90, _⟩ => ⟨S600000x1, .i32⟩
  | .hbm, ⟨91, _⟩ => ⟨S50000x128, .f32⟩
  | .hbm, ⟨92, _⟩ => ⟨S_, .f32⟩
  | .hbm, ⟨93, _⟩ => ⟨S600000x1, .f32⟩
  | .hbm, ⟨94, _⟩ => ⟨S_, .f32⟩
  | .hbm, ⟨95, _⟩ => ⟨S50000x1, .f32⟩
  | .hbm, ⟨96, _⟩ => ⟨S600000x1, .i32⟩
  | .hbm, ⟨97, _⟩ => ⟨S50000x1, .f32⟩
  | .hbm, ⟨98, _⟩ => ⟨S_, .f32⟩
  | .hbm, ⟨99, _⟩ => ⟨S50000x1, .f32⟩
  | .hbm, ⟨100, _⟩ => ⟨S50000x1, .f32⟩
  | .hbm, ⟨101, _⟩ => ⟨S50000x128, .f32⟩
  | .hbm, ⟨102, _⟩ => ⟨S50000x128, .f32⟩
  | .hbm, ⟨103, _⟩ => ⟨S50000x128, .f32⟩
  | .hbm, ⟨104, _⟩ => ⟨S50000x128, .f32⟩
  | .hbm, ⟨105, _⟩ => ⟨S_, .f32⟩
  | .hbm, ⟨106, _⟩ => ⟨S50000x128, .f32⟩
  | .hbm, ⟨107, _⟩ => ⟨S50000x128, .f32⟩
  | .hbm, ⟨108, _⟩ => ⟨S_, .f32⟩
  | .hbm, ⟨109, _⟩ => ⟨S50000x128, .f32⟩
  | .hbm, ⟨110, _⟩ => ⟨S50000x128, .f32⟩
  | .hbm, ⟨111, _⟩ => ⟨S_, .f32⟩
  | .hbm, ⟨112, _⟩ => ⟨S50000x128, .f32⟩
  | .hbm, ⟨113, _⟩ => ⟨S50000x128, .f32⟩
  | .hbm, ⟨114, _⟩ => ⟨S_, .f32⟩
  | .hbm, ⟨115, _⟩ => ⟨S50000x128, .f32⟩
  | .hbm, ⟨116, _⟩ => ⟨S50000x128, .f32⟩
  | .hbm, ⟨117, _⟩ => ⟨S_, .f32⟩
  | .hbm, ⟨118, _⟩ => ⟨S50000x128, .f32⟩
  | .hbm, ⟨119, _⟩ => ⟨S50000x128, .f32⟩
  | .hbm, ⟨120, _⟩ => ⟨S_, .f32⟩
  | .hbm, ⟨121, _⟩ => ⟨S50000x128, .f32⟩
  | .hbm, ⟨122, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_1 : Ref sig .tc := ⟨.hbm, 30, rfl⟩
abbrev main_v16 : Ref sig .tc := ⟨.hbm, 31, rfl⟩
abbrev main_cst_2 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_3 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_4 : Ref sig .tc := ⟨.hbm, 46, rfl⟩
abbrev main_v29 : Ref sig .tc := ⟨.hbm, 47, rfl⟩
abbrev main_v30 : Ref sig .tc := ⟨.hbm, 48, rfl⟩
abbrev main_c_5 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_6 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_7 : Ref sig .tc := ⟨.hbm, 61, rfl⟩
abbrev main_v41 : Ref sig .tc := ⟨.hbm, 62, rfl⟩
abbrev main_cst_8 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_9 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_c_10 : Ref sig .tc := ⟨.hbm, 77, rfl⟩
abbrev main_v54 : Ref sig .tc := ⟨.hbm, 78, rfl⟩
abbrev main_v55 : Ref sig .tc := ⟨.hbm, 79, rfl⟩
abbrev main_c_11 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_12 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_13 : Ref sig .tc := ⟨.hbm, 92, rfl⟩
abbrev main_v66 : Ref sig .tc := ⟨.hbm, 93, rfl⟩
abbrev main_cst_14 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_cst_15 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_cst_16 : Ref sig .tc := ⟨.hbm, 105, rfl⟩
abbrev main_v76 : Ref sig .tc := ⟨.hbm, 106, rfl⟩
abbrev main_v77 : Ref sig .tc := ⟨.hbm, 107, rfl⟩
abbrev main_call0_cst : Ref sig .tc := ⟨.hbm, 108, rfl⟩
abbrev main_call0_v0 : Ref sig .tc := ⟨.hbm, 109, rfl⟩
abbrev main_v78 : Ref sig .tc := ⟨.hbm, 110, rfl⟩
abbrev main_call1_cst : Ref sig .tc := ⟨.hbm, 111, rfl⟩
abbrev main_call1_v0 : Ref sig .tc := ⟨.hbm, 112, rfl⟩
abbrev main_v79 : Ref sig .tc := ⟨.hbm, 113, rfl⟩
abbrev main_cst_17 : Ref sig .tc := ⟨.hbm, 114, rfl⟩
abbrev main_v80 : Ref sig .tc := ⟨.hbm, 115, rfl⟩
abbrev main_v81 : Ref sig .tc := ⟨.hbm, 116, rfl⟩
abbrev main_call2_cst : Ref sig .tc := ⟨.hbm, 117, rfl⟩
abbrev main_call2_v0 : Ref sig .tc := ⟨.hbm, 118, rfl⟩
abbrev main_v82 : Ref sig .tc := ⟨.hbm, 119, rfl⟩
abbrev main_call3_cst : Ref sig .tc := ⟨.hbm, 120, rfl⟩
abbrev main_call3_v0 : Ref sig .tc := ⟨.hbm, 121, rfl⟩
abbrev main_v83 : Ref sig .tc := ⟨.hbm, 122, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  bcast_S_S600000 : S_.BroadcastsInDim S600000 (![] : Fin 0 → Fin S600000.rank)
  bcast_S600000_S600000x1_0 : S600000.BroadcastsInDim S600000x1 (![0] : Fin 1 → Fin S600000x1.rank)
  slices_S2x600000_S1x600000_1_0 : S2x600000.Slices ![1, 0] S1x600000
  bcast_S_S50000x128 : S_.BroadcastsInDim S50000x128 (![] : Fin 0 → Fin S50000x128.rank)
  bcast_S_S600000x1 : S_.BroadcastsInDim S600000x1 (![] : Fin 0 → Fin S600000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  dot_S50000x128_S128x128_S50000x128_1_0_0_1_n_n_wf : DotDims.WF S50000x128 S128x128 S50000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000x1_S600000x1_S600000x1_1_0_0_1_wf : ScatterDims.WF S50000x1 S600000x1 S600000x1 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000x1_S600000x1_S600000x1_1_0_0_1 : ScatterDims S50000x1 S600000x1 S600000x1 where
  updateWindowDims := [1]
  insertedWindowDims := [0]
  scatterDimsToOperandDims := [0]
  indexVectorDim := 1
  wf := scatter_S50000x1_S600000x1_S600000x1_1_0_0_1_wf

class Facts : Prop extends Facts₀ where

variable [Facts]
-- ==== Proof.K.R0.lean ====
import proofs.«167871_j59854664237622_2_alg».proof.Proof.Gen.Kernel.Launch
import proofs.«167871_j59854664237622_2_alg».proof.Proof.Gen.Kernel.Skeleton
import proofs.«167871_j59854664237622_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The first launch: the user-side projections, one matrix product per row block cut into four column slabs

Each grid point holds a block of 5000 rows of the user features and the whole 128×512 weight panel, and writes
the four 5000×128 slabs of their product, one per result array. -/

section Region
variable (V : (c : Dev nD) → (b : Ref sig .tc) → Buf (Elt F) ((c : Thread nD τ).loc b))

/-- Window `w`'s block at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input's buffer holds its block at every point, whether the point fetched it or the block index stood still. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole-block rectangles the body loads and stores through. -/
abbrev r0_S5000x128 : Rect S5000x128 := Rect.unit (s := S5000x128) ![0, 0] S5000x128.size inb_S5000x128_S5000x128_0_0
abbrev r0_S128x512 : Rect S128x512 := Rect.unit (s := S128x512) ![0, 0] S128x512.size inb_S128x512_S128x512_0_0

/-! What the body leaves in each result's buffer: its one whole-block store. -/
def out0_2 (x0 : Vec F S5000x128 .f32) (x1 : Vec F S128x512 .f32) : Vec F S5000x128 .f32 :=
  View.canon [⟨r0_S5000x128, k0_pay2 (View.ld x0 r0_S5000x128) (View.ld x1 r0_S128x512)⟩]
theorem cover0_2 (p0 : Vec F S5000x128 .f32) (y : S5000x128.Idx) :
    ∃ pc ∈ ([⟨r0_S5000x128, p0⟩] : List (View.Piece (Elt F) S5000x128 .f32)), y ∈ pc.1.set :=
  View.cover_of_tiled [⟨r0_S5000x128, p0⟩] S5000x128.size (by rfl) y
def out0_3 (x0 : Vec F S5000x128 .f32) (x1 : Vec F S128x512 .f32) : Vec F S5000x128 .f32 :=
  View.canon [⟨r0_S5000x128, k0_pay3 (View.ld x0 r0_S5000x128) (View.ld x1 r0_S128x512)⟩]
theorem cover0_3 (p0 : Vec F S5000x128 .f32) (y : S5000x128.Idx) :
    ∃ pc ∈ ([⟨r0_S5000x128, p0⟩] : List (View.Piece (Elt F) S5000x128 .f32)), y ∈ pc.1.set :=
  View.cover_of_tiled [⟨r0_S5000x128, p0⟩] S5000x128.size (by rfl) y
def out0_4 (x0 : Vec F S5000x128 .f32) (x1 : Vec F S128x512 .f32) : Vec F S5000x128 .f32 :=
  View.canon [⟨r0_S5000x128, k0_pay4 (View.ld x0 r0_S5000x128) (View.ld x1 r0_S128x512)⟩]
theorem cover0_4 (p0 : Vec F S5000x128 .f32) (y : S5000x128.Idx) :
    ∃ pc ∈ ([⟨r0_S5000x128, p0⟩] : List (View.Piece (Elt F) S5000x128 .f32)), y ∈ pc.1.set :=
  View.cover_of_tiled [⟨r0_S5000x128, p0⟩] S5000x128.size (by rfl) y
def out0_5 (x0 : Vec F S5000x128 .f32) (x1 : Vec F S128x512 .f32) : Vec F S5000x128 .f32 :=
  View.canon [⟨r0_S5000x128, k0_pay5 (View.ld x0 r0_S5000x128) (View.ld x1 r0_S128x512)⟩]
theorem cover0_5 (p0 : Vec F S5000x128 .f32) (y : S5000x128.Idx) :
    ∃ pc ∈ ([⟨r0_S5000x128, p0⟩] : List (View.Piece (Elt F) S5000x128 .f32)), y ∈ pc.1.set :=
  View.cover_of_tiled [⟨r0_S5000x128, p0⟩] S5000x128.size (by rfl) y

set_option maxHeartbeats 4000000 in
/-- The body on whole staging buffers: the inputs are read and kept, each result's buffer ends at its `out`. -/
theorem sound_kernel0 (c : Dev nD) (E : Set ℕ) (i : grid0.Coords)
    (arg1 : Memref sig .tc .vmem S5000x128 .f32) (harg1 : arg1.IsWhole) (arg2 : Memref sig .tc .vmem S128x512 .f32) (harg2 : arg2.IsWhole) (arg3 : Memref sig .tc .vmem S5000x128 .f32) (harg3 : arg3.IsWhole) (arg4 : Memref sig .tc .vmem S5000x128 .f32) (harg4 : arg4.IsWhole) (arg5 : Memref sig .tc .vmem S5000x128 .f32) (harg5 : arg5.IsWhole) (arg6 : Memref sig .tc .vmem S5000x128 .f32) (harg6 : arg6.IsWhole)
    (x0 : Vec F S5000x128 .f32) (x1 : Vec F S128x512 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare (out0_2 x0 x1) ∗ owns (c : Thread nD τ) arg4 fullShare (out0_3 x0 x1) ∗ owns (c : Thread nD τ) arg5 fullShare (out0_4 x0 x1) ∗ owns (c : Thread nD τ) arg6 fullShare (out0_5 x0 x1)) -∗ K ⟨⟩))
      ⊢ wp frame (wpE (defs₀ (F := F)) Variants.none c none) E (cc0__proj_multi_kernel i arg1 harg1 arg2 harg2 arg3 harg3 arg4 harg4 arg5 harg5 arg6 harg6) K := by
  simp only [cc0__proj_multi_kernel_eq_skeleton]; unfold cc0__proj_multi_kernel_skel
  unfold owns
  iintro ⟨⟨%f0, %hf0, H0⟩, ⟨%f1, %hf1, H1⟩, ⟨%d2, %f2, -, H2⟩, ⟨%d3, %f3, -, H3⟩, ⟨%d4, %f4, -, H4⟩, ⟨%d5, %f5, -, H5⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0_2 _)
  isplitl [H3]
  · iexists _; isplitr
    swap; · iexact H3
    ipureintro
    exact View.read_writes_eq_canon _ _ _ (cover0_3 _)
  isplitl [H4]
  · iexists _; isplitr
    swap; · iexact H4
    ipureintro
    exact View.read_writes_eq_canon _ _ _ (cover0_4 _)
  iexists _; isplitr
  swap; · iexact H5
  ipureintro
  exact View.read_writes_eq_canon _ _ _ (cover0_5 _)

/-- The launch's proof data: the arrays as found; after the body each input's buffer at its block and each result's at its
    `out` of the input blocks; the scoped rest and the generator register untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
    | ⟨4, _⟩ => out0_4 (iblk0 V c 0 t) (iblk0 V c 1 t)
    | ⟨5, _⟩ => out0_5 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at a point, and what it returns. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation0 (c : Dev nD) : BodyObligation (dat0 (F := F) V c) (defs₀ (F := F)) Variants.none () Set.univ := fun t => by
  rw [bigSep_W0, bigSep_W0]
  exact sound_body0 V c t

end Region

end Cert.Kernel.Hand

end
-- ==== Proof.K.R1.lean ====
import proofs.«167871_j59854664237622_2_alg».proof.Proof.Gen.Kernel.Launch
import proofs.«167871_j59854664237622_2_alg».proof.Proof.Gen.Kernel.Skeleton
import proofs.«167871_j59854664237622_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The second launch: the item-side projections, one matrix product per row block cut into two column slabs

Each grid point holds a block of 5000 rows of the item features and the whole 128×256 weight panel, and writes
the two 5000×128 slabs of their product. -/

section Region
variable (V : (c : Dev nD) → (b : Ref sig .tc) → Buf (Elt F) ((c : Thread nD τ).loc b))

/-- Window `w`'s block at point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input's buffer holds its block at every point, whether the point fetched it or the block index stood still. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The whole-block rectangles the body loads and stores through. -/
abbrev r1_S5000x128 : Rect S5000x128 := Rect.unit (s := S5000x128) ![0, 0] S5000x128.size inb_S5000x128_S5000x128_0_0
abbrev r1_S128x256 : Rect S128x256 := Rect.unit (s := S128x256) ![0, 0] S128x256.size inb_S128x256_S128x256_0_0

/-! What the body leaves in each result's buffer: its one whole-block store. -/
def out1_2 (x0 : Vec F S5000x128 .f32) (x1 : Vec F S128x256 .f32) : Vec F S5000x128 .f32 :=
  View.canon [⟨r1_S5000x128, k1_pay2 (View.ld x0 r1_S5000x128) (View.ld x1 r1_S128x256)⟩]
theorem cover1_2 (p0 : Vec F S5000x128 .f32) (y : S5000x128.Idx) :
    ∃ pc ∈ ([⟨r1_S5000x128, p0⟩] : List (View.Piece (Elt F) S5000x128 .f32)), y ∈ pc.1.set :=
  View.cover_of_tiled [⟨r1_S5000x128, p0⟩] S5000x128.size (by rfl) y
def out1_3 (x0 : Vec F S5000x128 .f32) (x1 : Vec F S128x256 .f32) : Vec F S5000x128 .f32 :=
  View.canon [⟨r1_S5000x128, k1_pay3 (View.ld x0 r1_S5000x128) (View.ld x1 r1_S128x256)⟩]
theorem cover1_3 (p0 : Vec F S5000x128 .f32) (y : S5000x128.Idx) :
    ∃ pc ∈ ([⟨r1_S5000x128, p0⟩] : List (View.Piece (Elt F) S5000x128 .f32)), y ∈ pc.1.set :=
  View.cover_of_tiled [⟨r1_S5000x128, p0⟩] S5000x128.size (by rfl) y

set_option maxHeartbeats 4000000 in
/-- The body on whole staging buffers: the inputs are read and kept, each result's buffer ends at its `out`. -/
theorem sound_kernel1 (c : Dev nD) (E : Set ℕ) (i : grid1.Coords)
    (arg1 : Memref sig .tc .vmem S5000x128 .f32) (harg1 : arg1.IsWhole) (arg2 : Memref sig .tc .vmem S128x256 .f32) (harg2 : arg2.IsWhole) (arg3 : Memref sig .tc .vmem S5000x128 .f32) (harg3 : arg3.IsWhole) (arg4 : Memref sig .tc .vmem S5000x128 .f32) (harg4 : arg4.IsWhole)
    (x0 : Vec F S5000x128 .f32) (x1 : Vec F S128x256 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (out1_2 x0 x1) ∗ owns (c : Thread nD τ) arg4 fullShare (out1_3 x0 x1)) -∗ K ⟨⟩))
      ⊢ wp frame (wpE (defs₀ (F := F)) Variants.none c none) E (cc1__proj_multi_kernel i arg1 harg1 arg2 harg2 arg3 harg3 arg4 harg4) K := by
  simp only [cc1__proj_multi_kernel_eq_skeleton]; unfold cc1__proj_multi_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover1_2 _)
  iexists _; isplitr
  swap; · iexact H3
  ipureintro
  exact View.read_writes_eq_canon _ _ _ (cover1_3 _)

/-- The launch's proof data: the arrays as found; after the body each input's buffer at its block and each result's at its
    `out` of the input blocks; the scoped rest and the generator register untouched; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
    | ⟨3, _⟩ => out1_3 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]
theorem after1_3 (c : Dev nD) (t : Fin cfg1.N) : (dat1 V c).after 3 t = out1_3 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at a point, and what it returns. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Region

end Cert.Kernel.Hand

end
-- ==== Proof.K.R2.lean ====
import proofs.«167871_j59854664237622_2_alg».proof.Proof.Gen.Kernel.Launch
import proofs.«167871_j59854664237622_2_alg».proof.Proof.Gen.Kernel.Skeleton
import proofs.«167871_j59854664237622_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The third launch: the item-side combine, a pointwise body over row blocks

Each grid point holds a block of 5000 rows of the projected targets, of the segment sums and of the segment
counts, and writes the block of the result. -/

section Region
variable (V : (c : Dev nD) → (b : Ref sig .tc) → Buf (Elt F) ((c : Thread nD τ).loc b))

/-- Window `w`'s block at point `t`, read off its array as the launch finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! An input's buffer holds its block at every point, whether the point fetched it or the block index stood still. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The whole-block rectangles the body loads and stores through. -/
abbrev r2_S5000x128 : Rect S5000x128 := Rect.unit (s := S5000x128) ![0, 0] S5000x128.size inb_S5000x128_S5000x128_0_0
abbrev r2_S5000x1 : Rect S5000x1 := Rect.unit (s := S5000x1) ![0, 0] S5000x1.size inb_S5000x1_S5000x1_0_0

/-! What the body leaves in each result's buffer: its one whole-block store. -/
def out2_3 (x0 : Vec F S5000x128 .f32) (x1 : Vec F S5000x128 .f32) (x2 : Vec F S5000x1 .f32) : Vec F S5000x128 .f32 :=
  View.canon [⟨r2_S5000x128, k2_pay1 (View.ld x1 r2_S5000x128) (View.ld x2 r2_S5000x1) (View.ld x0 r2_S5000x128)⟩]
theorem cover2_3 (p0 : Vec F S5000x128 .f32) (y : S5000x128.Idx) :
    ∃ pc ∈ ([⟨r2_S5000x128, p0⟩] : List (View.Piece (Elt F) S5000x128 .f32)), y ∈ pc.1.set :=
  View.cover_of_tiled [⟨r2_S5000x128, p0⟩] S5000x128.size (by rfl) y

set_option maxHeartbeats 4000000 in
/-- The body on whole staging buffers: the inputs are read and kept, each result's buffer ends at its `out`. -/
theorem sound_kernel2 (c : Dev nD) (E : Set ℕ) (i : grid2.Coords)
    (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S5000x128 .f32) (harg4 : arg4.IsWhole)
    (x0 : Vec F S5000x128 .f32) (x1 : Vec F S5000x128 .f32) (x2 : Vec F S5000x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__combine2_kernel i arg1 harg1 arg2 harg2 arg3 harg3 arg4 harg4) K := by
  simp only [cc2__combine2_kernel_eq_skeleton]; unfold cc2__combine2_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2

  iexists _; isplitr
  swap; · iexact H3
  ipureintro
  exact View.read_writes_eq_canon _ _ _ (cover2_3 _)

/-- The launch's proof data: the arrays as found; after the body each input's buffer at its block and each result's at its
    `out` of the input blocks; the scoped rest and the generator register untouched; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at a point, and what it returns. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation2 (c : Dev nD) : BodyObligation (dat2 (F := F) V c) (defs₀ (F := F)) Variants.none () Set.univ := fun t => by
  rw [bigSep_W2, bigSep_W2]
  exact sound_body2 V c t

end Region

end Cert.Kernel.Hand

end
-- ==== Proof.K.R3.lean ====
import proofs.«167871_j59854664237622_2_alg».proof.Proof.Gen.Kernel.Launch
import proofs.«167871_j59854664237622_2_alg».proof.Proof.Gen.Kernel.Skeleton
import proofs.«167871_j59854664237622_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The fourth launch: the user-side combine of two relations, a pointwise body over row blocks

Each grid point holds, for each of the two relations, a block of 2000 rows of the projected targets, of the
segment sums and of the segment counts, and writes the block of the result. -/

section Region
variable (V : (c : Dev nD) → (b : Ref sig .tc) → Buf (Elt F) ((c : Thread nD τ).loc b))

/-- Window `w`'s block at point `t`, read off its array as the launch finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! An input's buffer holds its block at every point, whether the point fetched it or the block index stood still. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-- The whole-block rectangles the body loads and stores through. -/
abbrev r3_S2000x128 : Rect S2000x128 := Rect.unit (s := S2000x128) ![0, 0] S2000x128.size inb_S2000x128_S2000x128_0_0
abbrev r3_S2000x1 : Rect S2000x1 := Rect.unit (s := S2000x1) ![0, 0] S2000x1.size inb_S2000x1_S2000x1_0_0

/-! What the body leaves in each result's buffer: its one whole-block store. -/
def out3_6 (x0 : Vec F S2000x128 .f32) (x1 : Vec F S2000x128 .f32) (x2 : Vec F S2000x1 .f32) (x3 : Vec F S2000x128 .f32) (x4 : Vec F S2000x128 .f32) (x5 : Vec F S2000x1 .f32) : Vec F S2000x128 .f32 :=
  View.canon [⟨r3_S2000x128, k3_pay1 (View.ld x1 r3_S2000x128) (View.ld x2 r3_S2000x1) (View.ld x4 r3_S2000x128) (View.ld x5 r3_S2000x1) (View.ld x0 r3_S2000x128) (View.ld x3 r3_S2000x128)⟩]
theorem cover3_6 (p0 : Vec F S2000x128 .f32) (y : S2000x128.Idx) :
    ∃ pc ∈ ([⟨r3_S2000x128, p0⟩] : List (View.Piece (Elt F) S2000x128 .f32)), y ∈ pc.1.set :=
  View.cover_of_tiled [⟨r3_S2000x128, p0⟩] S2000x128.size (by rfl) y

set_option maxHeartbeats 4000000 in
/-- The body on whole staging buffers: the inputs are read and kept, each result's buffer ends at its `out`. -/
theorem sound_kernel3 (c : Dev nD) (E : Set ℕ) (i : grid3.Coords)
    (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S2000x128 .f32) (harg4 : arg4.IsWhole) (arg5 : Memref sig .tc .vmem S2000x128 .f32) (harg5 : arg5.IsWhole) (arg6 : Memref sig .tc .vmem S2000x1 .f32) (harg6 : arg6.IsWhole) (arg7 : Memref sig .tc .vmem S2000x128 .f32) (harg7 : arg7.IsWhole)
    (x0 : Vec F S2000x128 .f32) (x1 : Vec F S2000x128 .f32) (x2 : Vec F S2000x1 .f32) (x3 : Vec F S2000x128 .f32) (x4 : Vec F S2000x128 .f32) (x5 : Vec F S2000x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out3_6 x0 x1 x2 x3 x4 x5)) -∗ K ⟨⟩))
      ⊢ wp frame (wpE (defs₀ (F := F)) Variants.none c none) E (cc3__combine4_kernel i arg1 harg1 arg2 harg2 arg3 harg3 arg4 harg4 arg5 harg5 arg6 harg6 arg7 harg7) K := by
  simp only [cc3__combine4_kernel_eq_skeleton]; unfold cc3__combine4_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5

  iexists _; isplitr
  swap; · iexact H6
  ipureintro
  exact View.read_writes_eq_canon _ _ _ (cover3_6 _)

/-- The launch's proof data: the arrays as found; after the body each input's buffer at its block and each result's at its
    `out` of the input blocks; the scoped rest and the generator register untouched; nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 1 t) (iblk3 V c 2 t) (iblk3 V c 3 t) (iblk3 V c 4 t) (iblk3 V c 5 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = out3_6 (iblk3 V c 0 t) (iblk3 V c 1 t) (iblk3 V c 2 t) (iblk3 V c 3 t) (iblk3 V c 4 t) (iblk3 V c 5 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d

/-- What the body is called with at a point, and what it returns. -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ _ _ _ _ _ _ _ _ _ _ _ _ _ _ _ (iblk3 V c 0 t) (iblk3 V c 1 t) (iblk3 V c 2 t) (iblk3 V c 3 t) (iblk3 V c 4 t) (iblk3 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation3 (c : Dev nD) : BodyObligation (dat3 (F := F) V c) (defs₀ (F := F)) Variants.none () Set.univ := fun t => by
  rw [bigSep_W3, bigSep_W3]
  exact sound_body3 V c t

end Region

end Cert.Kernel.Hand

end
-- ==== Proof.K.Run.lean ====
import proofs.«167871_j59854664237622_2_alg».proof.Proof.Gen.Kernel.Launch
import proofs.«167871_j59854664237622_2_alg».proof.Proof.Gen.Kernel.Skeleton
import proofs.«167871_j59854664237622_2_alg».proof.Proof.Gen.Kernel.Points
import proofs.«167871_j59854664237622_2_alg».proof.Proof.K.R0
import proofs.«167871_j59854664237622_2_alg».proof.Proof.K.R1
import proofs.«167871_j59854664237622_2_alg».proof.Proof.K.R2
import proofs.«167871_j59854664237622_2_alg».proof.Proof.K.R3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The whole program as seven segments

Two host operations build the two weight panels; two launches project the user and the item features; a long stretch
of host operations gathers, scatters and counts along the three edge lists; two launches combine. Between segments the
state is "every unscoped buffer at the contents the fold below names", the generator register and nothing owed. -/

variable (m : (ℓ : Loc nD τ sig) → Buf (Elt F) ℓ) (ρ : Dev nD → PrngReg)

/-! ## The buffer contents at each segment boundary -/

/-- At launch. -/
abbrev W0 : Dev nD → Valuation τ sig (Elt F) := fun c b => (s₀ m ρ).mem ((c : Dev nD), b)
/-- After the two concatenations (the first launch's entry). -/
abbrev W1 : Dev nD → Valuation τ sig (Elt F) := fun c => StableHlo.after main_part0_ops0 (W0 m ρ c)
abbrev V1 : (c : Dev nD) → (b : Ref sig .tc) → Buf (Elt F) ((c : Thread nD τ).loc b) := fun c b => W1 m ρ c b

/-- At launch 0's exit: its arrays at what the write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At launch 1's exit: its arrays at what the write-backs leave, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the first part of the gather–scatter stretch, -/
abbrev W4 : Dev nD → Valuation τ sig (Elt F) := fun c => StableHlo.after main_part0_ops1 (W3 m ρ c)
/-- and after its second part (the third launch's entry). -/
abbrev W5 : Dev nD → Valuation τ sig (Elt F) := fun c => StableHlo.after main_part1_ops0 (W4 m ρ c)
abbrev V5 : (c : Dev nD) → (b : Ref sig .tc) → Buf (Elt F) ((c : Thread nD τ).loc b) := fun c b => W5 m ρ c b

/-- At launch 2's exit: its arrays at what the write-backs leave, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- At launch 3's exit: its arrays at what the write-backs leave, every other buffer as entered. -/
def W7 (c : Dev nD) : Valuation τ sig (Elt F) :=
  Pipeline.withArrays spec3 c (W6 m ρ c) fun w => (dat3 (V6 m ρ) c).arrAt w cfg3.N
theorem W7_arr (c : Dev nD) (w : Fin cfg3.W) :
    W7 m ρ c (Proc.devRef .tc (Pipeline.arrRef spec3 w)) = (dat3 (V6 m ρ) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) := by
  unfold W7; exact Pipeline.withArrays_of_ne spec3 c _ _ b hb
abbrev V7 : (c : Dev nD) → (b : Ref sig .tc) → Buf (Elt F) ((c : Thread nD τ).loc b) := fun c b => W7 m ρ c b
theorem hF3 (c : Dev nD) (w : Fin cfg3.W) : (dat3 (V6 m ρ) c).arrAt w cfg3.N = V7 m ρ c (Pipeline.arrRef spec3 w) :=
  (W7_arr m ρ c w).symm
theorem hrest3 (c : Dev nD) : ∀ b, b ∉ Finset.univ.image (Pipeline.arrRef spec3) → V7 m ρ c b = V6 m ρ c b :=
  fun b hb => W7_of_ne m ρ c b fun w e => hb (Finset.mem_image.mpr ⟨w, Finset.mem_univ _, e⟩)

/-! ## The arguments end as launched: no host operation writes one, and a launch only reads them -/

/-- The references the stretch `main_part0_ops0` writes. -/
def wrA : List (Ref sig .tc) := [main_v0, main_v1]
set_option maxHeartbeats 4000000 in
theorem wrA_sub : (main_part0_ops0 : List (HloOp τ sig (Elt F))).Forall fun op => op.writes ⊆ (wrA.map (Proc.devRef (τ := τ) .tc)).toFinset := by
  simp only [main_part0_ops0, List.Forall, StableHlo.nullary_writes, StableHlo.unary_writes, StableHlo.binary_writes, StableHlo.ternary_writes,
    StableHlo.reshape_writes, StableHlo.nary_writes, Finset.singleton_subset_iff, List.mem_toFinset]
  repeat' apply And.intro
  all_goals exact List.mem_map_of_mem (by decide)
/-- A reference the stretch does not write keeps its contents. -/
theorem keepA (W : Valuation τ sig (Elt F)) (r : Ref sig .tc) (hr : r ∉ wrA) :
    StableHlo.after (main_part0_ops0 : List (HloOp τ sig (Elt F))) W (Proc.devRef .tc r) = W (Proc.devRef .tc r) :=
  StableHlo.after_of_writes_sub _ W wrA_sub hr

/-- The references the stretch `main_part0_ops1` writes. -/
def wrB : List (Ref sig .tc) := [main_v4, main_v5, main_v6, main_c, main_v7, main_v8, main_c_0, main_v9, main_v10, main_v11, main_v12, main_v13, main_v14, main_v15, main_v16, main_cst, main_v17, main_v18, main_v19, main_cst_1, main_v20, main_cst_2, main_v21, main_v22, main_v23, main_v24, main_v25, main_v26, main_c_3, main_v27, main_v28, main_c_4, main_v29, main_v30, main_v31, main_v32, main_v33, main_v34, main_v35, main_v36, main_cst_5, main_v37, main_v38, main_v39, main_cst_6, main_v40, main_cst_7, main_v41, main_v42, main_v43, main_v44, main_v45, main_v46, main_c_8, main_v47, main_v48]
set_option maxHeartbeats 4000000 in
theorem wrB_sub : (main_part0_ops1 : List (HloOp τ sig (Elt F))).Forall fun op => op.writes ⊆ (wrB.map (Proc.devRef (τ := τ) .tc)).toFinset := by
  simp only [main_part0_ops1, List.Forall, StableHlo.nullary_writes, StableHlo.unary_writes, StableHlo.binary_writes, StableHlo.ternary_writes,
    StableHlo.reshape_writes, StableHlo.nary_writes, Finset.singleton_subset_iff, List.mem_toFinset]
  repeat' apply And.intro
  all_goals exact List.mem_map_of_mem (by decide)
/-- A reference the stretch does not write keeps its contents. -/
theorem keepB (W : Valuation τ sig (Elt F)) (r : Ref sig .tc) (hr : r ∉ wrB) :
    StableHlo.after (main_part0_ops1 : List (HloOp τ sig (Elt F))) W (Proc.devRef .tc r) = W (Proc.devRef .tc r) :=
  StableHlo.after_of_writes_sub _ W wrB_sub hr

/-- The references the stretch `main_part1_ops0` writes. -/
def wrC : List (Ref sig .tc) := [main_c_9, main_v49, main_v50, main_v51, main_v52, main_v53, main_v54, main_v55, main_v56, main_cst_10, main_v57, main_v58, main_v59, main_cst_11, main_v60, main_cst_12, main_v61, main_v62, main_v63]
set_option maxHeartbeats 4000000 in
theorem wrC_sub : (main_part1_ops0 : List (HloOp τ sig (Elt F))).Forall fun op => op.writes ⊆ (wrC.map (Proc.devRef (τ := τ) .tc)).toFinset := by
  simp only [main_part1_ops0, List.Forall, StableHlo.nullary_writes, StableHlo.unary_writes, StableHlo.binary_writes, StableHlo.ternary_writes,
    StableHlo.reshape_writes, StableHlo.nary_writes, Finset.singleton_subset_iff, List.mem_toFinset]
  repeat' apply And.intro
  all_goals exact List.mem_map_of_mem (by decide)
/-- A reference the stretch does not write keeps its contents. -/
theorem keepC (W : Valuation τ sig (Elt F)) (r : Ref sig .tc) (hr : r ∉ wrC) :
    StableHlo.after (main_part1_ops0 : List (HloOp τ sig (Elt F))) W (Proc.devRef .tc r) = W (Proc.devRef .tc r) :=
  StableHlo.after_of_writes_sub _ W wrC_sub hr

theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := W7_of_ne m ρ c main_arg0 (by decide)
    _ = W5 m ρ c (Proc.devRef .tc main_arg0) := W6_of_ne m ρ c main_arg0 (by decide)
    _ = W4 m ρ c (Proc.devRef .tc main_arg0) := keepC _ main_arg0 (by decide)
    _ = W3 m ρ c (Proc.devRef .tc main_arg0) := keepB _ main_arg0 (by decide)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := keepA _ main_arg0 (by decide)
    _ = m ((c : Thread nD τ).loc main_arg0) := rfl
theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := W7_of_ne m ρ c main_arg1 (by decide)
    _ = W5 m ρ c (Proc.devRef .tc main_arg1) := W6_of_ne m ρ c main_arg1 (by decide)
    _ = W4 m ρ c (Proc.devRef .tc main_arg1) := keepC _ main_arg1 (by decide)
    _ = W3 m ρ c (Proc.devRef .tc main_arg1) := keepB _ main_arg1 (by decide)
    _ = W2 m ρ c (Proc.devRef .tc main_arg1) := (W3_arr m ρ c 0).trans (((dat1 (V2 m ρ) c).arrAt_in 0 rfl _).trans (A_eq1 (V2 m ρ) c 0))
    _ = W1 m ρ c (Proc.devRef .tc main_arg1) := W2_of_ne m ρ c main_arg1 (by decide)
    _ = W0 m ρ c (Proc.devRef .tc main_arg1) := keepA _ main_arg1 (by decide)
    _ = m ((c : Thread nD τ).loc main_arg1) := rfl
theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := W7_of_ne m ρ c main_arg2 (by decide)
    _ = W5 m ρ c (Proc.devRef .tc main_arg2) := W6_of_ne m ρ c main_arg2 (by decide)
    _ = W4 m ρ c (Proc.devRef .tc main_arg2) := keepC _ main_arg2 (by decide)
    _ = W3 m ρ c (Proc.devRef .tc main_arg2) := keepB _ main_arg2 (by decide)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := keepA _ main_arg2 (by decide)
    _ = m ((c : Thread nD τ).loc main_arg2) := rfl
theorem W7_main_arg3 (c : Dev nD) : W7 m ρ c (Proc.devRef .tc main_arg3) = m ((c : Thread nD τ).loc main_arg3) :=
  calc W7 m ρ c (Proc.devRef .tc main_arg3)
    _ = W6 m ρ c (Proc.devRef .tc main_arg3) := W7_of_ne m ρ c main_arg3 (by decide)
    _ = W5 m ρ c (Proc.devRef .tc main_arg3) := W6_of_ne m ρ c main_arg3 (by decide)
    _ = W4 m ρ c (Proc.devRef .tc main_arg3) := keepC _ main_arg3 (by decide)
    _ = W3 m ρ c (Proc.devRef .tc main_arg3) := keepB _ main_arg3 (by decide)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := keepA _ main_arg3 (by decide)
    _ = m ((c : Thread nD τ).loc main_arg3) := rfl
theorem W7_main_arg4 (c : Dev nD) : W7 m ρ c (Proc.devRef .tc main_arg4) = m ((c : Thread nD τ).loc main_arg4) :=
  calc W7 m ρ c (Proc.devRef .tc main_arg4)
    _ = W6 m ρ c (Proc.devRef .tc main_arg4) := W7_of_ne m ρ c main_arg4 (by decide)
    _ = W5 m ρ c (Proc.devRef .tc main_arg4) := W6_of_ne m ρ c main_arg4 (by decide)
    _ = W4 m ρ c (Proc.devRef .tc main_arg4) := keepC _ main_arg4 (by decide)
    _ = W3 m ρ c (Proc.devRef .tc main_arg4) := keepB _ main_arg4 (by decide)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := keepA _ main_arg4 (by decide)
    _ = m ((c : Thread nD τ).loc main_arg4) := rfl
theorem W7_main_arg5 (c : Dev nD) : W7 m ρ c (Proc.devRef .tc main_arg5) = m ((c : Thread nD τ).loc main_arg5) :=
  calc W7 m ρ c (Proc.devRef .tc main_arg5)
    _ = W6 m ρ c (Proc.devRef .tc main_arg5) := W7_of_ne m ρ c main_arg5 (by decide)
    _ = W5 m ρ c (Proc.devRef .tc main_arg5) := W6_of_ne m ρ c main_arg5 (by decide)
    _ = W4 m ρ c (Proc.devRef .tc main_arg5) := keepC _ main_arg5 (by decide)
    _ = W3 m ρ c (Proc.devRef .tc main_arg5) := keepB _ main_arg5 (by decide)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := keepA _ main_arg5 (by decide)
    _ = m ((c : Thread nD τ).loc main_arg5) := rfl
theorem W7_main_arg6 (c : Dev nD) : W7 m ρ c (Proc.devRef .tc main_arg6) = m ((c : Thread nD τ).loc main_arg6) :=
  calc W7 m ρ c (Proc.devRef .tc main_arg6)
    _ = W6 m ρ c (Proc.devRef .tc main_arg6) := W7_of_ne m ρ c main_arg6 (by decide)
    _ = W5 m ρ c (Proc.devRef .tc main_arg6) := W6_of_ne m ρ c main_arg6 (by decide)
    _ = W4 m ρ c (Proc.devRef .tc main_arg6) := keepC _ main_arg6 (by decide)
    _ = W3 m ρ c (Proc.devRef .tc main_arg6) := keepB _ main_arg6 (by decide)
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := keepA _ main_arg6 (by decide)
    _ = m ((c : Thread nD τ).loc main_arg6) := rfl
theorem W7_main_arg7 (c : Dev nD) : W7 m ρ c (Proc.devRef .tc main_arg7) = m ((c : Thread nD τ).loc main_arg7) :=
  calc W7 m ρ c (Proc.devRef .tc main_arg7)
    _ = W6 m ρ c (Proc.devRef .tc main_arg7) := W7_of_ne m ρ c main_arg7 (by decide)
    _ = W5 m ρ c (Proc.devRef .tc main_arg7) := W6_of_ne m ρ c main_arg7 (by decide)
    _ = W4 m ρ c (Proc.devRef .tc main_arg7) := keepC _ main_arg7 (by decide)
    _ = W3 m ρ c (Proc.devRef .tc main_arg7) := keepB _ main_arg7 (by decide)
    _ = W2 m ρ c (Proc.devRef .tc main_arg7) := W3_of_ne m ρ c main_arg7 (by decide)
    _ = W1 m ρ c (Proc.devRef .tc main_arg7) := W2_of_ne m ρ c main_arg7 (by decide)
    _ = W0 m ρ c (Proc.devRef .tc main_arg7) := keepA _ main_arg7 (by decide)
    _ = m ((c : Thread nD τ).loc main_arg7) := rfl
theorem W7_main_arg8 (c : Dev nD) : W7 m ρ c (Proc.devRef .tc main_arg8) = m ((c : Thread nD τ).loc main_arg8) :=
  calc W7 m ρ c (Proc.devRef .tc main_arg8)
    _ = W6 m ρ c (Proc.devRef .tc main_arg8) := W7_of_ne m ρ c main_arg8 (by decide)
    _ = W5 m ρ c (Proc.devRef .tc main_arg8) := W6_of_ne m ρ c main_arg8 (by decide)
    _ = W4 m ρ c (Proc.devRef .tc main_arg8) := keepC _ main_arg8 (by decide)
    _ = W3 m ρ c (Proc.devRef .tc main_arg8) := keepB _ main_arg8 (by decide)
    _ = W2 m ρ c (Proc.devRef .tc main_arg8) := W3_of_ne m ρ c main_arg8 (by decide)
    _ = W1 m ρ c (Proc.devRef .tc main_arg8) := W2_of_ne m ρ c main_arg8 (by decide)
    _ = W0 m ρ c (Proc.devRef .tc main_arg8) := keepA _ main_arg8 (by decide)
    _ = m ((c : Thread nD τ).loc main_arg8) := rfl
theorem W7_main_arg9 (c : Dev nD) : W7 m ρ c (Proc.devRef .tc main_arg9) = m ((c : Thread nD τ).loc main_arg9) :=
  calc W7 m ρ c (Proc.devRef .tc main_arg9)
    _ = W6 m ρ c (Proc.devRef .tc main_arg9) := W7_of_ne m ρ c main_arg9 (by decide)
    _ = W5 m ρ c (Proc.devRef .tc main_arg9) := W6_of_ne m ρ c main_arg9 (by decide)
    _ = W4 m ρ c (Proc.devRef .tc main_arg9) := keepC _ main_arg9 (by decide)
    _ = W3 m ρ c (Proc.devRef .tc main_arg9) := keepB _ main_arg9 (by decide)
    _ = W2 m ρ c (Proc.devRef .tc main_arg9) := W3_of_ne m ρ c main_arg9 (by decide)
    _ = W1 m ρ c (Proc.devRef .tc main_arg9) := W2_of_ne m ρ c main_arg9 (by decide)
    _ = W0 m ρ c (Proc.devRef .tc main_arg9) := keepA _ main_arg9 (by decide)
    _ = m ((c : Thread nD τ).loc main_arg9) := rfl
theorem W7_main_arg10 (c : Dev nD) : W7 m ρ c (Proc.devRef .tc main_arg10) = m ((c : Thread nD τ).loc main_arg10) :=
  calc W7 m ρ c (Proc.devRef .tc main_arg10)
    _ = W6 m ρ c (Proc.devRef .tc main_arg10) := W7_of_ne m ρ c main_arg10 (by decide)
    _ = W5 m ρ c (Proc.devRef .tc main_arg10) := W6_of_ne m ρ c main_arg10 (by decide)
    _ = W4 m ρ c (Proc.devRef .tc main_arg10) := keepC _ main_arg10 (by decide)
    _ = W3 m ρ c (Proc.devRef .tc main_arg10) := keepB _ main_arg10 (by decide)
    _ = W2 m ρ c (Proc.devRef .tc main_arg10) := W3_of_ne m ρ c main_arg10 (by decide)
    _ = W1 m ρ c (Proc.devRef .tc main_arg10) := W2_of_ne m ρ c main_arg10 (by decide)
    _ = W0 m ρ c (Proc.devRef .tc main_arg10) := keepA _ main_arg10 (by decide)
    _ = m ((c : Thread nD τ).loc main_arg10) := rfl

/-! ## The proof data family and the thread state -/

abbrev adm : (p : Fin 4) → (pcfgs (F := F) p).Adm := fun p => (cfgs p).toPCfg_adm
/-- Every launch's proof data, each at its entry contents. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V5 m ρ) c
  | ⟨3, _⟩ => fun c => dat3 (V6 m ρ) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
/-- A stretch of host operations as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem opsA_fresh : (main_part0_ops0 : List (HloOp τ sig (Elt F))).Forall fun op => op.fresh = ∅ := by
  simp only [List.Forall]; repeat' constructor
set_option maxHeartbeats 4000000 in
theorem opsB_fresh : (main_part0_ops1 : List (HloOp τ sig (Elt F))).Forall fun op => op.fresh = ∅ := by
  simp only [List.Forall]; repeat' constructor
theorem opsC_fresh : (main_part1_ops0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W7 m ρ c) ∗ ∃ r, prngReg c r)

/-! ## The launches as segments -/

set_option backward.isDefEq.respectTransparency.types false in
/-- Launch 0 as a segment: entered from every unscoped buffer at `W1`, left at `W2`. Its arrays are split out of the
    unscoped buffers and put back at what the write-backs leave; the generator register goes into the invariant and comes
    back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1 as a segment: entered from every unscoped buffer at `W2`, left at `W3`. Its arrays are split out of the
    unscoped buffers and put back at what the write-backs leave; the generator register goes into the invariant and comes
    back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 2 as a segment: entered from every unscoped buffer at `W5`, left at `W6`. Its arrays are split out of the
    unscoped buffers and put back at what the write-backs leave; the generator register goes into the invariant and comes
    back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 3 as a segment: entered from every unscoped buffer at `W6`, left at `W7`. Its arrays are split out of the
    unscoped buffers and put back at what the write-backs leave; the generator register goes into the invariant and comes
    back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V6 m ρ) c).loose
  hwaits := Pipeline.hwaits_of_owed_zero _ _ _ _ L lv 3 fun _ _ => rfl
  pre c := iprop(StableHlo.held (c : Thread nD τ) (Pipeline.ucRefs τ sig) (W6 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V6 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V6 m ρ c) (V7 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its segments, and the run -/

abbrev segs : List (Pipeline.Seg (pcfgs (F := F)) adm (pdats m ρ) () defs₀ 𝒱₀ L lv) :=
  [ .host (hseg main_part0_ops0 main_part0_ops0_sub opsA_fresh (W0 m ρ)),
    .region (reg0 m ρ),
    .region (reg1 m ρ),
    .host (hseg main_part0_ops1 main_part0_ops1_sub opsB_fresh (W3 m ρ)),
    .host (hseg main_part1_ops0 main_part1_ops0_sub opsC_fresh (W4 m ρ)),
    .region (reg2 m ρ),
    .region (reg3 m ρ) ]

set_option maxHeartbeats 4000000 in
theorem main_run (c : Dev nD) : main (F := F) c = Pipeline.Seg.run (segs m ρ) := (main_chain_windows c).trans (by chain_rfl)

set_option backward.isDefEq.respectTransparency.types false in
set_option maxHeartbeats 4000000 in
/-- Every weakly fair execution terminates, nothing faulting, and every unscoped buffer ends at the last boundary's contents. -/
theorem run_all : θ_run defs (onTc (τ := τ) (main (F := F))) ⟨m, fun _ => 0, ρ⟩ (fun r => ∀ c : Dev nD, ∀ b : Ref sig .tc,
      ¬ (Proc.devRef .tc b : DevRef τ sig).isScoped → r.2.mem ((c.tc : Thread nD τ).loc b) = W7 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c b hb => h c _ (mem_uc b hb))

end Cert.Kernel.Hand

end
-- ==== Proof.KI.R0.lean ====
import proofs.«167871_j59854664237622_2_alg».proof.Proof.Gen.KernelIdeal.Launch
import proofs.«167871_j59854664237622_2_alg».proof.Proof.Gen.KernelIdeal.Skeleton
import proofs.«167871_j59854664237622_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The first launch: the user-side projections, one matrix product per row block cut into four column slabs

Each grid point holds a block of 5000 rows of the user features and the whole 128×512 weight panel, and writes
the four 5000×128 slabs of their product, one per result array. -/

section Region
variable (V : (c : Dev nD) → (b : Ref sig .tc) → Buf (Elt F) ((c : Thread nD τ).loc b))

/-- Window `w`'s block at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input's buffer holds its block at every point, whether the point fetched it or the block index stood still. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole-block rectangles the body loads and stores through. -/
abbrev r0_S5000x128 : Rect S5000x128 := Rect.unit (s := S5000x128) ![0, 0] S5000x128.size inb_S5000x128_S5000x128_0_0
abbrev r0_S128x512 : Rect S128x512 := Rect.unit (s := S128x512) ![0, 0] S128x512.size inb_S128x512_S128x512_0_0

/-! What the body leaves in each result's buffer: its one whole-block store. -/
def out0_2 (x0 : Vec F S5000x128 .f32) (x1 : Vec F S128x512 .f32) : Vec F S5000x128 .f32 :=
  View.canon [⟨r0_S5000x128, k0_pay2 (View.ld x0 r0_S5000x128) (View.ld x1 r0_S128x512)⟩]
theorem cover0_2 (p0 : Vec F S5000x128 .f32) (y : S5000x128.Idx) :
    ∃ pc ∈ ([⟨r0_S5000x128, p0⟩] : List (View.Piece (Elt F) S5000x128 .f32)), y ∈ pc.1.set :=
  View.cover_of_tiled [⟨r0_S5000x128, p0⟩] S5000x128.size (by rfl) y
def out0_3 (x0 : Vec F S5000x128 .f32) (x1 : Vec F S128x512 .f32) : Vec F S5000x128 .f32 :=
  View.canon [⟨r0_S5000x128, k0_pay3 (View.ld x0 r0_S5000x128) (View.ld x1 r0_S128x512)⟩]
theorem cover0_3 (p0 : Vec F S5000x128 .f32) (y : S5000x128.Idx) :
    ∃ pc ∈ ([⟨r0_S5000x128, p0⟩] : List (View.Piece (Elt F) S5000x128 .f32)), y ∈ pc.1.set :=
  View.cover_of_tiled [⟨r0_S5000x128, p0⟩] S5000x128.size (by rfl) y
def out0_4 (x0 : Vec F S5000x128 .f32) (x1 : Vec F S128x512 .f32) : Vec F S5000x128 .f32 :=
  View.canon [⟨r0_S5000x128, k0_pay4 (View.ld x0 r0_S5000x128) (View.ld x1 r0_S128x512)⟩]
theorem cover0_4 (p0 : Vec F S5000x128 .f32) (y : S5000x128.Idx) :
    ∃ pc ∈ ([⟨r0_S5000x128, p0⟩] : List (View.Piece (Elt F) S5000x128 .f32)), y ∈ pc.1.set :=
  View.cover_of_tiled [⟨r0_S5000x128, p0⟩] S5000x128.size (by rfl) y
def out0_5 (x0 : Vec F S5000x128 .f32) (x1 : Vec F S128x512 .f32) : Vec F S5000x128 .f32 :=
  View.canon [⟨r0_S5000x128, k0_pay5 (View.ld x0 r0_S5000x128) (View.ld x1 r0_S128x512)⟩]
theorem cover0_5 (p0 : Vec F S5000x128 .f32) (y : S5000x128.Idx) :
    ∃ pc ∈ ([⟨r0_S5000x128, p0⟩] : List (View.Piece (Elt F) S5000x128 .f32)), y ∈ pc.1.set :=
  View.cover_of_tiled [⟨r0_S5000x128, p0⟩] S5000x128.size (by rfl) y

set_option maxHeartbeats 4000000 in
/-- The body on whole staging buffers: the inputs are read and kept, each result's buffer ends at its `out`. -/
theorem sound_kernel0 (c : Dev nD) (E : Set ℕ) (i : grid0.Coords)
    (arg1 : Memref sig .tc .vmem S5000x128 .f32) (harg1 : arg1.IsWhole) (arg2 : Memref sig .tc .vmem S128x512 .f32) (harg2 : arg2.IsWhole) (arg3 : Memref sig .tc .vmem S5000x128 .f32) (harg3 : arg3.IsWhole) (arg4 : Memref sig .tc .vmem S5000x128 .f32) (harg4 : arg4.IsWhole) (arg5 : Memref sig .tc .vmem S5000x128 .f32) (harg5 : arg5.IsWhole) (arg6 : Memref sig .tc .vmem S5000x128 .f32) (harg6 : arg6.IsWhole)
    (x0 : Vec F S5000x128 .f32) (x1 : Vec F S128x512 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare (out0_2 x0 x1) ∗ owns (c : Thread nD τ) arg4 fullShare (out0_3 x0 x1) ∗ owns (c : Thread nD τ) arg5 fullShare (out0_4 x0 x1) ∗ owns (c : Thread nD τ) arg6 fullShare (out0_5 x0 x1)) -∗ K ⟨⟩))
      ⊢ wp frame (wpE (defs₀ (F := F)) Variants.none c none) E (cc0__proj_multi_kernel i arg1 harg1 arg2 harg2 arg3 harg3 arg4 harg4 arg5 harg5 arg6 harg6) K := by
  simp only [cc0__proj_multi_kernel_eq_skeleton]; unfold cc0__proj_multi_kernel_skel
  unfold owns
  iintro ⟨⟨%f0, %hf0, H0⟩, ⟨%f1, %hf1, H1⟩, ⟨%d2, %f2, -, H2⟩, ⟨%d3, %f3, -, H3⟩, ⟨%d4, %f4, -, H4⟩, ⟨%d5, %f5, -, H5⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0_2 _)
  isplitl [H3]
  · iexists _; isplitr
    swap; · iexact H3
    ipureintro
    exact View.read_writes_eq_canon _ _ _ (cover0_3 _)
  isplitl [H4]
  · iexists _; isplitr
    swap; · iexact H4
    ipureintro
    exact View.read_writes_eq_canon _ _ _ (cover0_4 _)
  iexists _; isplitr
  swap; · iexact H5
  ipureintro
  exact View.read_writes_eq_canon _ _ _ (cover0_5 _)

/-- The launch's proof data: the arrays as found; after the body each input's buffer at its block and each result's at its
    `out` of the input blocks; the scoped rest and the generator register untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
    | ⟨4, _⟩ => out0_4 (iblk0 V c 0 t) (iblk0 V c 1 t)
    | ⟨5, _⟩ => out0_5 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at a point, and what it returns. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation0 (c : Dev nD) : BodyObligation (dat0 (F := F) V c) (defs₀ (F := F)) Variants.none () Set.univ := fun t => by
  rw [bigSep_W0, bigSep_W0]
  exact sound_body0 V c t

end Region

end Cert.KernelIdeal.Hand

end
-- ==== Proof.KI.R1.lean ====
import proofs.«167871_j59854664237622_2_alg».proof.Proof.Gen.KernelIdeal.Launch
import proofs.«167871_j59854664237622_2_alg».proof.Proof.Gen.KernelIdeal.Skeleton
import proofs.«167871_j59854664237622_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The second launch: the item-side projections, one matrix product per row block cut into two column slabs

Each grid point holds a block of 5000 rows of the item features and the whole 128×256 weight panel, and writes
the two 5000×128 slabs of their product. -/

section Region
variable (V : (c : Dev nD) → (b : Ref sig .tc) → Buf (Elt F) ((c : Thread nD τ).loc b))

/-- Window `w`'s block at point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input's buffer holds its block at every point, whether the point fetched it or the block index stood still. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The whole-block rectangles the body loads and stores through. -/
abbrev r1_S5000x128 : Rect S5000x128 := Rect.unit (s := S5000x128) ![0, 0] S5000x128.size inb_S5000x128_S5000x128_0_0
abbrev r1_S128x256 : Rect S128x256 := Rect.unit (s := S128x256) ![0, 0] S128x256.size inb_S128x256_S128x256_0_0

/-! What the body leaves in each result's buffer: its one whole-block store. -/
def out1_2 (x0 : Vec F S5000x128 .f32) (x1 : Vec F S128x256 .f32) : Vec F S5000x128 .f32 :=
  View.canon [⟨r1_S5000x128, k1_pay2 (View.ld x0 r1_S5000x128) (View.ld x1 r1_S128x256)⟩]
theorem cover1_2 (p0 : Vec F S5000x128 .f32) (y : S5000x128.Idx) :
    ∃ pc ∈ ([⟨r1_S5000x128, p0⟩] : List (View.Piece (Elt F) S5000x128 .f32)), y ∈ pc.1.set :=
  View.cover_of_tiled [⟨r1_S5000x128, p0⟩] S5000x128.size (by rfl) y
def out1_3 (x0 : Vec F S5000x128 .f32) (x1 : Vec F S128x256 .f32) : Vec F S5000x128 .f32 :=
  View.canon [⟨r1_S5000x128, k1_pay3 (View.ld x0 r1_S5000x128) (View.ld x1 r1_S128x256)⟩]
theorem cover1_3 (p0 : Vec F S5000x128 .f32) (y : S5000x128.Idx) :
    ∃ pc ∈ ([⟨r1_S5000x128, p0⟩] : List (View.Piece (Elt F) S5000x128 .f32)), y ∈ pc.1.set :=
  View.cover_of_tiled [⟨r1_S5000x128, p0⟩] S5000x128.size (by rfl) y

set_option maxHeartbeats 4000000 in
/-- The body on whole staging buffers: the inputs are read and kept, each result's buffer ends at its `out`. -/
theorem sound_kernel1 (c : Dev nD) (E : Set ℕ) (i : grid1.Coords)
    (arg1 : Memref sig .tc .vmem S5000x128 .f32) (harg1 : arg1.IsWhole) (arg2 : Memref sig .tc .vmem S128x256 .f32) (harg2 : arg2.IsWhole) (arg3 : Memref sig .tc .vmem S5000x128 .f32) (harg3 : arg3.IsWhole) (arg4 : Memref sig .tc .vmem S5000x128 .f32) (harg4 : arg4.IsWhole)
    (x0 : Vec F S5000x128 .f32) (x1 : Vec F S128x256 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (out1_2 x0 x1) ∗ owns (c : Thread nD τ) arg4 fullShare (out1_3 x0 x1)) -∗ K ⟨⟩))
      ⊢ wp frame (wpE (defs₀ (F := F)) Variants.none c none) E (cc1__proj_multi_kernel i arg1 harg1 arg2 harg2 arg3 harg3 arg4 harg4) K := by
  simp only [cc1__proj_multi_kernel_eq_skeleton]; unfold cc1__proj_multi_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover1_2 _)
  iexists _; isplitr
  swap; · iexact H3
  ipureintro
  exact View.read_writes_eq_canon _ _ _ (cover1_3 _)

/-- The launch's proof data: the arrays as found; after the body each input's buffer at its block and each result's at its
    `out` of the input blocks; the scoped rest and the generator register untouched; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
    | ⟨3, _⟩ => out1_3 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]
theorem after1_3 (c : Dev nD) (t : Fin cfg1.N) : (dat1 V c).after 3 t = out1_3 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at a point, and what it returns. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Region

end Cert.KernelIdeal.Hand

end
-- ==== Proof.KI.R2.lean ====
import proofs.«167871_j59854664237622_2_alg».proof.Proof.Gen.KernelIdeal.Launch
import proofs.«167871_j59854664237622_2_alg».proof.Proof.Gen.KernelIdeal.Skeleton
import proofs.«167871_j59854664237622_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The third launch: the item-side combine, a pointwise body over row blocks

Each grid point holds a block of 5000 rows of the projected targets, of the segment sums and of the segment
counts, and writes the block of the result. -/

section Region
variable (V : (c : Dev nD) → (b : Ref sig .tc) → Buf (Elt F) ((c : Thread nD τ).loc b))

/-- Window `w`'s block at point `t`, read off its array as the launch finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! An input's buffer holds its block at every point, whether the point fetched it or the block index stood still. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The whole-block rectangles the body loads and stores through. -/
abbrev r2_S5000x128 : Rect S5000x128 := Rect.unit (s := S5000x128) ![0, 0] S5000x128.size inb_S5000x128_S5000x128_0_0
abbrev r2_S5000x1 : Rect S5000x1 := Rect.unit (s := S5000x1) ![0, 0] S5000x1.size inb_S5000x1_S5000x1_0_0

/-! What the body leaves in each result's buffer: its one whole-block store. -/
def out2_3 (x0 : Vec F S5000x128 .f32) (x1 : Vec F S5000x128 .f32) (x2 : Vec F S5000x1 .f32) : Vec F S5000x128 .f32 :=
  View.canon [⟨r2_S5000x128, k2_pay1 (View.ld x1 r2_S5000x128) (View.ld x2 r2_S5000x1) (View.ld x0 r2_S5000x128)⟩]
theorem cover2_3 (p0 : Vec F S5000x128 .f32) (y : S5000x128.Idx) :
    ∃ pc ∈ ([⟨r2_S5000x128, p0⟩] : List (View.Piece (Elt F) S5000x128 .f32)), y ∈ pc.1.set :=
  View.cover_of_tiled [⟨r2_S5000x128, p0⟩] S5000x128.size (by rfl) y

set_option maxHeartbeats 4000000 in
/-- The body on whole staging buffers: the inputs are read and kept, each result's buffer ends at its `out`. -/
theorem sound_kernel2 (c : Dev nD) (E : Set ℕ) (i : grid2.Coords)
    (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S5000x128 .f32) (harg4 : arg4.IsWhole)
    (x0 : Vec F S5000x128 .f32) (x1 : Vec F S5000x128 .f32) (x2 : Vec F S5000x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__combine2_kernel i arg1 harg1 arg2 harg2 arg3 harg3 arg4 harg4) K := by
  simp only [cc2__combine2_kernel_eq_skeleton]; unfold cc2__combine2_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2

  iexists _; isplitr
  swap; · iexact H3
  ipureintro
  exact View.read_writes_eq_canon _ _ _ (cover2_3 _)

/-- The launch's proof data: the arrays as found; after the body each input's buffer at its block and each result's at its
    `out` of the input blocks; the scoped rest and the generator register untouched; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at a point, and what it returns. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation2 (c : Dev nD) : BodyObligation (dat2 (F := F) V c) (defs₀ (F := F)) Variants.none () Set.univ := fun t => by
  rw [bigSep_W2, bigSep_W2]
  exact sound_body2 V c t

end Region

end Cert.KernelIdeal.Hand

end
-- ==== Proof.KI.R3.lean ====
import proofs.«167871_j59854664237622_2_alg».proof.Proof.Gen.KernelIdeal.Launch
import proofs.«167871_j59854664237622_2_alg».proof.Proof.Gen.KernelIdeal.Skeleton
import proofs.«167871_j59854664237622_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The fourth launch: the user-side combine of two relations, a pointwise body over row blocks

Each grid point holds, for each of the two relations, a block of 2000 rows of the projected targets, of the
segment sums and of the segment counts, and writes the block of the result. -/

section Region
variable (V : (c : Dev nD) → (b : Ref sig .tc) → Buf (Elt F) ((c : Thread nD τ).loc b))

/-- Window `w`'s block at point `t`, read off its array as the launch finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! An input's buffer holds its block at every point, whether the point fetched it or the block index stood still. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-- The whole-block rectangles the body loads and stores through. -/
abbrev r3_S2000x128 : Rect S2000x128 := Rect.unit (s := S2000x128) ![0, 0] S2000x128.size inb_S2000x128_S2000x128_0_0
abbrev r3_S2000x1 : Rect S2000x1 := Rect.unit (s := S2000x1) ![0, 0] S2000x1.size inb_S2000x1_S2000x1_0_0

/-! What the body leaves in each result's buffer: its one whole-block store. -/
def out3_6 (x0 : Vec F S2000x128 .f32) (x1 : Vec F S2000x128 .f32) (x2 : Vec F S2000x1 .f32) (x3 : Vec F S2000x128 .f32) (x4 : Vec F S2000x128 .f32) (x5 : Vec F S2000x1 .f32) : Vec F S2000x128 .f32 :=
  View.canon [⟨r3_S2000x128, k3_pay1 (View.ld x1 r3_S2000x128) (View.ld x2 r3_S2000x1) (View.ld x4 r3_S2000x128) (View.ld x5 r3_S2000x1) (View.ld x0 r3_S2000x128) (View.ld x3 r3_S2000x128)⟩]
theorem cover3_6 (p0 : Vec F S2000x128 .f32) (y : S2000x128.Idx) :
    ∃ pc ∈ ([⟨r3_S2000x128, p0⟩] : List (View.Piece (Elt F) S2000x128 .f32)), y ∈ pc.1.set :=
  View.cover_of_tiled [⟨r3_S2000x128, p0⟩] S2000x128.size (by rfl) y

set_option maxHeartbeats 4000000 in
/-- The body on whole staging buffers: the inputs are read and kept, each result's buffer ends at its `out`. -/
theorem sound_kernel3 (c : Dev nD) (E : Set ℕ) (i : grid3.Coords)
    (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S2000x128 .f32) (harg4 : arg4.IsWhole) (arg5 : Memref sig .tc .vmem S2000x128 .f32) (harg5 : arg5.IsWhole) (arg6 : Memref sig .tc .vmem S2000x1 .f32) (harg6 : arg6.IsWhole) (arg7 : Memref sig .tc .vmem S2000x128 .f32) (harg7 : arg7.IsWhole)
    (x0 : Vec F S2000x128 .f32) (x1 : Vec F S2000x128 .f32) (x2 : Vec F S2000x1 .f32) (x3 : Vec F S2000x128 .f32) (x4 : Vec F S2000x128 .f32) (x5 : Vec F S2000x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out3_6 x0 x1 x2 x3 x4 x5)) -∗ K ⟨⟩))
      ⊢ wp frame (wpE (defs₀ (F := F)) Variants.none c none) E (cc3__combine4_kernel i arg1 harg1 arg2 harg2 arg3 harg3 arg4 harg4 arg5 harg5 arg6 harg6 arg7 harg7) K := by
  simp only [cc3__combine4_kernel_eq_skeleton]; unfold cc3__combine4_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5

  iexists _; isplitr
  swap; · iexact H6
  ipureintro
  exact View.read_writes_eq_canon _ _ _ (cover3_6 _)

/-- The launch's proof data: the arrays as found; after the body each input's buffer at its block and each result's at its
    `out` of the input blocks; the scoped rest and the generator register untouched; nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 1 t) (iblk3 V c 2 t) (iblk3 V c 3 t) (iblk3 V c 4 t) (iblk3 V c 5 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = out3_6 (iblk3 V c 0 t) (iblk3 V c 1 t) (iblk3 V c 2 t) (iblk3 V c 3 t) (iblk3 V c 4 t) (iblk3 V c 5 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d

/-- What the body is called with at a point, and what it returns. -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ _ _ _ _ _ _ _ _ _ _ _ _ _ _ _ (iblk3 V c 0 t) (iblk3 V c 1 t) (iblk3 V c 2 t) (iblk3 V c 3 t) (iblk3 V c 4 t) (iblk3 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation3 (c : Dev nD) : BodyObligation (dat3 (F := F) V c) (defs₀ (F := F)) Variants.none () Set.univ := fun t => by
  rw [bigSep_W3, bigSep_W3]
  exact sound_body3 V c t

end Region

end Cert.KernelIdeal.Hand

end
-- ==== Proof.KI.Run.lean ====
import proofs.«167871_j59854664237622_2_alg».proof.Proof.Gen.KernelIdeal.Launch
import proofs.«167871_j59854664237622_2_alg».proof.Proof.Gen.KernelIdeal.Skeleton
import proofs.«167871_j59854664237622_2_alg».proof.Proof.Gen.KernelIdeal.Points
import proofs.«167871_j59854664237622_2_alg».proof.Proof.KI.R0
import proofs.«167871_j59854664237622_2_alg».proof.Proof.KI.R1
import proofs.«167871_j59854664237622_2_alg».proof.Proof.KI.R2
import proofs.«167871_j59854664237622_2_alg».proof.Proof.KI.R3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The whole program as seven segments

Two host operations build the two weight panels; two launches project the user and the item features; a long stretch
of host operations gathers, scatters and counts along the three edge lists; two launches combine. Between segments the
state is "every unscoped buffer at the contents the fold below names", the generator register and nothing owed. -/

variable (m : (ℓ : Loc nD τ sig) → Buf (Elt F) ℓ) (ρ : Dev nD → PrngReg)

/-! ## The buffer contents at each segment boundary -/

/-- At launch. -/
abbrev W0 : Dev nD → Valuation τ sig (Elt F) := fun c b => (s₀ m ρ).mem ((c : Dev nD), b)
/-- After the two concatenations (the first launch's entry). -/
abbrev W1 : Dev nD → Valuation τ sig (Elt F) := fun c => StableHlo.after main_part0_ops0 (W0 m ρ c)
abbrev V1 : (c : Dev nD) → (b : Ref sig .tc) → Buf (Elt F) ((c : Thread nD τ).loc b) := fun c b => W1 m ρ c b

/-- At launch 0's exit: its arrays at what the write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At launch 1's exit: its arrays at what the write-backs leave, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the first part of the gather–scatter stretch, -/
abbrev W4 : Dev nD → Valuation τ sig (Elt F) := fun c => StableHlo.after main_part0_ops1 (W3 m ρ c)
/-- and after its second part (the third launch's entry). -/
abbrev W5 : Dev nD → Valuation τ sig (Elt F) := fun c => StableHlo.after main_part1_ops0 (W4 m ρ c)
abbrev V5 : (c : Dev nD) → (b : Ref sig .tc) → Buf (Elt F) ((c : Thread nD τ).loc b) := fun c b => W5 m ρ c b

/-- At launch 2's exit: its arrays at what the write-backs leave, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- At launch 3's exit: its arrays at what the write-backs leave, every other buffer as entered. -/
def W7 (c : Dev nD) : Valuation τ sig (Elt F) :=
  Pipeline.withArrays spec3 c (W6 m ρ c) fun w => (dat3 (V6 m ρ) c).arrAt w cfg3.N
theorem W7_arr (c : Dev nD) (w : Fin cfg3.W) :
    W7 m ρ c (Proc.devRef .tc (Pipeline.arrRef spec3 w)) = (dat3 (V6 m ρ) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) := by
  unfold W7; exact Pipeline.withArrays_of_ne spec3 c _ _ b hb
abbrev V7 : (c : Dev nD) → (b : Ref sig .tc) → Buf (Elt F) ((c : Thread nD τ).loc b) := fun c b => W7 m ρ c b
theorem hF3 (c : Dev nD) (w : Fin cfg3.W) : (dat3 (V6 m ρ) c).arrAt w cfg3.N = V7 m ρ c (Pipeline.arrRef spec3 w) :=
  (W7_arr m ρ c w).symm
theorem hrest3 (c : Dev nD) : ∀ b, b ∉ Finset.univ.image (Pipeline.arrRef spec3) → V7 m ρ c b = V6 m ρ c b :=
  fun b hb => W7_of_ne m ρ c b fun w e => hb (Finset.mem_image.mpr ⟨w, Finset.mem_univ _, e⟩)

/-! ## The arguments end as launched: no host operation writes one, and a launch only reads them -/

/-- The references the stretch `main_part0_ops0` writes. -/
def wrA : List (Ref sig .tc) := [main_v0, main_v1]
set_option maxHeartbeats 4000000 in
theorem wrA_sub : (main_part0_ops0 : List (HloOp τ sig (Elt F))).Forall fun op => op.writes ⊆ (wrA.map (Proc.devRef (τ := τ) .tc)).toFinset := by
  simp only [main_part0_ops0, List.Forall, StableHlo.nullary_writes, StableHlo.unary_writes, StableHlo.binary_writes, StableHlo.ternary_writes,
    StableHlo.reshape_writes, StableHlo.nary_writes, Finset.singleton_subset_iff, List.mem_toFinset]
  repeat' apply And.intro
  all_goals exact List.mem_map_of_mem (by decide)
/-- A reference the stretch does not write keeps its contents. -/
theorem keepA (W : Valuation τ sig (Elt F)) (r : Ref sig .tc) (hr : r ∉ wrA) :
    StableHlo.after (main_part0_ops0 : List (HloOp τ sig (Elt F))) W (Proc.devRef .tc r) = W (Proc.devRef .tc r) :=
  StableHlo.after_of_writes_sub _ W wrA_sub hr

/-- The references the stretch `main_part0_ops1` writes. -/
def wrB : List (Ref sig .tc) := [main_v4, main_v5, main_v6, main_c, main_v7, main_v8, main_c_0, main_v9, main_v10, main_v11, main_v12, main_v13, main_v14, main_v15, main_v16, main_cst, main_v17, main_v18, main_v19, main_cst_1, main_v20, main_cst_2, main_v21, main_v22, main_v23, main_v24, main_v25, main_v26, main_c_3, main_v27, main_v28, main_c_4, main_v29, main_v30, main_v31, main_v32, main_v33, main_v34, main_v35, main_v36, main_cst_5, main_v37, main_v38, main_v39, main_cst_6, main_v40, main_cst_7, main_v41, main_v42, main_v43, main_v44, main_v45, main_v46, main_c_8, main_v47, main_v48]
set_option maxHeartbeats 4000000 in
theorem wrB_sub : (main_part0_ops1 : List (HloOp τ sig (Elt F))).Forall fun op => op.writes ⊆ (wrB.map (Proc.devRef (τ := τ) .tc)).toFinset := by
  simp only [main_part0_ops1, List.Forall, StableHlo.nullary_writes, StableHlo.unary_writes, StableHlo.binary_writes, StableHlo.ternary_writes,
    StableHlo.reshape_writes, StableHlo.nary_writes, Finset.singleton_subset_iff, List.mem_toFinset]
  repeat' apply And.intro
  all_goals exact List.mem_map_of_mem (by decide)
/-- A reference the stretch does not write keeps its contents. -/
theorem keepB (W : Valuation τ sig (Elt F)) (r : Ref sig .tc) (hr : r ∉ wrB) :
    StableHlo.after (main_part0_ops1 : List (HloOp τ sig (Elt F))) W (Proc.devRef .tc r) = W (Proc.devRef .tc r) :=
  StableHlo.after_of_writes_sub _ W wrB_sub hr

/-- The references the stretch `main_part1_ops0` writes. -/
def wrC : List (Ref sig .tc) := [main_c_9, main_v49, main_v50, main_v51, main_v52, main_v53, main_v54, main_v55, main_v56, main_cst_10, main_v57, main_v58, main_v59, main_cst_11, main_v60, main_cst_12, main_v61, main_v62, main_v63]
set_option maxHeartbeats 4000000 in
theorem wrC_sub : (main_part1_ops0 : List (HloOp τ sig (Elt F))).Forall fun op => op.writes ⊆ (wrC.map (Proc.devRef (τ := τ) .tc)).toFinset := by
  simp only [main_part1_ops0, List.Forall, StableHlo.nullary_writes, StableHlo.unary_writes, StableHlo.binary_writes, StableHlo.ternary_writes,
    StableHlo.reshape_writes, StableHlo.nary_writes, Finset.singleton_subset_iff, List.mem_toFinset]
  repeat' apply And.intro
  all_goals exact List.mem_map_of_mem (by decide)
/-- A reference the stretch does not write keeps its contents. -/
theorem keepC (W : Valuation τ sig (Elt F)) (r : Ref sig .tc) (hr : r ∉ wrC) :
    StableHlo.after (main_part1_ops0 : List (HloOp τ sig (Elt F))) W (Proc.devRef .tc r) = W (Proc.devRef .tc r) :=
  StableHlo.after_of_writes_sub _ W wrC_sub hr

theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := W7_of_ne m ρ c main_arg0 (by decide)
    _ = W5 m ρ c (Proc.devRef .tc main_arg0) := W6_of_ne m ρ c main_arg0 (by decide)
    _ = W4 m ρ c (Proc.devRef .tc main_arg0) := keepC _ main_arg0 (by decide)
    _ = W3 m ρ c (Proc.devRef .tc main_arg0) := keepB _ main_arg0 (by decide)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := keepA _ main_arg0 (by decide)
    _ = m ((c : Thread nD τ).loc main_arg0) := rfl
theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := W7_of_ne m ρ c main_arg1 (by decide)
    _ = W5 m ρ c (Proc.devRef .tc main_arg1) := W6_of_ne m ρ c main_arg1 (by decide)
    _ = W4 m ρ c (Proc.devRef .tc main_arg1) := keepC _ main_arg1 (by decide)
    _ = W3 m ρ c (Proc.devRef .tc main_arg1) := keepB _ main_arg1 (by decide)
    _ = W2 m ρ c (Proc.devRef .tc main_arg1) := (W3_arr m ρ c 0).trans (((dat1 (V2 m ρ) c).arrAt_in 0 rfl _).trans (A_eq1 (V2 m ρ) c 0))
    _ = W1 m ρ c (Proc.devRef .tc main_arg1) := W2_of_ne m ρ c main_arg1 (by decide)
    _ = W0 m ρ c (Proc.devRef .tc main_arg1) := keepA _ main_arg1 (by decide)
    _ = m ((c : Thread nD τ).loc main_arg1) := rfl
theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := W7_of_ne m ρ c main_arg2 (by decide)
    _ = W5 m ρ c (Proc.devRef .tc main_arg2) := W6_of_ne m ρ c main_arg2 (by decide)
    _ = W4 m ρ c (Proc.devRef .tc main_arg2) := keepC _ main_arg2 (by decide)
    _ = W3 m ρ c (Proc.devRef .tc main_arg2) := keepB _ main_arg2 (by decide)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := keepA _ main_arg2 (by decide)
    _ = m ((c : Thread nD τ).loc main_arg2) := rfl
theorem W7_main_arg3 (c : Dev nD) : W7 m ρ c (Proc.devRef .tc main_arg3) = m ((c : Thread nD τ).loc main_arg3) :=
  calc W7 m ρ c (Proc.devRef .tc main_arg3)
    _ = W6 m ρ c (Proc.devRef .tc main_arg3) := W7_of_ne m ρ c main_arg3 (by decide)
    _ = W5 m ρ c (Proc.devRef .tc main_arg3) := W6_of_ne m ρ c main_arg3 (by decide)
    _ = W4 m ρ c (Proc.devRef .tc main_arg3) := keepC _ main_arg3 (by decide)
    _ = W3 m ρ c (Proc.devRef .tc main_arg3) := keepB _ main_arg3 (by decide)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := keepA _ main_arg3 (by decide)
    _ = m ((c : Thread nD τ).loc main_arg3) := rfl
theorem W7_main_arg4 (c : Dev nD) : W7 m ρ c (Proc.devRef .tc main_arg4) = m ((c : Thread nD τ).loc main_arg4) :=
  calc W7 m ρ c (Proc.devRef .tc main_arg4)
    _ = W6 m ρ c (Proc.devRef .tc main_arg4) := W7_of_ne m ρ c main_arg4 (by decide)
    _ = W5 m ρ c (Proc.devRef .tc main_arg4) := W6_of_ne m ρ c main_arg4 (by decide)
    _ = W4 m ρ c (Proc.devRef .tc main_arg4) := keepC _ main_arg4 (by decide)
    _ = W3 m ρ c (Proc.devRef .tc main_arg4) := keepB _ main_arg4 (by decide)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := keepA _ main_arg4 (by decide)
    _ = m ((c : Thread nD τ).loc main_arg4) := rfl
theorem W7_main_arg5 (c : Dev nD) : W7 m ρ c (Proc.devRef .tc main_arg5) = m ((c : Thread nD τ).loc main_arg5) :=
  calc W7 m ρ c (Proc.devRef .tc main_arg5)
    _ = W6 m ρ c (Proc.devRef .tc main_arg5) := W7_of_ne m ρ c main_arg5 (by decide)
    _ = W5 m ρ c (Proc.devRef .tc main_arg5) := W6_of_ne m ρ c main_arg5 (by decide)
    _ = W4 m ρ c (Proc.devRef .tc main_arg5) := keepC _ main_arg5 (by decide)
    _ = W3 m ρ c (Proc.devRef .tc main_arg5) := keepB _ main_arg5 (by decide)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := keepA _ main_arg5 (by decide)
    _ = m ((c : Thread nD τ).loc main_arg5) := rfl
theorem W7_main_arg6 (c : Dev nD) : W7 m ρ c (Proc.devRef .tc main_arg6) = m ((c : Thread nD τ).loc main_arg6) :=
  calc W7 m ρ c (Proc.devRef .tc main_arg6)
    _ = W6 m ρ c (Proc.devRef .tc main_arg6) := W7_of_ne m ρ c main_arg6 (by decide)
    _ = W5 m ρ c (Proc.devRef .tc main_arg6) := W6_of_ne m ρ c main_arg6 (by decide)
    _ = W4 m ρ c (Proc.devRef .tc main_arg6) := keepC _ main_arg6 (by decide)
    _ = W3 m ρ c (Proc.devRef .tc main_arg6) := keepB _ main_arg6 (by decide)
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := keepA _ main_arg6 (by decide)
    _ = m ((c : Thread nD τ).loc main_arg6) := rfl
theorem W7_main_arg7 (c : Dev nD) : W7 m ρ c (Proc.devRef .tc main_arg7) = m ((c : Thread nD τ).loc main_arg7) :=
  calc W7 m ρ c (Proc.devRef .tc main_arg7)
    _ = W6 m ρ c (Proc.devRef .tc main_arg7) := W7_of_ne m ρ c main_arg7 (by decide)
    _ = W5 m ρ c (Proc.devRef .tc main_arg7) := W6_of_ne m ρ c main_arg7 (by decide)
    _ = W4 m ρ c (Proc.devRef .tc main_arg7) := keepC _ main_arg7 (by decide)
    _ = W3 m ρ c (Proc.devRef .tc main_arg7) := keepB _ main_arg7 (by decide)
    _ = W2 m ρ c (Proc.devRef .tc main_arg7) := W3_of_ne m ρ c main_arg7 (by decide)
    _ = W1 m ρ c (Proc.devRef .tc main_arg7) := W2_of_ne m ρ c main_arg7 (by decide)
    _ = W0 m ρ c (Proc.devRef .tc main_arg7) := keepA _ main_arg7 (by decide)
    _ = m ((c : Thread nD τ).loc main_arg7) := rfl
theorem W7_main_arg8 (c : Dev nD) : W7 m ρ c (Proc.devRef .tc main_arg8) = m ((c : Thread nD τ).loc main_arg8) :=
  calc W7 m ρ c (Proc.devRef .tc main_arg8)
    _ = W6 m ρ c (Proc.devRef .tc main_arg8) := W7_of_ne m ρ c main_arg8 (by decide)
    _ = W5 m ρ c (Proc.devRef .tc main_arg8) := W6_of_ne m ρ c main_arg8 (by decide)
    _ = W4 m ρ c (Proc.devRef .tc main_arg8) := keepC _ main_arg8 (by decide)
    _ = W3 m ρ c (Proc.devRef .tc main_arg8) := keepB _ main_arg8 (by decide)
    _ = W2 m ρ c (Proc.devRef .tc main_arg8) := W3_of_ne m ρ c main_arg8 (by decide)
    _ = W1 m ρ c (Proc.devRef .tc main_arg8) := W2_of_ne m ρ c main_arg8 (by decide)
    _ = W0 m ρ c (Proc.devRef .tc main_arg8) := keepA _ main_arg8 (by decide)
    _ = m ((c : Thread nD τ).loc main_arg8) := rfl
theorem W7_main_arg9 (c : Dev nD) : W7 m ρ c (Proc.devRef .tc main_arg9) = m ((c : Thread nD τ).loc main_arg9) :=
  calc W7 m ρ c (Proc.devRef .tc main_arg9)
    _ = W6 m ρ c (Proc.devRef .tc main_arg9) := W7_of_ne m ρ c main_arg9 (by decide)
    _ = W5 m ρ c (Proc.devRef .tc main_arg9) := W6_of_ne m ρ c main_arg9 (by decide)
    _ = W4 m ρ c (Proc.devRef .tc main_arg9) := keepC _ main_arg9 (by decide)
    _ = W3 m ρ c (Proc.devRef .tc main_arg9) := keepB _ main_arg9 (by decide)
    _ = W2 m ρ c (Proc.devRef .tc main_arg9) := W3_of_ne m ρ c main_arg9 (by decide)
    _ = W1 m ρ c (Proc.devRef .tc main_arg9) := W2_of_ne m ρ c main_arg9 (by decide)
    _ = W0 m ρ c (Proc.devRef .tc main_arg9) := keepA _ main_arg9 (by decide)
    _ = m ((c : Thread nD τ).loc main_arg9) := rfl
theorem W7_main_arg10 (c : Dev nD) : W7 m ρ c (Proc.devRef .tc main_arg10) = m ((c : Thread nD τ).loc main_arg10) :=
  calc W7 m ρ c (Proc.devRef .tc main_arg10)
    _ = W6 m ρ c (Proc.devRef .tc main_arg10) := W7_of_ne m ρ c main_arg10 (by decide)
    _ = W5 m ρ c (Proc.devRef .tc main_arg10) := W6_of_ne m ρ c main_arg10 (by decide)
    _ = W4 m ρ c (Proc.devRef .tc main_arg10) := keepC _ main_arg10 (by decide)
    _ = W3 m ρ c (Proc.devRef .tc main_arg10) := keepB _ main_arg10 (by decide)
    _ = W2 m ρ c (Proc.devRef .tc main_arg10) := W3_of_ne m ρ c main_arg10 (by decide)
    _ = W1 m ρ c (Proc.devRef .tc main_arg10) := W2_of_ne m ρ c main_arg10 (by decide)
    _ = W0 m ρ c (Proc.devRef .tc main_arg10) := keepA _ main_arg10 (by decide)
    _ = m ((c : Thread nD τ).loc main_arg10) := rfl

/-! ## The proof data family and the thread state -/

abbrev adm : (p : Fin 4) → (pcfgs (F := F) p).Adm := fun p => (cfgs p).toPCfg_adm
/-- Every launch's proof data, each at its entry contents. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V5 m ρ) c
  | ⟨3, _⟩ => fun c => dat3 (V6 m ρ) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
/-- A stretch of host operations as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem opsA_fresh : (main_part0_ops0 : List (HloOp τ sig (Elt F))).Forall fun op => op.fresh = ∅ := by
  simp only [List.Forall]; repeat' constructor
set_option maxHeartbeats 4000000 in
theorem opsB_fresh : (main_part0_ops1 : List (HloOp τ sig (Elt F))).Forall fun op => op.fresh = ∅ := by
  simp only [List.Forall]; repeat' constructor
theorem opsC_fresh : (main_part1_ops0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W7 m ρ c) ∗ ∃ r, prngReg c r)

/-! ## The launches as segments -/

set_option backward.isDefEq.respectTransparency.types false in
/-- Launch 0 as a segment: entered from every unscoped buffer at `W1`, left at `W2`. Its arrays are split out of the
    unscoped buffers and put back at what the write-backs leave; the generator register goes into the invariant and comes
    back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1 as a segment: entered from every unscoped buffer at `W2`, left at `W3`. Its arrays are split out of the
    unscoped buffers and put back at what the write-backs leave; the generator register goes into the invariant and comes
    back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 2 as a segment: entered from every unscoped buffer at `W5`, left at `W6`. Its arrays are split out of the
    unscoped buffers and put back at what the write-backs leave; the generator register goes into the invariant and comes
    back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 3 as a segment: entered from every unscoped buffer at `W6`, left at `W7`. Its arrays are split out of the
    unscoped buffers and put back at what the write-backs leave; the generator register goes into the invariant and comes
    back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V6 m ρ) c).loose
  hwaits := Pipeline.hwaits_of_owed_zero _ _ _ _ L lv 3 fun _ _ => rfl
  pre c := iprop(StableHlo.held (c : Thread nD τ) (Pipeline.ucRefs τ sig) (W6 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V6 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V6 m ρ c) (V7 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its segments, and the run -/

abbrev segs : List (Pipeline.Seg (pcfgs (F := F)) adm (pdats m ρ) () defs₀ 𝒱₀ L lv) :=
  [ .host (hseg main_part0_ops0 main_part0_ops0_sub opsA_fresh (W0 m ρ)),
    .region (reg0 m ρ),
    .region (reg1 m ρ),
    .host (hseg main_part0_ops1 main_part0_ops1_sub opsB_fresh (W3 m ρ)),
    .host (hseg main_part1_ops0 main_part1_ops0_sub opsC_fresh (W4 m ρ)),
    .region (reg2 m ρ),
    .region (reg3 m ρ) ]

set_option maxHeartbeats 4000000 in
theorem main_run (c : Dev nD) : main (F := F) c = Pipeline.Seg.run (segs m ρ) := (main_chain_windows c).trans (by chain_rfl)

set_option backward.isDefEq.respectTransparency.types false in
set_option maxHeartbeats 4000000 in
/-- Every weakly fair execution terminates, nothing faulting, and every unscoped buffer ends at the last boundary's contents. -/
theorem run_all : θ_run defs (onTc (τ := τ) (main (F := F))) ⟨m, fun _ => 0, ρ⟩ (fun r => ∀ c : Dev nD, ∀ b : Ref sig .tc,
      ¬ (Proc.devRef .tc b : DevRef τ sig).isScoped → r.2.mem ((c.tc : Thread nD τ).loc b) = W7 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c b hb => h c _ (mem_uc b hb))

end Cert.KernelIdeal.Hand

end
-- ==== Proof.KI.Host.lean ====
import proofs.«167871_j59854664237622_2_alg».proof.Proof.KI.Run
import Idealize.ShloMosaic.PureOps.Ideal
import Idealize.ShloMosaic.Lib.StableHlo.Run

set_option maxRecDepth 16384

noncomputable section

namespace Cert.KernelIdeal.Hand

open Idealize.ShloMosaic Idealize.ShloMosaic.TcCoe Idealize.SL Idealize.SL.Sem Idealize.ShloMosaic.StableHlo
open Cert.KernelIdeal Cert.KernelIdeal.Gen

/-! # What the host stretches compute, at the ideal instance

An edge list `e` is a `[2, 600000]` table: row 0 holds each edge's source row, row 1 its target row. A negative source
is counted from the end (`+ 50000`). One relation's messages are the rows of the projected sources gathered at the edges'
sources; its segment sum adds each message into its target's row of a zero array, and its segment count adds a one into
its target's entry of a zero column. The kernel rounds the projected sources to a narrower format before the gather and
widens them again after it; on extended reals both format changes are the identity, so the kernel's segment sum is this
one. -/

/-- The edges' target rows, as an index column. -/
def tgtCol (e : (⟨S2x600000, .i32⟩ : BufTy).Contents (Elt Ideal)) : (⟨S600000x1, .i32⟩ : BufTy).Contents (Elt Ideal) :=
  broadcastInDim S600000x1 ![0] bcast_S600000_S600000x1_0
    (shapeCast S600000 (extractStridedSlice S1x600000 ![1, 0] e slices_S2x600000_S1x600000_1_0) shapeCasts_S1x600000_S600000)

/-- The edges' source rows. -/
def srcRow (e : (⟨S2x600000, .i32⟩ : BufTy).Contents (Elt Ideal)) : (⟨S600000, .i32⟩ : BufTy).Contents (Elt Ideal) :=
  shapeCast S600000 (extractStridedSlice S1x600000 ![0, 0] e slices_S2x600000_S1x600000_0_0) shapeCasts_S1x600000_S600000

/-- The edges' source rows, a negative one counted from the end, as an index column. -/
def srcCol (e : (⟨S2x600000, .i32⟩ : BufTy).Contents (Elt Ideal)) : (⟨S600000x1, .i32⟩ : BufTy).Contents (Elt Ideal) :=
  broadcastInDim S600000x1 ![0] bcast_S600000_S600000x1_0
    (select (cmpi .slt (srcRow e) (broadcastInDim S600000 ![] bcast_S_S600000 (constantI S_ 32 0#32)))
      (addi (srcRow e) (broadcastInDim S600000 ![] bcast_S_S600000 (constantI S_ 32 50000#32))) (srcRow e))

/-- One relation's segment sum: the gathered source rows added into their targets' rows of a zero array. -/
def segSum (P : FVec Ideal S50000x128 .f32) (e : (⟨S2x600000, .i32⟩ : BufTy).Contents (Elt Ideal)) : FVec Ideal S50000x128 .f32 :=
  Host.scatterAdd scatter_S50000x128_S600000x1_S600000x128_1_0_0_1
    (broadcastInDim S50000x128 ![] bcast_S_S50000x128 (constant S_ .f32 0x00000000#32)) (tgtCol e)
    (Host.gather gather_S50000x128_S600000x1_S600000x128_1_0_n_n_0_1_1128 P (srcCol e))

/-- One relation's segment count: a one added into each edge's target entry of a zero column. -/
def segCnt (e : (⟨S2x600000, .i32⟩ : BufTy).Contents (Elt Ideal)) : FVec Ideal S50000x1 .f32 :=
  Host.scatterAdd scatter_S50000x1_S600000x1_S600000x1_1_0_0_1
    (broadcastInDim S50000x1 ![] bcast_S_S50000x1 (constant S_ .f32 0x00000000#32)) (tgtCol e)
    (broadcastInDim S600000x1 ![] bcast_S_S600000x1 (constant S_ .f32 0x3F800000#32))

variable (m : (ℓ : Loc nD τ sig) → Buf (Elt Ideal) ℓ) (ρ : Dev nD → PrngReg)

/-! ## The two weight panels -/

theorem W1_v0 (c : Dev nD) : W1 m ρ c (Proc.devRef .tc main_v0)
    = concatenate S128x512 1 [⟨S128x128, m ((c : Thread nD τ).loc main_arg2)⟩, ⟨S128x128, m ((c : Thread nD τ).loc main_arg5)⟩,
        ⟨S128x128, m ((c : Thread nD τ).loc main_arg6)⟩, ⟨S128x128, m ((c : Thread nD τ).loc main_arg7)⟩]
        concatenates_S128x128_S128x128_S128x128_S128x128_S128x512_d1 := by
  show StableHlo.after main_part0_ops0 (W0 m ρ c) (Proc.devRef .tc main_v0) = _
  after_results
  rfl

theorem W1_v1 (c : Dev nD) : W1 m ρ c (Proc.devRef .tc main_v1)
    = concatenate S128x256 1 [⟨S128x128, m ((c : Thread nD τ).loc main_arg4)⟩, ⟨S128x128, m ((c : Thread nD τ).loc main_arg3)⟩]
        concatenates_S128x128_S128x128_S128x256_d1 := by
  show StableHlo.after main_part0_ops0 (W0 m ρ c) (Proc.devRef .tc main_v1) = _
  after_results

/-! ## The arguments, and the projections, at the later boundaries -/

theorem W3_arg (c : Dev nD) (r : Ref sig .tc) (h0 : ∀ w, Pipeline.arrRef spec0 w ≠ r) (h1 : ∀ w, Pipeline.arrRef spec1 w ≠ r)
    (hA : r ∉ wrA) : W3 m ρ c (Proc.devRef .tc r) = m ((c : Thread nD τ).loc r) :=
  (W3_of_ne m ρ c r h1).trans ((W2_of_ne m ρ c r h0).trans (keepA _ r hA))

theorem W3_arg8 (c : Dev nD) : W3 m ρ c (Proc.devRef .tc main_arg8) = m ((c : Thread nD τ).loc main_arg8) :=
  W3_arg m ρ c main_arg8 (by decide) (by decide) (by decide)
theorem W3_arg9 (c : Dev nD) : W3 m ρ c (Proc.devRef .tc main_arg9) = m ((c : Thread nD τ).loc main_arg9) :=
  W3_arg m ρ c main_arg9 (by decide) (by decide) (by decide)
theorem W3_arg10 (c : Dev nD) : W3 m ρ c (Proc.devRef .tc main_arg10) = m ((c : Thread nD τ).loc main_arg10) :=
  W3_arg m ρ c main_arg10 (by decide) (by decide) (by decide)

/-- The first launch's four results and the second's two, as the gather–scatter stretch finds them. -/
theorem W3_v2 (c : Dev nD) (w : Fin cfg0.W) (h1 : ∀ w', Pipeline.arrRef spec1 w' ≠ Pipeline.arrRef spec0 w) :
    W3 m ρ c (Proc.devRef .tc (Pipeline.arrRef spec0 w)) = (dat0 (V1 m ρ) c).arrAt w cfg0.N :=
  (W3_of_ne m ρ c _ h1).trans (W2_arr m ρ c w)

/-- A buffer neither later stretch writes, at the third launch's entry. -/
theorem W5_keep (c : Dev nD) (r : Ref sig .tc) (hB : r ∉ wrB) (hC : r ∉ wrC) :
    W5 m ρ c (Proc.devRef .tc r) = W3 m ρ c (Proc.devRef .tc r) :=
  (keepC _ r hC).trans (keepB _ r hB)

/-! ## The segment sums and counts -/

set_option maxHeartbeats 4000000 in
theorem W5_v19 (c : Dev nD) : W5 m ρ c (Proc.devRef .tc main_v19)
    = segSum (W3 m ρ c (Proc.devRef .tc main_v2_0)) (W3 m ρ c (Proc.devRef .tc main_arg8)) := by
  show StableHlo.after main_part1_ops0 (StableHlo.after main_part0_ops1 (W3 m ρ c)) (Proc.devRef .tc main_v19) = _
  after_results_simp
  rfl
set_option maxHeartbeats 4000000 in
theorem W5_v23 (c : Dev nD) : W5 m ρ c (Proc.devRef .tc main_v23) = segCnt (W3 m ρ c (Proc.devRef .tc main_arg8)) := by
  show StableHlo.after main_part1_ops0 (StableHlo.after main_part0_ops1 (W3 m ρ c)) (Proc.devRef .tc main_v23) = _
  after_results_simp
  rfl
set_option maxHeartbeats 4000000 in
theorem W5_v39 (c : Dev nD) : W5 m ρ c (Proc.devRef .tc main_v39)
    = segSum (W3 m ρ c (Proc.devRef .tc main_v3_0)) (W3 m ρ c (Proc.devRef .tc main_arg9)) := by
  show StableHlo.after main_part1_ops0 (StableHlo.after main_part0_ops1 (W3 m ρ c)) (Proc.devRef .tc main_v39) = _
  after_results_simp
  rfl
set_option maxHeartbeats 4000000 in
theorem W5_v43 (c : Dev nD) : W5 m ρ c (Proc.devRef .tc main_v43) = segCnt (W3 m ρ c (Proc.devRef .tc main_arg9)) := by
  show StableHlo.after main_part1_ops0 (StableHlo.after main_part0_ops1 (W3 m ρ c)) (Proc.devRef .tc main_v43) = _
  after_results_simp
  rfl
set_option maxHeartbeats 4000000 in
theorem W5_v59 (c : Dev nD) : W5 m ρ c (Proc.devRef .tc main_v59)
    = segSum (W3 m ρ c (Proc.devRef .tc main_v2_2)) (W3 m ρ c (Proc.devRef .tc main_arg10)) := by
  show StableHlo.after main_part1_ops0 (StableHlo.after main_part0_ops1 (W3 m ρ c)) (Proc.devRef .tc main_v59) = _
  after_results_simp
  rfl
set_option maxHeartbeats 4000000 in
theorem W5_v63 (c : Dev nD) : W5 m ρ c (Proc.devRef .tc main_v63) = segCnt (W3 m ρ c (Proc.devRef .tc main_arg10)) := by
  show StableHlo.after main_part1_ops0 (StableHlo.after main_part0_ops1 (W3 m ρ c)) (Proc.devRef .tc main_v63) = _
  after_results_simp
  rfl

end Cert.KernelIdeal.Hand

end
-- ==== Proof.KI.Val0.lean ====
import proofs.«167871_j59854664237622_2_alg».proof.Proof.KI.R0
import Idealize.ShloMosaic.Lib.Pipeline.Value
import Idealize.ShloMosaic.Lib.ValueIdx
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open scoped BigOperators

/-! # The first launch read as one function of its two arrays

The launch multiplies the 50000×128 feature array `x` by the 128×512 weight panel `W`, 5000 rows at a time, and cuts
each 5000×512 block of the product into four 5000×128 column slabs, one per result array. Over the ideal numbers the
rounding of the operands to the narrower float type changes nothing and the product accumulated into the zero matrix is
the plain sum, so entry `(r, s)` of result array `g` (`g = 0, 1, 2, 3`) ends as

  `∑ k < 128, x[r, k] * W[k, 128 * g + s]`:

row `r` of the features against column `128 * g + s` of the panel. The entry depends on no other row of `x` and on no
other column of `W`; in particular the block of 5000 rows that `r` falls in drops out of the formula. This file proves
that, in three steps: the product of one row block at an index; its four column slabs at an index; and the passage
from what each grid point writes back to the whole result array, the ten row blocks tiling the 50000 rows. -/

/-- The rows of `x` against 128 consecutive columns of a panel `w` with `n` columns, starting at column `off`: entry
    `(r, s)` is the inner product of row `r` of `x` with column `off + s` of `w`. The panel's width is a parameter, so
    the same function describes a launch whose panel has fewer columns. -/
def projRows {n : ℕ} (x : S50000x128.Idx → EReal) (w : (⟨2, ![128, n]⟩ : Shape).Idx → EReal) (off : ℕ)
    (hoff : off + 128 ≤ n) : S50000x128.Idx → EReal :=
  fun i => ∑ k : Fin 128, x (ValueIdx.ix2 (i 0) k) * w (ValueIdx.ix2 k ⟨off + (i 1).val, by have := ValueIdx.idx2_lt1 i; omega⟩)

/-! ## The product of one row block at an index

The contraction pairs axis 1 of the left operand with axis 0 of the right one, and there is no batch axis. So for the
output index `(p, r)` and the contraction index `k` the left operand is read at `(p, k)` and the right operand at
`(k, r)`: the four lemmas below read the two index maps one coordinate at a time. -/

/-- The dimension numbers of the launch's product: [5000,128] by [128,512] into [5000,512]. -/
abbrev dotA := dot_S5000x128_S128x512_S5000x512_1_0_0_1_n_n

/-- The left operand's row is the output's row. -/
theorem dotA_lhs0 (i : S5000x512.Idx) (q : dotA.contr.Idx) : (dotA.lhsIdx i q 0).val = (i 0).val := by
  unfold DotDims.lhsIdx
  rw [dif_neg (show ¬(0 : Fin S5000x128.rank) ∈ dotA.lhsBatch by decide),
    dif_pos (show (0 : Fin S5000x128.rank) ∈ dotA.lhsNonContracting by decide)]
  rfl
/-- The left operand's column is the contraction index. -/
theorem dotA_lhs1 (i : S5000x512.Idx) (q : dotA.contr.Idx) : (dotA.lhsIdx i q 1).val = (q ⟨0, by decide⟩).val :=
  dotA.lhsIdx_val_of_single rfl i q
/-- The right operand's row is the contraction index. -/
theorem dotA_rhs0 (i : S5000x512.Idx) (q : dotA.contr.Idx) : (dotA.rhsIdx i q 0).val = (q ⟨0, by decide⟩).val :=
  dotA.rhsIdx_val_of_single rfl i q
/-- The right operand's column is the output's column. -/
theorem dotA_rhs1 (i : S5000x512.Idx) (q : dotA.contr.Idx) : (dotA.rhsIdx i q 1).val = (i 1).val := by
  unfold DotDims.rhsIdx
  rw [dif_neg (show ¬(1 : Fin S128x512.rank) ∈ dotA.rhsBatch by decide),
    dif_pos (show (1 : Fin S128x512.rank) ∈ dotA.rhsNonContracting by decide)]
  rfl

/-- THE 5000×512 PRODUCT AT AN INDEX. Entry `(p, r)` is `∑ k, v0[p, k] * v2[k, r]`: the sum over the one-axis
    contraction shape is re-indexed by `k < 128`, the index maps are the four lemmas above, and at the ideal numbers
    the two roundings to the narrower type and the reshape of the panel to its own shape are identities. -/
theorem pay0_1_apply (v0 : Vec Ideal S5000x128 .f32) (v2 : Vec Ideal S128x512 .f32) (p : Fin 5000) (r : Fin 512) :
    k0_pay1 v0 v2 (ValueIdx.ix2 p r) = ∑ k : Fin 128, v0 (ValueIdx.ix2 p k) * v2 (ValueIdx.ix2 k r) := by
  unfold k0_pay1
  refine (Ideal.matmul_constant_zero_apply dotA none _ _ _).trans ?_
  rw [← Equiv.sum_comp (ValueIdx.contrEquiv1 dotA 128 rfl rfl).symm]
  refine Finset.sum_congr rfl fun k _ => ?_
  have hk := ValueIdx.contrEquiv1_symm_val dotA 128 rfl rfl k
  have el : dotA.lhsIdx (ValueIdx.ix2 p r) ((ValueIdx.contrEquiv1 dotA 128 rfl rfl).symm k) = ValueIdx.ix2 p k :=
    funext fun a => Fin.ext (by
      match a with
      | ⟨0, _⟩ => exact dotA_lhs0 _ _
      | ⟨1, _⟩ => exact (dotA_lhs1 _ _).trans hk)
  have er : dotA.rhsIdx (ValueIdx.ix2 p r) ((ValueIdx.contrEquiv1 dotA 128 rfl rfl).symm k) = ValueIdx.ix2 k r :=
    funext fun a => Fin.ext (by
      match a with
      | ⟨0, _⟩ => exact (dotA_rhs0 _ _).trans hk
      | ⟨1, _⟩ => exact dotA_rhs1 _ _)
  rw [el, er, ValueIdx.truncf_apply, ValueIdx.truncf_apply, shapeCast_self]

/-! ## The four column slabs at an index

Slab `g` keeps every row and the columns `128 * g … 128 * g + 127` of the product, so its entry `(p, q)` is the
product's entry `(p, 128 * g + q)`: row `p` of the block against column `128 * g + q` of the panel. -/

theorem pay0_2_apply (v0 : Vec Ideal S5000x128 .f32) (v2 : Vec Ideal S128x512 .f32) (p : Fin 5000) (q : Fin 128) :
    k0_pay2 v0 v2 (ValueIdx.ix2 p q) = ∑ k : Fin 128, v0 (ValueIdx.ix2 p k) * v2 (ValueIdx.ix2 k ⟨128 * 0 + q.val, by omega⟩) := by
  unfold k0_pay2
  refine (extractStridedSlice_apply ![0, 0] (k0_pay1 v0 v2) slices_S5000x512_o0_0_S5000x128 (ValueIdx.ix2 p q)
    (ValueIdx.ix2 p ⟨128 * 0 + q.val, by omega⟩) ?_).trans (pay0_1_apply v0 v2 p _)
  intro a
  match a with
  | ⟨0, _⟩ => show p.val = 0 + p.val; omega
  | ⟨1, _⟩ => show 128 * 0 + q.val = 0 + q.val; omega

theorem pay0_3_apply (v0 : Vec Ideal S5000x128 .f32) (v2 : Vec Ideal S128x512 .f32) (p : Fin 5000) (q : Fin 128) :
    k0_pay3 v0 v2 (ValueIdx.ix2 p q) = ∑ k : Fin 128, v0 (ValueIdx.ix2 p k) * v2 (ValueIdx.ix2 k ⟨128 * 1 + q.val, by omega⟩) := by
  unfold k0_pay3
  refine (extractStridedSlice_apply ![0, 128] (k0_pay1 v0 v2) slices_S5000x512_o0_128_S5000x128 (ValueIdx.ix2 p q)
    (ValueIdx.ix2 p ⟨128 * 1 + q.val, by omega⟩) ?_).trans (pay0_1_apply v0 v2 p _)
  intro a
  match a with
  | ⟨0, _⟩ => show p.val = 0 + p.val; omega
  | ⟨1, _⟩ => show 128 * 1 + q.val = 128 + q.val; omega

theorem pay0_4_apply (v0 : Vec Ideal S5000x128 .f32) (v2 : Vec Ideal S128x512 .f32) (p : Fin 5000) (q : Fin 128) :
    k0_pay4 v0 v2 (ValueIdx.ix2 p q) = ∑ k : Fin 128, v0 (ValueIdx.ix2 p k) * v2 (ValueIdx.ix2 k ⟨128 * 2 + q.val, by omega⟩) := by
  unfold k0_pay4
  refine (extractStridedSlice_apply ![0, 256] (k0_pay1 v0 v2) slices_S5000x512_o0_256_S5000x128 (ValueIdx.ix2 p q)
    (ValueIdx.ix2 p ⟨128 * 2 + q.val, by omega⟩) ?_).trans (pay0_1_apply v0 v2 p _)
  intro a
  match a with
  | ⟨0, _⟩ => show p.val = 0 + p.val; omega
  | ⟨1, _⟩ => show 128 * 2 + q.val = 256 + q.val; omega

theorem pay0_5_apply (v0 : Vec Ideal S5000x128 .f32) (v2 : Vec Ideal S128x512 .f32) (p : Fin 5000) (q : Fin 128) :
    k0_pay5 v0 v2 (ValueIdx.ix2 p q) = ∑ k : Fin 128, v0 (ValueIdx.ix2 p k) * v2 (ValueIdx.ix2 k ⟨128 * 3 + q.val, by omega⟩) := by
  unfold k0_pay5
  refine (extractStridedSlice_apply ![0, 384] (k0_pay1 v0 v2) slices_S5000x512_o0_384_S5000x128 (ValueIdx.ix2 p q)
    (ValueIdx.ix2 p ⟨128 * 3 + q.val, by omega⟩) ?_).trans (pay0_1_apply v0 v2 p _)
  intro a
  match a with
  | ⟨0, _⟩ => show p.val = 0 + p.val; omega
  | ⟨1, _⟩ => show 128 * 3 + q.val = 384 + q.val; omega

/-! ## From the row blocks to the whole arrays

Grid point `t` (`t = 0 … 9`) holds rows `5000 * t … 5000 * t + 4999` of the features, the whole panel, and the same rows
of each result array. An element at `(p, q)` inside a block therefore sits at `(5000 * t + p, q)` in its array, and an
element of the panel sits where its own coordinates say. -/

theorem hz0 : (![0, 0] : Fin 2 → Nat) = fun _ => 0 := funext fun a => by fin_cases a <;> rfl

/-- The block index of every window at every grid point, decided over the ten points: the feature window and the four
    result windows are at block `(t, 0)`, the panel's window is at block `(0, 0)`. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- Every one of the ten row blocks is some grid point's. -/
theorem idx_onto0 : ∀ b : Fin 10, ∃ t : Fin cfg0.N, t.val = b.val :=
  (by decide +kernel : ∀ b : Fin 10, ∃ t : Fin grid0.N, t.val = b.val)

section Whole
variable (V : (c : Dev nD) → (b : Ref sig .tc) → Buf (Elt Ideal) ((c : Thread nD τ).loc b))

/-! ### Result array 0 (window 2): columns `128 * 0 … 128 * 0 + 127` of the panel -/

/-- WHAT POINT `t` WRITES BACK is block `t` of `projRows x W (128 * 0)`. The body's one whole-block store leaves slab 0
    of the product of the point's feature block and the panel; at `(p, q)` that is the sum over `k` of the block's
    `(p, k)`, which is `x[5000 * t + p, k]`, times the panel's `(k, 128 * 0 + q)`. The block's element `(p, q)` sits at
    `(5000 * t + p, q)` in the result array, where `projRows` has the same sum. -/
theorem flushed0_2_eq (c : Dev nD) (t : Fin cfg0.N) :
    (dat0 (F := Ideal) V c).flushed 2 t
      = ((cfg0.win 2).blk t).view.read (Elt Ideal) (projRows (V c main_arg0) (V c main_v0) (128 * 0) (by norm_num)) := by
  show (cfg0.win 2).cut (grid0.coords t) ((dat0 V c).after 2 t) = _
  rw [after0_2]
  unfold out0_2
  rw [View.canon_unit_zero hz0]
  simp only [View.ld_unit_zero (S := S5000x128) hz0, View.ld_unit_zero (S := S128x512) hz0]
  obtain ⟨e00, e01, e10, e11, e20, e21, e30, e31, e40, e41, e50, e51⟩ := idx_facts0 t
  funext j
  obtain ⟨p, q, rfl⟩ : ∃ (p : Fin 5000) (q : Fin 128), j = ValueIdx.ix2 p q := ⟨j 0, j 1, ValueIdx.eq_ix2 j⟩
  refine (pay0_2_apply _ _ p q).trans ?_
  show _ = projRows (V c main_arg0) (V c main_v0) (128 * 0) (by norm_num) (((cfg0.win 2).blk t).view.emb (ValueIdx.ix2 p q))
  unfold projRows
  refine Finset.sum_congr rfl fun k _ => ?_
  -- the feature block's `(p, k)` is the array's `(row of the result element, k)`
  have h0 : ((cfg0.win 0).blk t).view.emb (ValueIdx.ix2 p k)
      = ValueIdx.ix2 ((((cfg0.win 2).blk t).view.emb (ValueIdx.ix2 p q)) 0) k := by
    funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 128 + 1 * k.val = k.val; omega
  -- the panel's block is the panel, and the result element's column is `q`
  have h1 : ((cfg0.win 1).blk t).view.emb (ValueIdx.ix2 k ⟨128 * 0 + q.val, by omega⟩)
      = ValueIdx.ix2 k ⟨128 * 0 + ((((cfg0.win 2).blk t).view.emb (ValueIdx.ix2 p q)) 1).val, by
          have : ((((cfg0.win 2).blk t).view.emb (ValueIdx.ix2 p q)) 1).val < 128 := ValueIdx.idx2_lt1 _; omega⟩ := by
    funext a; apply Fin.ext
    match a with
    | ⟨0, _⟩ => show win0_1.index t (0 : Fin 2) * 128 + 1 * k.val = k.val; omega
    | ⟨1, _⟩ => show win0_1.index t (1 : Fin 2) * 512 + 1 * (128 * 0 + q.val) = 128 * 0 + (win0_2.index t (1 : Fin 2) * 128 + 1 * q.val); omega
  exact congrArg₂ (fun a b : EReal => a * b) (congrArg (V c main_arg0) h0) (congrArg (V c main_v0) h1)

/-- An index of the result array is in point `t`'s block iff each coordinate is in the block's range on its axis. -/
theorem mem_blk0_2 (t : Fin cfg0.N) (i : S50000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v2_0).slice (win0_2.rect t)).set ↔ _
  rw [View.set_slice_whole, Rect.mem_set_unit]
  exact Iff.rfl

/-- The ten blocks tile the array: row `r` is in the block of point `r / 5000`, and every point writes back. -/
theorem covered0_2 (i : S50000x128.Idx) :
    ∃ t : Fin cfg0.N, (cfg0.win 2).flush t = true ∧ i ∈ ((cfg0.win 2).blk t).view.set := by
  have hi0 : (i 0).val < 50000 := ValueIdx.idx2_lt0 i
  have hi1 : (i 1).val < 128 := ValueIdx.idx2_lt1 i
  obtain ⟨t, ht⟩ := idx_onto0 ⟨(i 0).val / 5000, by omega⟩
  have ht' : t.val = (i 0).val / 5000 := ht
  obtain ⟨e00, e01, e10, e11, e20, e21, e30, e31, e40, e41, e50, e51⟩ := idx_facts0 t
  refine ⟨t, flush0_2 t, ?_⟩
  rw [mem_blk0_2]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- THE RESULT ARRAY after the launch: the features' rows against columns `128 * 0 … 128 * 0 + 127` of the panel. -/
theorem final0_2 (c : Dev nD) :
    (dat0 (F := Ideal) V c).arrAt 2 cfg0.N = projRows (V c main_arg0) (V c main_v0) (128 * 0) (by norm_num) :=
  (dat0 V c).arrAt_eq_of_cover 2 _ (fun t _ => flushed0_2_eq V c t) covered0_2

/-! ### Result array 1 (window 3): columns `128 * 1 … 128 * 1 + 127` of the panel -/

/-- WHAT POINT `t` WRITES BACK is block `t` of `projRows x W (128 * 1)`. The body's one whole-block store leaves slab 1
    of the product of the point's feature block and the panel; at `(p, q)` that is the sum over `k` of the block's
    `(p, k)`, which is `x[5000 * t + p, k]`, times the panel's `(k, 128 * 1 + q)`. The block's element `(p, q)` sits at
    `(5000 * t + p, q)` in the result array, where `projRows` has the same sum. -/
theorem flushed0_3_eq (c : Dev nD) (t : Fin cfg0.N) :
    (dat0 (F := Ideal) V c).flushed 3 t
      = ((cfg0.win 3).blk t).view.read (Elt Ideal) (projRows (V c main_arg0) (V c main_v0) (128 * 1) (by norm_num)) := by
  show (cfg0.win 3).cut (grid0.coords t) ((dat0 V c).after 3 t) = _
  rw [after0_3]
  unfold out0_3
  rw [View.canon_unit_zero hz0]
  simp only [View.ld_unit_zero (S := S5000x128) hz0, View.ld_unit_zero (S := S128x512) hz0]
  obtain ⟨e00, e01, e10, e11, e20, e21, e30, e31, e40, e41, e50, e51⟩ := idx_facts0 t
  funext j
  obtain ⟨p, q, rfl⟩ : ∃ (p : Fin 5000) (q : Fin 128), j = ValueIdx.ix2 p q := ⟨j 0, j 1, ValueIdx.eq_ix2 j⟩
  refine (pay0_3_apply _ _ p q).trans ?_
  show _ = projRows (V c main_arg0) (V c main_v0) (128 * 1) (by norm_num) (((cfg0.win 3).blk t).view.emb (ValueIdx.ix2 p q))
  unfold projRows
  refine Finset.sum_congr rfl fun k _ => ?_
  -- the feature block's `(p, k)` is the array's `(row of the result element, k)`
  have h0 : ((cfg0.win 0).blk t).view.emb (ValueIdx.ix2 p k)
      = ValueIdx.ix2 ((((cfg0.win 3).blk t).view.emb (ValueIdx.ix2 p q)) 0) k := by
    funext a; apply Fin.ext
    match a with
    | ⟨0, _⟩ => show win0_0.index t (0 : Fin 2) * 5000 + 1 * p.val = win0_3.index t (0 : Fin 2) * 5000 + 1 * p.val; omega
    | ⟨1, _⟩ => show win0_0.index t (1 : Fin 2) * 128 + 1 * k.val = k.val; omega
  -- the panel's block is the panel, and the result element's column is `q`
  have h1 : ((cfg0.win 1).blk t).view.emb (ValueIdx.ix2 k ⟨128 * 1 + q.val, by omega⟩)
      = ValueIdx.ix2 k ⟨128 * 1 + ((((cfg0.win 3).blk t).view.emb (ValueIdx.ix2 p q)) 1).val, by
          have : ((((cfg0.win 3).blk t).view.emb (ValueIdx.ix2 p q)) 1).val < 128 := ValueIdx.idx2_lt1 _; omega⟩ := by
    funext a; apply Fin.ext
    match a with
    | ⟨0, _⟩ => show win0_1.index t (0 : Fin 2) * 128 + 1 * k.val = k.val; omega
    | ⟨1, _⟩ => show win0_1.index t (1 : Fin 2) * 512 + 1 * (128 * 1 + q.val) = 128 * 1 + (win0_3.index t (1 : Fin 2) * 128 + 1 * q.val); omega
  exact congrArg₂ (fun a b : EReal => a * b) (congrArg (V c main_arg0) h0) (congrArg (V c main_v0) h1)

/-- An index of the result array is in point `t`'s block iff each coordinate is in the block's range on its axis. -/
theorem mem_blk0_3 (t : Fin cfg0.N) (i : S50000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v2_1).slice (win0_3.rect t)).set ↔ _
  rw [View.set_slice_whole, Rect.mem_set_unit]
  exact Iff.rfl

/-- The ten blocks tile the array: row `r` is in the block of point `r / 5000`, and every point writes back. -/
theorem covered0_3 (i : S50000x128.Idx) :
    ∃ t : Fin cfg0.N, (cfg0.win 3).flush t = true ∧ i ∈ ((cfg0.win 3).blk t).view.set := by
  have hi0 : (i 0).val < 50000 := ValueIdx.idx2_lt0 i
  have hi1 : (i 1).val < 128 := ValueIdx.idx2_lt1 i
  obtain ⟨t, ht⟩ := idx_onto0 ⟨(i 0).val / 5000, by omega⟩
  have ht' : t.val = (i 0).val / 5000 := ht
  obtain ⟨e00, e01, e10, e11, e20, e21, e30, e31, e40, e41, e50, e51⟩ := idx_facts0 t
  refine ⟨t, flush0_3 t, ?_⟩
  rw [mem_blk0_3]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- THE RESULT ARRAY after the launch: the features' rows against columns `128 * 1 … 128 * 1 + 127` of the panel. -/
theorem final0_3 (c : Dev nD) :
    (dat0 (F := Ideal) V c).arrAt 3 cfg0.N = projRows (V c main_arg0) (V c main_v0) (128 * 1) (by norm_num) :=
  (dat0 V c).arrAt_eq_of_cover 3 _ (fun t _ => flushed0_3_eq V c t) covered0_3

/-! ### Result array 2 (window 4): columns `128 * 2 … 128 * 2 + 127` of the panel -/

/-- WHAT POINT `t` WRITES BACK is block `t` of `projRows x W (128 * 2)`. The body's one whole-block store leaves slab 2
    of the product of the point's feature block and the panel; at `(p, q)` that is the sum over `k` of the block's
    `(p, k)`, which is `x[5000 * t + p, k]`, times the panel's `(k, 128 * 2 + q)`. The block's element `(p, q)` sits at
    `(5000 * t + p, q)` in the result array, where `projRows` has the same sum. -/
theorem flushed0_4_eq (c : Dev nD) (t : Fin cfg0.N) :
    (dat0 (F := Ideal) V c).flushed 4 t
      = ((cfg0.win 4).blk t).view.read (Elt Ideal) (projRows (V c main_arg0) (V c main_v0) (128 * 2) (by norm_num)) := by
  show (cfg0.win 4).cut (grid0.coords t) ((dat0 V c).after 4 t) = _
  rw [after0_4]
  unfold out0_4
  rw [View.canon_unit_zero hz0]
  simp only [View.ld_unit_zero (S := S5000x128) hz0, View.ld_unit_zero (S := S128x512) hz0]
  obtain ⟨e00, e01, e10, e11, e20, e21, e30, e31, e40, e41, e50, e51⟩ := idx_facts0 t
  funext j
  obtain ⟨p, q, rfl⟩ : ∃ (p : Fin 5000) (q : Fin 128), j = ValueIdx.ix2 p q := ⟨j 0, j 1, ValueIdx.eq_ix2 j⟩
  refine (pay0_4_apply _ _ p q).trans ?_
  show _ = projRows (V c main_arg0) (V c main_v0) (128 * 2) (by norm_num) (((cfg0.win 4).blk t).view.emb (ValueIdx.ix2 p q))
  unfold projRows
  refine Finset.sum_congr rfl fun k _ => ?_
  -- the feature block's `(p, k)` is the array's `(row of the result element, k)`
  have h0 : ((cfg0.win 0).blk t).view.emb (ValueIdx.ix2 p k)
      = ValueIdx.ix2 ((((cfg0.win 4).blk t).view.emb (ValueIdx.ix2 p q)) 0) k := by
    funext a; apply Fin.ext
    match a with
    | ⟨0, _⟩ => show win0_0.index t (0 : Fin 2) * 5000 + 1 * p.val = win0_4.index t (0 : Fin 2) * 5000 + 1 * p.val; omega
    | ⟨1, _⟩ => show win0_0.index t (1 : Fin 2) * 128 + 1 * k.val = k.val; omega
  -- the panel's block is the panel, and the result element's column is `q`
  have h1 : ((cfg0.win 1).blk t).view.emb (ValueIdx.ix2 k ⟨128 * 2 + q.val, by omega⟩)
      = ValueIdx.ix2 k ⟨128 * 2 + ((((cfg0.win 4).blk t).view.emb (ValueIdx.ix2 p q)) 1).val, by
          have : ((((cfg0.win 4).blk t).view.emb (ValueIdx.ix2 p q)) 1).val < 128 := ValueIdx.idx2_lt1 _; omega⟩ := by
    funext a; apply Fin.ext
    match a with
    | ⟨0, _⟩ => show win0_1.index t (0 : Fin 2) * 128 + 1 * k.val = k.val; omega
    | ⟨1, _⟩ => show win0_1.index t (1 : Fin 2) * 512 + 1 * (128 * 2 + q.val) = 128 * 2 + (win0_4.index t (1 : Fin 2) * 128 + 1 * q.val); omega
  exact congrArg₂ (fun a b : EReal => a * b) (congrArg (V c main_arg0) h0) (congrArg (V c main_v0) h1)

/-- An index of the result array is in point `t`'s block iff each coordinate is in the block's range on its axis. -/
theorem mem_blk0_4 (t : Fin cfg0.N) (i : S50000x128.Idx) :
    i ∈ ((cfg0.win 4).blk t).view.set ↔ ∀ a : Fin 2, win0_4.index t a * S5000x128.size a ≤ (i a).val
      ∧ (i a).val < win0_4.index t a * S5000x128.size a + S5000x128.size a := by
  show i ∈ ((View.whole main_v2_2).slice (win0_4.rect t)).set ↔ _
  rw [View.set_slice_whole, Rect.mem_set_unit]
  exact Iff.rfl

/-- The ten blocks tile the array: row `r` is in the block of point `r / 5000`, and every point writes back. -/
theorem covered0_4 (i : S50000x128.Idx) :
    ∃ t : Fin cfg0.N, (cfg0.win 4).flush t = true ∧ i ∈ ((cfg0.win 4).blk t).view.set := by
  have hi0 : (i 0).val < 50000 := ValueIdx.idx2_lt0 i
  have hi1 : (i 1).val < 128 := ValueIdx.idx2_lt1 i
  obtain ⟨t, ht⟩ := idx_onto0 ⟨(i 0).val / 5000, by omega⟩
  have ht' : t.val = (i 0).val / 5000 := ht
  obtain ⟨e00, e01, e10, e11, e20, e21, e30, e31, e40, e41, e50, e51⟩ := idx_facts0 t
  refine ⟨t, flush0_4 t, ?_⟩
  rw [mem_blk0_4]
  intro a
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 128 ≤ (i 1).val ∧ (i 1).val < win0_4.index t (1 : Fin 2) * 128 + 128; omega

/-- THE RESULT ARRAY after the launch: the features' rows against columns `128 * 2 … 128 * 2 + 127` of the panel. -/
theorem final0_4 (c : Dev nD) :
    (dat0 (F := Ideal) V c).arrAt 4 cfg0.N = projRows (V c main_arg0) (V c main_v0) (128 * 2) (by norm_num) :=
  (dat0 V c).arrAt_eq_of_cover 4 _ (fun t _ => flushed0_4_eq V c t) covered0_4

/-! ### Result array 3 (window 5): columns `128 * 3 … 128 * 3 + 127` of the panel -/

/-- WHAT POINT `t` WRITES BACK is block `t` of `projRows x W (128 * 3)`. The body's one whole-block store leaves slab 3
    of the product of the point's feature block and the panel; at `(p, q)` that is the sum over `k` of the block's
    `(p, k)`, which is `x[5000 * t + p, k]`, times the panel's `(k, 128 * 3 + q)`. The block's element `(p, q)` sits at
    `(5000 * t + p, q)` in the result array, where `projRows` has the same sum. -/
theorem flushed0_5_eq (c : Dev nD) (t : Fin cfg0.N) :
    (dat0 (F := Ideal) V c).flushed 5 t
      = ((cfg0.win 5).blk t).view.read (Elt Ideal) (projRows (V c main_arg0) (V c main_v0) (128 * 3) (by norm_num)) := by
  show (cfg0.win 5).cut (grid0.coords t) ((dat0 V c).after 5 t) = _
  rw [after0_5]
  unfold out0_5
  rw [View.canon_unit_zero hz0]
  simp only [View.ld_unit_zero (S := S5000x128) hz0, View.ld_unit_zero (S := S128x512) hz0]
  obtain ⟨e00, e01, e10, e11, e20, e21, e30, e31, e40, e41, e50, e51⟩ := idx_facts0 t
  funext j
  obtain ⟨p, q, rfl⟩ : ∃ (p : Fin 5000) (q : Fin 128), j = ValueIdx.ix2 p q := ⟨j 0, j 1, ValueIdx.eq_ix2 j⟩
  refine (pay0_5_apply _ _ p q).trans ?_
  show _ = projRows (V c main_arg0) (V c main_v0) (128 * 3) (by norm_num) (((cfg0.win 5).blk t).view.emb (ValueIdx.ix2 p q))
  unfold projRows
  refine Finset.sum_congr rfl fun k _ => ?_
  -- the feature block's `(p, k)` is the array's `(row of the result element, k)`
  have h0 : ((cfg0.win 0).blk t).view.emb (ValueIdx.ix2 p k)
      = ValueIdx.ix2 ((((cfg0.win 5).blk t).view.emb (ValueIdx.ix2 p q)) 0) k := by
    funext a; apply Fin.ext
    match a with
    | ⟨0, _⟩ => show win0_0.index t (0 : Fin 2) * 5000 + 1 * p.val = win0_5.index t (0 : Fin 2) * 5000 + 1 * p.val; omega
    | ⟨1, _⟩ => show win0_0.index t (1 : Fin 2) * 128 + 1 * k.val = k.val; omega
  -- the panel's block is the panel, and the result element's column is `q`
  have h1 : ((cfg0.win 1).blk t).view.emb (ValueIdx.ix2 k ⟨128 * 3 + q.val, by omega⟩)
      = ValueIdx.ix2 k ⟨128 * 3 + ((((cfg0.win 5).blk t).view.emb (ValueIdx.ix2 p q)) 1).val, by
          have : ((((cfg0.win 5).blk t).view.emb (ValueIdx.ix2 p q)) 1).val < 128 := ValueIdx.idx2_lt1 _; omega⟩ := by
    funext a; apply Fin.ext
    match a with
    | ⟨0, _⟩ => show win0_1.index t (0 : Fin 2) * 128 + 1 * k.val = k.val; omega
    | ⟨1, _⟩ => show win0_1.index t (1 : Fin 2) * 512 + 1 * (128 * 3 + q.val) = 128 * 3 + (win0_5.index t (1 : Fin 2) * 128 + 1 * q.val); omega
  exact congrArg₂ (fun a b : EReal => a * b) (congrArg (V c main_arg0) h0) (congrArg (V c main_v0) h1)

/-- An index of the result array is in point `t`'s block iff each coordinate is in the block's range on its axis. -/
theorem mem_blk0_5 (t : Fin cfg0.N) (i : S50000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v2_3).slice (win0_5.rect t)).set ↔ _
  rw [View.set_slice_whole, Rect.mem_set_unit]
  exact Iff.rfl

/-- The ten blocks tile the array: row `r` is in the block of point `r / 5000`, and every point writes back. -/
theorem covered0_5 (i : S50000x128.Idx) :
    ∃ t : Fin cfg0.N, (cfg0.win 5).flush t = true ∧ i ∈ ((cfg0.win 5).blk t).view.set := by
  have hi0 : (i 0).val < 50000 := ValueIdx.idx2_lt0 i
  have hi1 : (i 1).val < 128 := ValueIdx.idx2_lt1 i
  obtain ⟨t, ht⟩ := idx_onto0 ⟨(i 0).val / 5000, by omega⟩
  have ht' : t.val = (i 0).val / 5000 := ht
  obtain ⟨e00, e01, e10, e11, e20, e21, e30, e31, e40, e41, e50, e51⟩ := idx_facts0 t
  refine ⟨t, flush0_5 t, ?_⟩
  rw [mem_blk0_5]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- THE RESULT ARRAY after the launch: the features' rows against columns `128 * 3 … 128 * 3 + 127` of the panel. -/
theorem final0_5 (c : Dev nD) :
    (dat0 (F := Ideal) V c).arrAt 5 cfg0.N = projRows (V c main_arg0) (V c main_v0) (128 * 3) (by norm_num) :=
  (dat0 V c).arrAt_eq_of_cover 5 _ (fun t _ => flushed0_5_eq V c t) covered0_5

end Whole

end Cert.KernelIdeal.Hand

end
-- ==== Proof.KI.Val1.lean ====
import proofs.«167871_j59854664237622_2_alg».proof.Proof.KI.R1
import proofs.«167871_j59854664237622_2_alg».proof.Proof.KI.Val0
import Idealize.ShloMosaic.Lib.Pipeline.Value
import Idealize.ShloMosaic.Lib.ValueIdx
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open scoped BigOperators

/-! # The second launch read as one function of its two arrays

The launch multiplies the second 50000×128 feature array `x` by the 128×256 weight panel `W`, 5000 rows at a time, and
cuts each 5000×256 block of the product into two 5000×128 column slabs, one per result array. Over the ideal numbers
the rounding of the operands to the narrower float type changes nothing and the product accumulated into the zero
matrix is the plain sum, so entry `(r, s)` of result array `g` (`g = 0, 1`) ends as

  `∑ k < 128, x[r, k] * W[k, 128 * g + s]`,

which is `projRows x W (128 * g)` at `(r, s)`: row `r` of the features against column `128 * g + s` of the panel, whatever
block of 5000 rows `r` falls in. The proof has the three steps of the first launch's: the product of one row block at
an index; its two column slabs at an index; and the passage from what each grid point writes back to the whole result
array, the ten row blocks tiling the 50000 rows. -/

/-! ## The product of one row block at an index

The contraction pairs axis 1 of the left operand with axis 0 of the right one, and there is no batch axis. So for the
output index `(p, r)` and the contraction index `k` the left operand is read at `(p, k)` and the right operand at
`(k, r)`. -/

/-- The dimension numbers of the launch's product: [5000,128] by [128,256] into [5000,256]. -/
abbrev dotB := dot_S5000x128_S128x256_S5000x256_1_0_0_1_n_n

/-- The left operand's row is the output's row. -/
theorem dotB_lhs0 (i : S5000x256.Idx) (q : dotB.contr.Idx) : (dotB.lhsIdx i q 0).val = (i 0).val := by
  unfold DotDims.lhsIdx
  rw [dif_neg (show ¬(0 : Fin S5000x128.rank) ∈ dotB.lhsBatch by decide),
    dif_pos (show (0 : Fin S5000x128.rank) ∈ dotB.lhsNonContracting by decide)]
  rfl
/-- The left operand's column is the contraction index. -/
theorem dotB_lhs1 (i : S5000x256.Idx) (q : dotB.contr.Idx) : (dotB.lhsIdx i q 1).val = (q ⟨0, by decide⟩).val :=
  dotB.lhsIdx_val_of_single rfl i q
/-- The right operand's row is the contraction index. -/
theorem dotB_rhs0 (i : S5000x256.Idx) (q : dotB.contr.Idx) : (dotB.rhsIdx i q 0).val = (q ⟨0, by decide⟩).val :=
  dotB.rhsIdx_val_of_single rfl i q
/-- The right operand's column is the output's column. -/
theorem dotB_rhs1 (i : S5000x256.Idx) (q : dotB.contr.Idx) : (dotB.rhsIdx i q 1).val = (i 1).val := by
  unfold DotDims.rhsIdx
  rw [dif_neg (show ¬(1 : Fin S128x256.rank) ∈ dotB.rhsBatch by decide),
    dif_pos (show (1 : Fin S128x256.rank) ∈ dotB.rhsNonContracting by decide)]
  rfl

/-- THE 5000×256 PRODUCT AT AN INDEX. Entry `(p, r)` is `∑ k, v0[p, k] * v2[k, r]`: the sum over the one-axis
    contraction shape is re-indexed by `k < 128`, the index maps are the four lemmas above, and at the ideal numbers
    the two roundings to the narrower type and the reshape of the panel to its own shape are identities. -/
theorem pay1_1_apply (v0 : Vec Ideal S5000x128 .f32) (v2 : Vec Ideal S128x256 .f32) (p : Fin 5000) (r : Fin 256) :
    k1_pay1 v0 v2 (ValueIdx.ix2 p r) = ∑ k : Fin 128, v0 (ValueIdx.ix2 p k) * v2 (ValueIdx.ix2 k r) := by
  unfold k1_pay1
  refine (Ideal.matmul_constant_zero_apply dotB none _ _ _).trans ?_
  rw [← Equiv.sum_comp (ValueIdx.contrEquiv1 dotB 128 rfl rfl).symm]
  refine Finset.sum_congr rfl fun k _ => ?_
  have hk := ValueIdx.contrEquiv1_symm_val dotB 128 rfl rfl k
  have el : dotB.lhsIdx (ValueIdx.ix2 p r) ((ValueIdx.contrEquiv1 dotB 128 rfl rfl).symm k) = ValueIdx.ix2 p k :=
    funext fun a => Fin.ext (by
      match a with
      | ⟨0, _⟩ => exact dotB_lhs0 _ _
      | ⟨1, _⟩ => exact (dotB_lhs1 _ _).trans hk)
  have er : dotB.rhsIdx (ValueIdx.ix2 p r) ((ValueIdx.contrEquiv1 dotB 128 rfl rfl).symm k) = ValueIdx.ix2 k r :=
    funext fun a => Fin.ext (by
      match a with
      | ⟨0, _⟩ => exact (dotB_rhs0 _ _).trans hk
      | ⟨1, _⟩ => exact dotB_rhs1 _ _)
  rw [el, er, ValueIdx.truncf_apply, ValueIdx.truncf_apply, shapeCast_self]

/-! ## The two column slabs at an index

Slab `g` keeps every row and the columns `128 * g … 128 * g + 127` of the product, so its entry `(p, q)` is the
product's entry `(p, 128 * g + q)`: row `p` of the block against column `128 * g + q` of the panel. -/

theorem pay1_2_apply (v0 : Vec Ideal S5000x128 .f32) (v2 : Vec Ideal S128x256 .f32) (p : Fin 5000) (q : Fin 128) :
    k1_pay2 v0 v2 (ValueIdx.ix2 p q) = ∑ k : Fin 128, v0 (ValueIdx.ix2 p k) * v2 (ValueIdx.ix2 k ⟨128 * 0 + q.val, by omega⟩) := by
  unfold k1_pay2
  refine (extractStridedSlice_apply ![0, 0] (k1_pay1 v0 v2) slices_S5000x256_o0_0_S5000x128 (ValueIdx.ix2 p q)
    (ValueIdx.ix2 p ⟨128 * 0 + q.val, by omega⟩) ?_).trans (pay1_1_apply v0 v2 p _)
  intro a
  match a with
  | ⟨0, _⟩ => show p.val = 0 + p.val; omega
  | ⟨1, _⟩ => show 128 * 0 + q.val = 0 + q.val; omega

theorem pay1_3_apply (v0 : Vec Ideal S5000x128 .f32) (v2 : Vec Ideal S128x256 .f32) (p : Fin 5000) (q : Fin 128) :
    k1_pay3 v0 v2 (ValueIdx.ix2 p q) = ∑ k : Fin 128, v0 (ValueIdx.ix2 p k) * v2 (ValueIdx.ix2 k ⟨128 * 1 + q.val, by omega⟩) := by
  unfold k1_pay3
  refine (extractStridedSlice_apply ![0, 128] (k1_pay1 v0 v2) slices_S5000x256_o0_128_S5000x128 (ValueIdx.ix2 p q)
    (ValueIdx.ix2 p ⟨128 * 1 + q.val, by omega⟩) ?_).trans (pay1_1_apply v0 v2 p _)
  intro a
  match a with
  | ⟨0, _⟩ => show p.val = 0 + p.val; omega
  | ⟨1, _⟩ => show 128 * 1 + q.val = 128 + q.val; omega

/-! ## From the row blocks to the whole arrays

Grid point `t` (`t = 0 … 9`) holds rows `5000 * t … 5000 * t + 4999` of the features, the whole panel, and the same rows
of each result array. An element at `(p, q)` inside a block therefore sits at `(5000 * t + p, q)` in its array, and an
element of the panel sits where its own coordinates say. -/

theorem hz1 : (![0, 0] : Fin 2 → Nat) = fun _ => 0 := funext fun a => by fin_cases a <;> rfl

/-- The block index of every window at every grid point, decided over the ten points: the feature window and the two
    result windows are at block `(t, 0)`, the panel's window is at block `(0, 0)`. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- Every one of the ten row blocks is some grid point's. -/
theorem idx_onto1 : ∀ b : Fin 10, ∃ t : Fin cfg1.N, t.val = b.val :=
  (by decide +kernel : ∀ b : Fin 10, ∃ t : Fin grid1.N, t.val = b.val)

section Whole
variable (V : (c : Dev nD) → (b : Ref sig .tc) → Buf (Elt Ideal) ((c : Thread nD τ).loc b))

/-! ### Result array 0 (window 2): columns `128 * 0 … 128 * 0 + 127` of the panel -/

/-- WHAT POINT `t` WRITES BACK is block `t` of `projRows x W (128 * 0)`. The body's one whole-block store leaves slab 0
    of the product of the point's feature block and the panel; at `(p, q)` that is the sum over `k` of the block's
    `(p, k)`, which is `x[5000 * t + p, k]`, times the panel's `(k, 128 * 0 + q)`. The block's element `(p, q)` sits at
    `(5000 * t + p, q)` in the result array, where `projRows` has the same sum. -/
theorem flushed1_2_eq (c : Dev nD) (t : Fin cfg1.N) :
    (dat1 (F := Ideal) V c).flushed 2 t
      = ((cfg1.win 2).blk t).view.read (Elt Ideal) (projRows (V c main_arg1) (V c main_v1) (128 * 0) (by norm_num)) := by
  show (cfg1.win 2).cut (grid1.coords t) ((dat1 V c).after 2 t) = _
  rw [after1_2]
  unfold out1_2
  rw [View.canon_unit_zero hz1]
  simp only [View.ld_unit_zero (S := S5000x128) hz1, View.ld_unit_zero (S := S128x256) hz1]
  obtain ⟨e00, e01, e10, e11, e20, e21, e30, e31⟩ := idx_facts1 t
  funext j
  obtain ⟨p, q, rfl⟩ : ∃ (p : Fin 5000) (q : Fin 128), j = ValueIdx.ix2 p q := ⟨j 0, j 1, ValueIdx.eq_ix2 j⟩
  refine (pay1_2_apply _ _ p q).trans ?_
  show _ = projRows (V c main_arg1) (V c main_v1) (128 * 0) (by norm_num) (((cfg1.win 2).blk t).view.emb (ValueIdx.ix2 p q))
  unfold projRows
  refine Finset.sum_congr rfl fun k _ => ?_
  -- the feature block's `(p, k)` is the array's `(row of the result element, k)`
  have h0 : ((cfg1.win 0).blk t).view.emb (ValueIdx.ix2 p k)
      = ValueIdx.ix2 ((((cfg1.win 2).blk t).view.emb (ValueIdx.ix2 p q)) 0) k := by
    funext a; apply Fin.ext
    match a with
    | ⟨0, _⟩ => show win1_0.index t (0 : Fin 2) * 5000 + 1 * p.val = win1_2.index t (0 : Fin 2) * 5000 + 1 * p.val; omega
    | ⟨1, _⟩ => show win1_0.index t (1 : Fin 2) * 128 + 1 * k.val = k.val; omega
  -- the panel's block is the panel, and the result element's column is `q`
  have h1 : ((cfg1.win 1).blk t).view.emb (ValueIdx.ix2 k ⟨128 * 0 + q.val, by omega⟩)
      = ValueIdx.ix2 k ⟨128 * 0 + ((((cfg1.win 2).blk t).view.emb (ValueIdx.ix2 p q)) 1).val, by
          have : ((((cfg1.win 2).blk t).view.emb (ValueIdx.ix2 p q)) 1).val < 128 := ValueIdx.idx2_lt1 _; omega⟩ := by
    funext a; apply Fin.ext
    match a with
    | ⟨0, _⟩ => show win1_1.index t (0 : Fin 2) * 128 + 1 * k.val = k.val; omega
    | ⟨1, _⟩ => show win1_1.index t (1 : Fin 2) * 256 + 1 * (128 * 0 + q.val) = 128 * 0 + (win1_2.index t (1 : Fin 2) * 128 + 1 * q.val); omega
  exact congrArg₂ (fun a b : EReal => a * b) (congrArg (V c main_arg1) h0) (congrArg (V c main_v1) h1)

/-- An index of the result array is in point `t`'s block iff each coordinate is in the block's range on its axis. -/
theorem mem_blk1_2 (t : Fin cfg1.N) (i : S50000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_v3_0).slice (win1_2.rect t)).set ↔ _
  rw [View.set_slice_whole, Rect.mem_set_unit]
  exact Iff.rfl

/-- The ten blocks tile the array: row `r` is in the block of point `r / 5000`, and every point writes back. -/
theorem covered1_2 (i : S50000x128.Idx) :
    ∃ t : Fin cfg1.N, (cfg1.win 2).flush t = true ∧ i ∈ ((cfg1.win 2).blk t).view.set := by
  have hi0 : (i 0).val < 50000 := ValueIdx.idx2_lt0 i
  have hi1 : (i 1).val < 128 := ValueIdx.idx2_lt1 i
  obtain ⟨t, ht⟩ := idx_onto1 ⟨(i 0).val / 5000, by omega⟩
  have ht' : t.val = (i 0).val / 5000 := ht
  obtain ⟨e00, e01, e10, e11, e20, e21, e30, e31⟩ := idx_facts1 t
  refine ⟨t, flush1_2 t, ?_⟩
  rw [mem_blk1_2]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- THE RESULT ARRAY after the launch: the features' rows against columns `128 * 0 … 128 * 0 + 127` of the panel. -/
theorem final1_2 (c : Dev nD) :
    (dat1 (F := Ideal) V c).arrAt 2 cfg1.N = projRows (V c main_arg1) (V c main_v1) (128 * 0) (by norm_num) :=
  (dat1 V c).arrAt_eq_of_cover 2 _ (fun t _ => flushed1_2_eq V c t) covered1_2

/-! ### Result array 1 (window 3): columns `128 * 1 … 128 * 1 + 127` of the panel -/

/-- WHAT POINT `t` WRITES BACK is block `t` of `projRows x W (128 * 1)`. The body's one whole-block store leaves slab 1
    of the product of the point's feature block and the panel; at `(p, q)` that is the sum over `k` of the block's
    `(p, k)`, which is `x[5000 * t + p, k]`, times the panel's `(k, 128 * 1 + q)`. The block's element `(p, q)` sits at
    `(5000 * t + p, q)` in the result array, where `projRows` has the same sum. -/
theorem flushed1_3_eq (c : Dev nD) (t : Fin cfg1.N) :
    (dat1 (F := Ideal) V c).flushed 3 t
      = ((cfg1.win 3).blk t).view.read (Elt Ideal) (projRows (V c main_arg1) (V c main_v1) (128 * 1) (by norm_num)) := by
  show (cfg1.win 3).cut (grid1.coords t) ((dat1 V c).after 3 t) = _
  rw [after1_3]
  unfold out1_3
  rw [View.canon_unit_zero hz1]
  simp only [View.ld_unit_zero (S := S5000x128) hz1, View.ld_unit_zero (S := S128x256) hz1]
  obtain ⟨e00, e01, e10, e11, e20, e21, e30, e31⟩ := idx_facts1 t
  funext j
  obtain ⟨p, q, rfl⟩ : ∃ (p : Fin 5000) (q : Fin 128), j = ValueIdx.ix2 p q := ⟨j 0, j 1, ValueIdx.eq_ix2 j⟩
  refine (pay1_3_apply _ _ p q).trans ?_
  show _ = projRows (V c main_arg1) (V c main_v1) (128 * 1) (by norm_num) (((cfg1.win 3).blk t).view.emb (ValueIdx.ix2 p q))
  unfold projRows
  refine Finset.sum_congr rfl fun k _ => ?_
  -- the feature block's `(p, k)` is the array's `(row of the result element, k)`
  have h0 : ((cfg1.win 0).blk t).view.emb (ValueIdx.ix2 p k)
      = ValueIdx.ix2 ((((cfg1.win 3).blk t).view.emb (ValueIdx.ix2 p q)) 0) k := by
    funext a; apply Fin.ext
    match a with
    | ⟨0, _⟩ => show win1_0.index t (0 : Fin 2) * 5000 + 1 * p.val = win1_3.index t (0 : Fin 2) * 5000 + 1 * p.val; omega
    | ⟨1, _⟩ => show win1_0.index t (1 : Fin 2) * 128 + 1 * k.val = k.val; omega
  -- the panel's block is the panel, and the result element's column is `q`
  have h1 : ((cfg1.win 1).blk t).view.emb (ValueIdx.ix2 k ⟨128 * 1 + q.val, by omega⟩)
      = ValueIdx.ix2 k ⟨128 * 1 + ((((cfg1.win 3).blk t).view.emb (ValueIdx.ix2 p q)) 1).val, by
          have : ((((cfg1.win 3).blk t).view.emb (ValueIdx.ix2 p q)) 1).val < 128 := ValueIdx.idx2_lt1 _; omega⟩ := by
    funext a; apply Fin.ext
    match a with
    | ⟨0, _⟩ => show win1_1.index t (0 : Fin 2) * 128 + 1 * k.val = k.val; omega
    | ⟨1, _⟩ => show win1_1.index t (1 : Fin 2) * 256 + 1 * (128 * 1 + q.val) = 128 * 1 + (win1_3.index t (1 : Fin 2) * 128 + 1 * q.val); omega
  exact congrArg₂ (fun a b : EReal => a * b) (congrArg (V c main_arg1) h0) (congrArg (V c main_v1) h1)

/-- An index of the result array is in point `t`'s block iff each coordinate is in the block's range on its axis. -/
theorem mem_blk1_3 (t : Fin cfg1.N) (i : S50000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v3_1).slice (win1_3.rect t)).set ↔ _
  rw [View.set_slice_whole, Rect.mem_set_unit]
  exact Iff.rfl

/-- The ten blocks tile the array: row `r` is in the block of point `r / 5000`, and every point writes back. -/
theorem covered1_3 (i : S50000x128.Idx) :
    ∃ t : Fin cfg1.N, (cfg1.win 3).flush t = true ∧ i ∈ ((cfg1.win 3).blk t).view.set := by
  have hi0 : (i 0).val < 50000 := ValueIdx.idx2_lt0 i
  have hi1 : (i 1).val < 128 := ValueIdx.idx2_lt1 i
  obtain ⟨t, ht⟩ := idx_onto1 ⟨(i 0).val / 5000, by omega⟩
  have ht' : t.val = (i 0).val / 5000 := ht
  obtain ⟨e00, e01, e10, e11, e20, e21, e30, e31⟩ := idx_facts1 t
  refine ⟨t, flush1_3 t, ?_⟩
  rw [mem_blk1_3]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-- THE RESULT ARRAY after the launch: the features' rows against columns `128 * 1 … 128 * 1 + 127` of the panel. -/
theorem final1_3 (c : Dev nD) :
    (dat1 (F := Ideal) V c).arrAt 3 cfg1.N = projRows (V c main_arg1) (V c main_v1) (128 * 1) (by norm_num) :=
  (dat1 V c).arrAt_eq_of_cover 3 _ (fun t _ => flushed1_3_eq V c t) covered1_3

end Whole

end Cert.KernelIdeal.Hand

end
-- ==== Proof.LibColumn.lean ====
/-
  Column layouts read at an index: the two forms a per-row weight takes on its way to a row-wise product.

  A vector `[a]` reshaped to a column `[a, 1]` keeps entry `e` at `(e, 0)`; a column `[a, 1]` broadcast along the rows of an
  `[a, b]` array repeats entry `(p, 0)` across row `p`. Both are stated over literal `Fin` coordinates, in the manner of
  the library's row forms (a vector to a row `[1, a]`, a row broadcast down the columns).
-/
import Idealize.ShloMosaic.Lib.Pipeline.Value
import Idealize.ShloMosaic.Lib.ValueIdx

namespace Cert.LibColumn

open Idealize.ShloMosaic Idealize.ShloMosaic.ValueIdx

variable {α : Type}

/-- An `[a]` vector cast to the column `[a, 1]` reads, at `(e, u)`, the operand at `e`, whatever the unit coordinate `u`. -/
theorem shapeCast_a_a1_apply {a : ℕ} (x : (⟨1, ![a]⟩ : Shape).Idx → α) (h : (⟨1, ![a]⟩ : Shape).ShapeCasts ⟨2, ![a, 1]⟩)
    (e : Fin a) (u : Fin 1) : shapeCast ⟨2, ![a, 1]⟩ x h (ix2 e u) = x (ix1 e) :=
  shapeCast_apply x h _ _ (by
    have hu : u.val = 0 := by omega
    rw [Shape.rowMajor_val_two, Shape.rowMajor_val_one]
    show e.val = e.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.Spec.lean ====
import Idealize.ShloMosaic.Lib.ValueIdx
import Idealize.ShloMosaic.PureOps.Ideal

/-!
# The combine step, entry by entry

For one relation, a target row's entry receives the projected target plus the mean of the messages that landed on the
row: the segment sum divided by the segment count, the count raised to at least one so that an untouched row divides
by one.  The item side has one relation and scales by one; the user side adds two relations and scales by a half.
Both end in two rectifications.
-/

noncomputable section

namespace Cert.Spec

open Idealize.ShloMosaic

/-- The target's entry plus the mean of its messages: `t + s / max(c, 1)`. -/
def meanAdd (t s c : EReal) : EReal := t + Ideal.div s (max c (Ideal.ofBits .f32 0x3F800000#32))

/-- Rectified twice. -/
def relu2 (x : EReal) : EReal := max (max x (Ideal.ofBits .f32 0x00000000#32)) (Ideal.ofBits .f32 0x00000000#32)

/-- The item side as the kernel spells it: one relation, times one. -/
def itemK (t s c : EReal) : EReal := relu2 (meanAdd t s c * Ideal.ofBits .f32 0x3F800000#32)

/-- The user side as the kernel spells it: the four summands added left to right, times a half. -/
def userK (ta sa ca tb sb cb : EReal) : EReal :=
  relu2 ((ta + Ideal.div sa (max ca (Ideal.ofBits .f32 0x3F800000#32)) + tb + Ideal.div sb (max cb (Ideal.ofBits .f32 0x3F800000#32))) * Ideal.ofBits .f32 0x3F000000#32)

/-- The item side as the reference spells it: divided by one. -/
def itemR (t s c : EReal) : EReal := relu2 (Ideal.div (meanAdd t s c) (Ideal.ofBits .f32 0x3F800000#32))

/-- The user side as the reference spells it: the two relations' sums added, divided by two. -/
def userR (ta sa ca tb sb cb : EReal) : EReal :=
  relu2 (Ideal.div (meanAdd ta sa ca + meanAdd tb sb cb) (Ideal.ofBits .f32 0x40000000#32))

theorem ofBits_one : Ideal.ofBits .f32 0x3F800000#32 = ((1 : ℝ) : EReal) := by
  simp [Ideal.ofBits, Ideal.ieee, -EReal.coe_mul]; norm_num
theorem ofBits_half : Ideal.ofBits .f32 0x3F000000#32 = ((1 / 2 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num

/-- Dividing by one is multiplying by one: the two spellings of the item side agree on every extended real. -/
theorem itemK_eq_itemR (t s c : EReal) : itemK t s c = itemR t s c := by
  unfold itemK itemR
  rw [ofBits_one, Ideal.div_coe (by norm_num : (1 : ℝ) ≠ 0)]
  norm_num

/-- Addition of extended reals is associative, and dividing by two is multiplying by a half: the two spellings of the
    user side agree on every extended real. -/
theorem userK_eq_userR (ta sa ca tb sb cb : EReal) : userK ta sa ca tb sb cb = userR ta sa ca tb sb cb := by
  unfold userK userR meanAdd
  rw [ofBits_half, ofBits_two, Ideal.div_coe (by norm_num : (2 : ℝ) ≠ 0), add_assoc (ta + _) tb]

end Cert.Spec

end
-- ==== Proof.KI.Val2.lean ====
import proofs.«167871_j59854664237622_2_alg».proof.Proof.KI.R2
import proofs.«167871_j59854664237622_2_alg».proof.Proof.LibColumn
import proofs.«167871_j59854664237622_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open Cert.Spec

/-! # What the item-side combine leaves in its result array

Row `r` of the result depends on row `r` of the projected targets and of the segment sums and on entry `r` of the
segment counts: block `t` (rows `5000 t … 5000 t + 4999`) is computed from blocks `t` of the three inputs, and the
ten blocks tile the array. -/

/-- The whole result as one function of the three arrays. -/
def G2 (T S : S50000x128.Idx → EReal) (C : S50000x1.Idx → EReal) : S50000x128.Idx → EReal :=
  fun i => itemK (T i) (S i) (C (ix2 (i 0) (0 : Fin 1)))

/-- The body's arithmetic at an entry `(p, q)` of its blocks: the count is read in column 0 of row `p`. -/
theorem pay2_apply (v0 v8 : Vec Ideal S5000x128 .f32) (v2 : Vec Ideal S5000x1 .f32) (p : Fin 5000) (q : Fin 128) :
    k2_pay1 v0 v2 v8 (ix2 p q) = itemK (v8 (ix2 p q)) (v0 (ix2 p q)) (v2 (ix2 p (0 : Fin 1))) := by
  unfold k2_pay1
  simp only [shapeCast_self]
  have hb := Cert.LibColumn.broadcastTo_a1_ab_apply
    (maximumf (F := Ideal) v2 (broadcast S5000x1 (Scalar.ofBits (F := Ideal) .f32 0x3F800000#32))) broadcasts_S5000x1_S5000x128 p q
  exact congrArg (fun z => max (max ((v8 (ix2 p q) + Ideal.div (v0 (ix2 p q)) z) * Ideal.ofBits .f32 0x3F800000#32)
    (Ideal.ofBits .f32 0x00000000#32)) (Ideal.ofBits .f32 0x00000000#32)) hb

theorem hz2 : (![0, 0] : Fin 2 → Nat) = fun _ => 0 := funext fun a => by fin_cases a <;> rfl

/-- The index maps over the grid: every window's block index is `(t, 0)`. -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

section
variable (V : (c : Dev nD) → (b : Ref sig .tc) → Buf (Elt Ideal) ((c : Thread nD τ).loc b))

/-- What point `t` writes back is block `t` of `G2` of the arrays as the launch finds them. -/
theorem flushed2_eq (c : Dev nD) (t : Fin cfg2.N) :
    (dat2 V c).flushed 3 t = ((cfg2.win 3).blk t).view.read (Elt Ideal) (G2 (V c main_v3_1) (V c main_v19) (V c main_v23)) := by
  show (cfg2.win 3).cut (grid2.coords t) ((dat2 V c).after 3 t) = _
  rw [after2_3]
  unfold out2_3
  rw [View.canon_unit_zero hz2]
  simp only [View.ld_unit_zero (S := S5000x128) hz2, View.ld_unit_zero (S := S5000x1) hz2]
  obtain ⟨e0, e1, e2, e3, e4, e5, e6, e7⟩ := idx_facts2 t
  funext j
  obtain ⟨p, q, rfl⟩ : ∃ (p : Fin 5000) (q : Fin 128), j = ix2 p q := ⟨j 0, j 1, eq_ix2 j⟩
  refine (pay2_apply _ _ _ p q).trans ?_
  show itemK (V c main_v3_1 (((cfg2.win 0).blk t).view.emb (ix2 p q))) (V c main_v19 (((cfg2.win 1).blk t).view.emb (ix2 p q)))
      (V c main_v23 (((cfg2.win 2).blk t).view.emb (ix2 p (0 : Fin 1))))
    = G2 (V c main_v3_1) (V c main_v19) (V c main_v23) (((cfg2.win 3).blk t).view.emb (ix2 p q))
  have h0 : ((cfg2.win 0).blk t).view.emb (ix2 p q) = ((cfg2.win 3).blk t).view.emb (ix2 p q) := by
    funext a; apply Fin.ext
    match a with
    | ⟨0, _⟩ => show win2_0.index t (0 : Fin 2) * 5000 + 1 * p.val = win2_3.index t (0 : Fin 2) * 5000 + 1 * p.val; omega
    | ⟨1, _⟩ => show win2_0.index t (1 : Fin 2) * 128 + 1 * q.val = win2_3.index t (1 : Fin 2) * 128 + 1 * q.val; omega
  have h1 : ((cfg2.win 1).blk t).view.emb (ix2 p q) = ((cfg2.win 3).blk t).view.emb (ix2 p q) := by
    funext a; apply Fin.ext
    match a with
    | ⟨0, _⟩ => show win2_1.index t (0 : Fin 2) * 5000 + 1 * p.val = win2_3.index t (0 : Fin 2) * 5000 + 1 * p.val; omega
    | ⟨1, _⟩ => show win2_1.index t (1 : Fin 2) * 128 + 1 * q.val = win2_3.index t (1 : Fin 2) * 128 + 1 * q.val; omega
  have h2 : ((cfg2.win 2).blk t).view.emb (ix2 p (0 : Fin 1))
      = ix2 ((((cfg2.win 3).blk t).view.emb (ix2 p q)) 0) (0 : Fin 1) := by
    funext a; apply Fin.ext
    match a with
    | ⟨0, _⟩ => show win2_2.index t (0 : Fin 2) * 5000 + 1 * p.val = win2_3.index t (0 : Fin 2) * 5000 + 1 * p.val; omega
    | ⟨1, _⟩ => show win2_2.index t (1 : Fin 2) * 1 + 1 * 0 = 0; omega
  rw [h0, h1, h2]
  rfl

/-- An index of the result is in point `t`'s block iff each coordinate is in the block's range on its axis. -/
theorem mem_blk2 (t : Fin cfg2.N) (i : S50000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v64).slice (win2_3.rect t)).set ↔ _
  rw [View.set_slice_whole, Rect.mem_set_unit]
  exact Iff.rfl

/-- Row `r` lies in the block of point `r / 5000`: the ten blocks tile the result. -/
theorem cover2 (i : S50000x128.Idx) : ∃ t : Fin cfg2.N, (cfg2.win 3).flush t = true ∧ i ∈ ((cfg2.win 3).blk t).view.set := by
  have hi0 : (i 0).val < 50000 := (i 0).isLt
  have hi1 : (i 1).val < 128 := (i 1).isLt
  have hN : grid2.N = 10 := N_2
  let t : Fin cfg2.N := ⟨(i 0).val / 5000, by show _ < grid2.N; omega⟩
  obtain ⟨e0, e1, e2, e3, e4, e5, e6, e7⟩ := idx_facts2 t
  have ht : t.val = (i 0).val / 5000 := rfl
  refine ⟨t, flush2_3 t, ?_⟩
  rw [mem_blk2]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 128 ≤ (i 1).val ∧ (i 1).val < win2_3.index t (1 : Fin 2) * 128 + 128; omega

/-- The result array after the launch. -/
theorem final2 (c : Dev nD) :
    (dat2 V c).arrAt 3 cfg2.N = G2 (V c main_v3_1) (V c main_v19) (V c main_v23) :=
  (dat2 V c).arrAt_eq_of_cover 3 (G2 (V c main_v3_1) (V c main_v19) (V c main_v23)) (fun t _ => flushed2_eq V c t) cover2

end

end Cert.KernelIdeal.Hand

end
-- ==== Proof.KI.Val3.lean ====
import proofs.«167871_j59854664237622_2_alg».proof.Proof.KI.R3
import proofs.«167871_j59854664237622_2_alg».proof.Proof.LibColumn
import proofs.«167871_j59854664237622_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open Cert.Spec

/-! # What the user-side combine leaves in its result array

Row `r` of the result depends on row `r` of the two relations' projected targets and segment sums and on entry `r` of
their segment counts: block `t` (rows `2000 t … 2000 t + 1999`) is computed from blocks `t` of the six inputs, and
the twenty-five blocks tile the array. -/

/-- The whole result as one function of the six arrays. -/
def G3 (TA SA : S50000x128.Idx → EReal) (CA : S50000x1.Idx → EReal) (TB SB : S50000x128.Idx → EReal) (CB : S50000x1.Idx → EReal) :
    S50000x128.Idx → EReal :=
  fun i => userK (TA i) (SA i) (CA (ix2 (i 0) (0 : Fin 1))) (TB i) (SB i) (CB (ix2 (i 0) (0 : Fin 1)))

/-- The body's arithmetic at an entry `(p, q)` of its blocks: each count is read in column 0 of row `p`. -/
theorem pay3_apply (v0 v8 v16 v19 : Vec Ideal S2000x128 .f32) (v2 v10 : Vec Ideal S2000x1 .f32) (p : Fin 2000) (q : Fin 128) :
    k3_pay1 v0 v2 v8 v10 v16 v19 (ix2 p q)
      = userK (v16 (ix2 p q)) (v0 (ix2 p q)) (v2 (ix2 p (0 : Fin 1))) (v19 (ix2 p q)) (v8 (ix2 p q)) (v10 (ix2 p (0 : Fin 1))) := by
  unfold k3_pay1
  simp only [shapeCast_self]
  have ha := Cert.LibColumn.broadcastTo_a1_ab_apply
    (maximumf (F := Ideal) v2 (broadcast S2000x1 (Scalar.ofBits (F := Ideal) .f32 0x3F800000#32))) broadcasts_S2000x1_S2000x128 p q
  have hb := Cert.LibColumn.broadcastTo_a1_ab_apply
    (maximumf (F := Ideal) v10 (broadcast S2000x1 (Scalar.ofBits (F := Ideal) .f32 0x3F800000#32))) broadcasts_S2000x1_S2000x128 p q
  exact congrArg₂ (fun za zb => max (max ((v16 (ix2 p q) + Ideal.div (v0 (ix2 p q)) za + v19 (ix2 p q) + Ideal.div (v8 (ix2 p q)) zb)
    * Ideal.ofBits .f32 0x3F000000#32) (Ideal.ofBits .f32 0x00000000#32)) (Ideal.ofBits .f32 0x00000000#32)) ha hb

theorem hz3 : (![0, 0] : Fin 2 → Nat) = fun _ => 0 := funext fun a => by fin_cases a <;> rfl

set_option maxHeartbeats 4000000 in
/-- The index maps over the grid: every window's block index is `(t, 0)`. -/
theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0
    ∧ win3_4.index t (0 : Fin 2) = t.val ∧ win3_4.index t (1 : Fin 2) = 0
    ∧ win3_5.index t (0 : Fin 2) = t.val ∧ win3_5.index t (1 : Fin 2) = 0
    ∧ win3_6.index t (0 : Fin 2) = t.val ∧ win3_6.index t (1 : Fin 2) = 0 :=
  (by decide +kernel : ∀ t : Fin grid3.N, _)

section
variable (V : (c : Dev nD) → (b : Ref sig .tc) → Buf (Elt Ideal) ((c : Thread nD τ).loc b))

set_option maxHeartbeats 4000000 in
/-- What point `t` writes back is block `t` of `G3` of the arrays as the launch finds them. -/
theorem flushed3_eq (c : Dev nD) (t : Fin cfg3.N) :
    (dat3 V c).flushed 6 t = ((cfg3.win 6).blk t).view.read (Elt Ideal) (G3 (V c main_v2_1) (V c main_v39) (V c main_v43) (V c main_v2_3) (V c main_v59) (V c main_v63)) := by
  show (cfg3.win 6).cut (grid3.coords t) ((dat3 V c).after 6 t) = _
  rw [after3_6]
  unfold out3_6
  rw [View.canon_unit_zero hz3]
  simp only [View.ld_unit_zero (S := S2000x128) hz3, View.ld_unit_zero (S := S2000x1) hz3]
  obtain ⟨e0, e1, e2, e3, e4, e5, e6, e7, e8, e9, e10, e11, e12, e13⟩ := idx_facts3 t
  funext j
  obtain ⟨p, q, rfl⟩ : ∃ (p : Fin 2000) (q : Fin 128), j = ix2 p q := ⟨j 0, j 1, eq_ix2 j⟩
  refine (pay3_apply _ _ _ _ _ _ p q).trans ?_
  show userK (V c main_v2_1 (((cfg3.win 0).blk t).view.emb (ix2 p q))) (V c main_v39 (((cfg3.win 1).blk t).view.emb (ix2 p q)))
      (V c main_v43 (((cfg3.win 2).blk t).view.emb (ix2 p (0 : Fin 1))))
      (V c main_v2_3 (((cfg3.win 3).blk t).view.emb (ix2 p q))) (V c main_v59 (((cfg3.win 4).blk t).view.emb (ix2 p q)))
      (V c main_v63 (((cfg3.win 5).blk t).view.emb (ix2 p (0 : Fin 1))))
    = G3 (V c main_v2_1) (V c main_v39) (V c main_v43) (V c main_v2_3) (V c main_v59) (V c main_v63) (((cfg3.win 6).blk t).view.emb (ix2 p q))
  have h0 : ((cfg3.win 0).blk t).view.emb (ix2 p q) = ((cfg3.win 6).blk t).view.emb (ix2 p q) := by
    funext a; apply Fin.ext
    match a with
    | ⟨0, _⟩ => show win3_0.index t (0 : Fin 2) * 2000 + 1 * p.val = win3_6.index t (0 : Fin 2) * 2000 + 1 * p.val; omega
    | ⟨1, _⟩ => show win3_0.index t (1 : Fin 2) * 128 + 1 * q.val = win3_6.index t (1 : Fin 2) * 128 + 1 * q.val; omega
  have h1 : ((cfg3.win 1).blk t).view.emb (ix2 p q) = ((cfg3.win 6).blk t).view.emb (ix2 p q) := by
    funext a; apply Fin.ext
    match a with
    | ⟨0, _⟩ => show win3_1.index t (0 : Fin 2) * 2000 + 1 * p.val = win3_6.index t (0 : Fin 2) * 2000 + 1 * p.val; omega
    | ⟨1, _⟩ => show win3_1.index t (1 : Fin 2) * 128 + 1 * q.val = win3_6.index t (1 : Fin 2) * 128 + 1 * q.val; omega
  have h3 : ((cfg3.win 3).blk t).view.emb (ix2 p q) = ((cfg3.win 6).blk t).view.emb (ix2 p q) := by
    funext a; apply Fin.ext
    match a with
    | ⟨0, _⟩ => show win3_3.index t (0 : Fin 2) * 2000 + 1 * p.val = win3_6.index t (0 : Fin 2) * 2000 + 1 * p.val; omega
    | ⟨1, _⟩ => show win3_3.index t (1 : Fin 2) * 128 + 1 * q.val = win3_6.index t (1 : Fin 2) * 128 + 1 * q.val; omega
  have h4 : ((cfg3.win 4).blk t).view.emb (ix2 p q) = ((cfg3.win 6).blk t).view.emb (ix2 p q) := by
    funext a; apply Fin.ext
    match a with
    | ⟨0, _⟩ => show win3_4.index t (0 : Fin 2) * 2000 + 1 * p.val = win3_6.index t (0 : Fin 2) * 2000 + 1 * p.val; omega
    | ⟨1, _⟩ => show win3_4.index t (1 : Fin 2) * 128 + 1 * q.val = win3_6.index t (1 : Fin 2) * 128 + 1 * q.val; omega
  have h2 : ((cfg3.win 2).blk t).view.emb (ix2 p (0 : Fin 1))
      = ix2 ((((cfg3.win 6).blk t).view.emb (ix2 p q)) 0) (0 : Fin 1) := by
    funext a; apply Fin.ext
    match a with
    | ⟨0, _⟩ => show win3_2.index t (0 : Fin 2) * 2000 + 1 * p.val = win3_6.index t (0 : Fin 2) * 2000 + 1 * p.val; omega
    | ⟨1, _⟩ => show win3_2.index t (1 : Fin 2) * 1 + 1 * 0 = 0; omega
  have h5 : ((cfg3.win 5).blk t).view.emb (ix2 p (0 : Fin 1))
      = ix2 ((((cfg3.win 6).blk t).view.emb (ix2 p q)) 0) (0 : Fin 1) := by
    funext a; apply Fin.ext
    match a with
    | ⟨0, _⟩ => show win3_5.index t (0 : Fin 2) * 2000 + 1 * p.val = win3_6.index t (0 : Fin 2) * 2000 + 1 * p.val; omega
    | ⟨1, _⟩ => show win3_5.index t (1 : Fin 2) * 1 + 1 * 0 = 0; omega
  rw [h0, h1, h2, h3, h4, h5]
  rfl

/-- An index of the result is in point `t`'s block iff each coordinate is in the block's range on its axis. -/
theorem mem_blk3 (t : Fin cfg3.N) (i : S50000x128.Idx) :
    i ∈ ((cfg3.win 6).blk t).view.set ↔ ∀ a : Fin 2, win3_6.index t a * S2000x128.size a ≤ (i a).val ∧ (i a).val < win3_6.index t a * S2000x128.size a + S2000x128.size a := by
  show i ∈ ((View.whole main_v65).slice (win3_6.rect t)).set ↔ _
  rw [View.set_slice_whole, Rect.mem_set_unit]
  exact Iff.rfl

/-- Row `r` lies in the block of point `r / 2000`: the twenty-five blocks tile the result. -/
theorem cover3 (i : S50000x128.Idx) : ∃ t : Fin cfg3.N, (cfg3.win 6).flush t = true ∧ i ∈ ((cfg3.win 6).blk t).view.set := by
  have hi0 : (i 0).val < 50000 := (i 0).isLt
  have hi1 : (i 1).val < 128 := (i 1).isLt
  have hN : grid3.N = 25 := N_3
  let t : Fin cfg3.N := ⟨(i 0).val / 2000, by show _ < grid3.N; omega⟩
  obtain ⟨e0, e1, e2, e3, e4, e5, e6, e7, e8, e9, e10, e11, e12, e13⟩ := idx_facts3 t
  have ht : t.val = (i 0).val / 2000 := rfl
  refine ⟨t, flush3_6 t, ?_⟩
  rw [mem_blk3]
  intro a
  match a with
  | ⟨0, _⟩ => show win3_6.index t (0 : Fin 2) * 2000 ≤ (i 0).val ∧ (i 0).val < win3_6.index t (0 : Fin 2) * 2000 + 2000; omega
  | ⟨1, _⟩ => show win3_6.index t (1 : Fin 2) * 128 ≤ (i 1).val ∧ (i 1).val < win3_6.index t (1 : Fin 2) * 128 + 128; omega

/-- The result array after the launch. -/
theorem final3 (c : Dev nD) :
    (dat3 V c).arrAt 6 cfg3.N = G3 (V c main_v2_1) (V c main_v39) (V c main_v43) (V c main_v2_3) (V c main_v59) (V c main_v63) :=
  (dat3 V c).arrAt_eq_of_cover 6 (G3 (V c main_v2_1) (V c main_v39) (V c main_v43) (V c main_v2_3) (V c main_v59) (V c main_v63)) (fun t _ => flushed3_eq V c t) cover3

end

end Cert.KernelIdeal.Hand

end
-- ==== Proof.KI.Final.lean ====
import proofs.«167871_j59854664237622_2_alg».proof.Proof.KI.Host
import proofs.«167871_j59854664237622_2_alg».proof.Proof.KI.Val0
import proofs.«167871_j59854664237622_2_alg».proof.Proof.KI.Val1
import proofs.«167871_j59854664237622_2_alg».proof.Proof.KI.Val2
import proofs.«167871_j59854664237622_2_alg».proof.Proof.KI.Val3

set_option maxRecDepth 16384

noncomputable section

namespace Cert.KernelIdeal.Hand

open Idealize.ShloMosaic Idealize.ShloMosaic.TcCoe Idealize.SL Idealize.SL.Sem
open Cert.KernelIdeal Cert.KernelIdeal.Gen

/-! # The kernel's two results as functions of its arguments

The boundaries' contents are followed from the last one back to the launch: each combine reads what the two projection
launches and the gather–scatter stretch left, and those read the arguments. -/

variable (m : (ℓ : Loc nD τ sig) → Buf (Elt Ideal) ℓ) (ρ : Dev nD → PrngReg)

/-- The user-side weight panel: four `[128,128]` weights side by side. -/
abbrev cat4 (c : Dev nD) : S128x512.Idx → EReal :=
  concatenate S128x512 1 [⟨S128x128, m ((c : Thread nD τ).loc main_arg2)⟩, ⟨S128x128, m ((c : Thread nD τ).loc main_arg5)⟩,
    ⟨S128x128, m ((c : Thread nD τ).loc main_arg6)⟩, ⟨S128x128, m ((c : Thread nD τ).loc main_arg7)⟩] concatenates_S128x128_S128x128_S128x128_S128x128_S128x512_d1
/-- The item-side weight panel: two `[128,128]` weights side by side. -/
abbrev cat2 (c : Dev nD) : S128x256.Idx → EReal :=
  concatenate S128x256 1 [⟨S128x128, m ((c : Thread nD τ).loc main_arg4)⟩, ⟨S128x128, m ((c : Thread nD τ).loc main_arg3)⟩] concatenates_S128x128_S128x128_S128x256_d1

/-! ## The six projections -/

theorem V1_arg0 (c : Dev nD) : V1 m ρ c main_arg0 = m ((c : Thread nD τ).loc main_arg0) := keepA _ main_arg0 (by decide)
theorem V1_v0 (c : Dev nD) : V1 m ρ c main_v0 = cat4 m c := W1_v0 m ρ c
theorem V2_arg1 (c : Dev nD) : V2 m ρ c main_arg1 = m ((c : Thread nD τ).loc main_arg1) :=
  (W2_of_ne m ρ c main_arg1 (by decide)).trans (keepA _ main_arg1 (by decide))
theorem V2_v1 (c : Dev nD) : V2 m ρ c main_v1 = cat2 m c :=
  (W2_of_ne m ρ c main_v1 (by decide)).trans (W1_v1 m ρ c)

theorem P_v2_0 (c : Dev nD) : W3 m ρ c (Proc.devRef .tc main_v2_0) = projRows (m ((c : Thread nD τ).loc main_arg0)) (cat4 m c) (128 * 0) (by norm_num) := by
  refine (W3_v2 m ρ c 2 (by decide)).trans ?_
  rw [final0_2, V1_arg0, V1_v0]
theorem P_v2_1 (c : Dev nD) : W3 m ρ c (Proc.devRef .tc main_v2_1) = projRows (m ((c : Thread nD τ).loc main_arg0)) (cat4 m c) (128 * 1) (by norm_num) := by
  refine (W3_v2 m ρ c 3 (by decide)).trans ?_
  rw [final0_3, V1_arg0, V1_v0]
theorem P_v2_2 (c : Dev nD) : W3 m ρ c (Proc.devRef .tc main_v2_2) = projRows (m ((c : Thread nD τ).loc main_arg0)) (cat4 m c) (128 * 2) (by norm_num) := by
  refine (W3_v2 m ρ c 4 (by decide)).trans ?_
  rw [final0_4, V1_arg0, V1_v0]
theorem P_v2_3 (c : Dev nD) : W3 m ρ c (Proc.devRef .tc main_v2_3) = projRows (m ((c : Thread nD τ).loc main_arg0)) (cat4 m c) (128 * 3) (by norm_num) := by
  refine (W3_v2 m ρ c 5 (by decide)).trans ?_
  rw [final0_5, V1_arg0, V1_v0]
theorem P_v3_0 (c : Dev nD) : W3 m ρ c (Proc.devRef .tc main_v3_0) = projRows (m ((c : Thread nD τ).loc main_arg1)) (cat2 m c) (128 * 0) (by norm_num) := by
  refine (W3_arr m ρ c 2).trans ?_
  rw [final1_2, V2_arg1, V2_v1]
theorem P_v3_1 (c : Dev nD) : W3 m ρ c (Proc.devRef .tc main_v3_1) = projRows (m ((c : Thread nD τ).loc main_arg1)) (cat2 m c) (128 * 1) (by norm_num) := by
  refine (W3_arr m ρ c 3).trans ?_
  rw [final1_3, V2_arg1, V2_v1]

/-! ## The item-side result -/

theorem W7_v64 (c : Dev nD) : W7 m ρ c (Proc.devRef .tc main_v64)
    = G2 (projRows (m ((c : Thread nD τ).loc main_arg1)) (cat2 m c) (128 * 1) (by norm_num))
        (segSum (projRows (m ((c : Thread nD τ).loc main_arg0)) (cat4 m c) (128 * 0) (by norm_num)) (m ((c : Thread nD τ).loc main_arg8))) (segCnt (m ((c : Thread nD τ).loc main_arg8))) := by
  refine (W7_of_ne m ρ c main_v64 (by decide)).trans ?_
  refine (W6_arr m ρ c 3).trans ?_
  rw [final2]
  show G2 (W5 m ρ c (Proc.devRef .tc main_v3_1)) (W5 m ρ c (Proc.devRef .tc main_v19)) (W5 m ρ c (Proc.devRef .tc main_v23)) = _
  rw [W5_v19, W5_v23, W3_arg8, W5_keep m ρ c main_v3_1 (by decide) (by decide), P_v3_1, P_v2_0]

/-! ## The user-side result -/

theorem W6_keep (c : Dev nD) (r : Ref sig .tc) (h2 : ∀ w, Pipeline.arrRef spec2 w ≠ r) :
    W6 m ρ c (Proc.devRef .tc r) = W5 m ρ c (Proc.devRef .tc r) := W6_of_ne m ρ c r h2

theorem W7_v65 (c : Dev nD) : W7 m ρ c (Proc.devRef .tc main_v65)
    = G3 (projRows (m ((c : Thread nD τ).loc main_arg0)) (cat4 m c) (128 * 1) (by norm_num))
        (segSum (projRows (m ((c : Thread nD τ).loc main_arg1)) (cat2 m c) (128 * 0) (by norm_num)) (m ((c : Thread nD τ).loc main_arg9))) (segCnt (m ((c : Thread nD τ).loc main_arg9)))
        (projRows (m ((c : Thread nD τ).loc main_arg0)) (cat4 m c) (128 * 3) (by norm_num))
        (segSum (projRows (m ((c : Thread nD τ).loc main_arg0)) (cat4 m c) (128 * 2) (by norm_num)) (m ((c : Thread nD τ).loc main_arg10))) (segCnt (m ((c : Thread nD τ).loc main_arg10))) := by
  refine (W7_arr m ρ c 6).trans ?_
  rw [final3]
  show G3 (W6 m ρ c (Proc.devRef .tc main_v2_1)) (W6 m ρ c (Proc.devRef .tc main_v39)) (W6 m ρ c (Proc.devRef .tc main_v43))
    (W6 m ρ c (Proc.devRef .tc main_v2_3)) (W6 m ρ c (Proc.devRef .tc main_v59)) (W6 m ρ c (Proc.devRef .tc main_v63)) = _
  rw [W6_keep m ρ c main_v2_1 (by decide), W6_keep m ρ c main_v39 (by decide), W6_keep m ρ c main_v43 (by decide),
    W6_keep m ρ c main_v2_3 (by decide), W6_keep m ρ c main_v59 (by decide), W6_keep m ρ c main_v63 (by decide),
    W5_v39, W5_v43, W5_v59, W5_v63, W3_arg9, W3_arg10,
    W5_keep m ρ c main_v2_1 (by decide) (by decide), W5_keep m ρ c main_v2_3 (by decide) (by decide),
    P_v2_1, P_v2_3, P_v3_0, P_v2_2]

end Cert.KernelIdeal.Hand

end
-- ==== Proof.RefG.lean ====
import proofs.«167871_j59854664237622_2_alg».proof.Proof.Gen.ReferenceIdeal.Read
import proofs.«167871_j59854664237622_2_alg».proof.Proof.Gen.ReferenceIdeal.Run
import proofs.«167871_j59854664237622_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.ReferenceIdeal.RefValue

open Cert.ReferenceIdeal Cert.ReferenceIdeal.Gen Idealize.ShloMosaic Idealize.ShloMosaic.TcCoe Idealize.ShloMosaic.ValueIdx
open Cert.Spec

/-! # The reference, read entry by entry

For each relation the reference projects the sources and the targets by a plain matrix product, gathers the projected
sources along the edge list, sums and counts them per target row, and adds the mean to the projected target. The item
side divides its one relation by one, the user side the sum of its two relations by two; both rectify twice. -/

abbrev Edges := (⟨S2x600000, .i32⟩ : BufTy).Contents (Elt Ideal)

/-- A plain `[50000,128] × [128,128]` product. -/
abbrev dotR (x : FVec Ideal S50000x128 .f32) (w : FVec Ideal S128x128 .f32) : FVec Ideal S50000x128 .f32 :=
  Host.dotGeneral dot_S50000x128_S128x128_S50000x128_1_0_0_1_n_n none x w

/-- The edges' target rows, as an index column. -/
def tgtColR (e : Edges) : (⟨S600000x1, .i32⟩ : BufTy).Contents (Elt Ideal) :=
  broadcastInDim S600000x1 ![0] bcast_S600000_S600000x1_0
    (shapeCast S600000 (extractStridedSlice S1x600000 ![1, 0] e slices_S2x600000_S1x600000_1_0) shapeCasts_S1x600000_S600000)

/-- The edges' source rows. -/
def srcRowR (e : Edges) : (⟨S600000, .i32⟩ : BufTy).Contents (Elt Ideal) :=
  shapeCast S600000 (extractStridedSlice S1x600000 ![0, 0] e slices_S2x600000_S1x600000_0_0) shapeCasts_S1x600000_S600000

/-- The edges' source rows, a negative one counted from the end, as an index column. -/
def srcColR (e : Edges) : (⟨S600000x1, .i32⟩ : BufTy).Contents (Elt Ideal) :=
  broadcastInDim S600000x1 ![0] bcast_S600000_S600000x1_0
    (select (cmpi .slt (srcRowR e) (broadcastInDim S600000 ![] bcast_S_S600000 (constantI S_ 32 0#32)))
      (addi (srcRowR e) (broadcastInDim S600000 ![] bcast_S_S600000 (constantI S_ 32 50000#32))) (srcRowR e))

/-- One relation's segment sum. -/
def segSumR (P : FVec Ideal S50000x128 .f32) (e : Edges) : FVec Ideal S50000x128 .f32 :=
  Host.scatterAdd scatter_S50000x128_S600000x1_S600000x128_1_0_0_1
    (broadcastInDim S50000x128 ![] bcast_S_S50000x128 (constant S_ .f32 0x00000000#32)) (tgtColR e)
    (Host.gather gather_S50000x128_S600000x1_S600000x128_1_0_n_n_0_1_1128 P (srcColR e))

/-- One relation's segment count. -/
def segCntR (e : Edges) : FVec Ideal S50000x1 .f32 :=
  Host.scatterAdd scatter_S50000x1_S600000x1_S600000x1_1_0_0_1
    (broadcastInDim S50000x1 ![] bcast_S_S50000x1 (constant S_ .f32 0x00000000#32)) (tgtColR e)
    (broadcastInDim S600000x1 ![] bcast_S_S600000x1 (constant S_ .f32 0x3F800000#32))

/-- One relation: the projected targets plus the mean of the messages, as whole arrays. -/
def meanR (T P : FVec Ideal S50000x128 .f32) (e : Edges) : FVec Ideal S50000x128 .f32 :=
  addf T (Host.divf (segSumR P e) (broadcastInDim S50000x128 ![0, 1] bcast_S50000x1_S50000x128_0_1
    (maximumf (segCntR e) (broadcastInDim S50000x1 ![] bcast_S_S50000x1 (constant S_ .f32 0x3F800000#32)))))

/-- The item-side result, as the reference composes it. -/
def R83 (a0 a1 : FVec Ideal S50000x128 .f32) (a2 a3 : FVec Ideal S128x128 .f32) (e8 : Edges) : FVec Ideal S50000x128 .f32 :=
  maximumf (maximumf (Host.divf (meanR (dotR a1 a3) (dotR a0 a2) e8)
      (broadcastInDim S50000x128 ![] bcast_S_S50000x128 (constant S_ .f32 0x3F800000#32)))
    (broadcastInDim S50000x128 ![] bcast_S_S50000x128 (constant S_ .f32 0x00000000#32)))
    (broadcastInDim S50000x128 ![] bcast_S_S50000x128 (constant S_ .f32 0x00000000#32))

/-- The user-side result, as the reference composes it. -/
def R79 (a0 a1 : FVec Ideal S50000x128 .f32) (a4 a5 a6 a7 : FVec Ideal S128x128 .f32) (e9 e10 : Edges) : FVec Ideal S50000x128 .f32 :=
  maximumf (maximumf (Host.divf (addf (meanR (dotR a0 a5) (dotR a1 a4) e9) (meanR (dotR a0 a7) (dotR a0 a6) e10))
      (broadcastInDim S50000x128 ![] bcast_S_S50000x128 (constant S_ .f32 0x40000000#32)))
    (broadcastInDim S50000x128 ![] bcast_S_S50000x128 (constant S_ .f32 0x00000000#32)))
    (broadcastInDim S50000x128 ![] bcast_S_S50000x128 (constant S_ .f32 0x00000000#32))

/-- A `[50000, 1]` column broadcast along the rows of a `[50000, 128]` array repeats entry `(r, 0)` across row `r`. -/
theorem bcastCol_apply {α : Type} (v : S50000x1.Idx → α) (p : Fin 50000) (q : Fin 128) :
    broadcastInDim S50000x128 ![0, 1] bcast_S50000x1_S50000x128_0_1 v (ix2 p q) = v (ix2 p (0 : Fin 1)) := by
  refine broadcastInDim_apply (![0, 1]) bcast_S50000x1_S50000x128_0_1 v (ix2 p q) (ix2 p (0 : Fin 1)) fun ax => ?_
  match ax with
  | ⟨0, _⟩ =>
    show p.val = if (50000 : ℕ) = 1 then 0 else p.val
    rw [if_neg (by norm_num)]
  | ⟨1, _⟩ => rfl

/-- The mean step at an entry, for any three arrays: the target's entry plus the sum's entry over the row's raised count. -/
theorem mean_apply (T S : FVec Ideal S50000x128 .f32) (C : FVec Ideal S50000x1 .f32) (p : Fin 50000) (q : Fin 128) :
    addf T (Host.divf S (broadcastInDim S50000x128 ![0, 1] bcast_S50000x1_S50000x128_0_1
      (maximumf C (broadcastInDim S50000x1 ![] bcast_S_S50000x1 (constant S_ .f32 0x3F800000#32))))) (ix2 p q)
      = meanAdd (T (ix2 p q)) (S (ix2 p q)) (C (ix2 p (0 : Fin 1))) :=
  congrArg (fun z => T (ix2 p q) + Ideal.div (S (ix2 p q)) z)
    (bcastCol_apply (maximumf (F := Ideal) C (broadcastInDim S50000x1 ![] bcast_S_S50000x1 (constant (F := Ideal) S_ .f32 0x3F800000#32))) p q)

/-- One relation at an entry: the target's entry plus the row's segment sum over its raised count. -/
theorem meanR_apply (T P : FVec Ideal S50000x128 .f32) (e : Edges) (i : S50000x128.Idx) :
    meanR T P e i = meanAdd (T i) (segSumR P e i) (segCntR e (ix2 (i 0) (0 : Fin 1))) := by
  obtain ⟨p, q, rfl⟩ : ∃ (p : Fin 50000) (q : Fin 128), i = ix2 p q := ⟨i 0, i 1, eq_ix2 i⟩
  exact mean_apply T (segSumR P e) (segCntR e) p q

/-- Dividing an array by a splat constant and rectifying twice, at an entry. -/
theorem relu2_div_apply (M : FVec Ideal S50000x128 .f32) (w : BitVec 32) (i : S50000x128.Idx) :
    maximumf (maximumf (Host.divf M (broadcastInDim S50000x128 ![] bcast_S_S50000x128 (constant S_ .f32 w)))
      (broadcastInDim S50000x128 ![] bcast_S_S50000x128 (constant S_ .f32 0x00000000#32)))
      (broadcastInDim S50000x128 ![] bcast_S_S50000x128 (constant S_ .f32 0x00000000#32)) i
      = relu2 (Ideal.div (M i) (Ideal.ofBits .f32 w)) := rfl

theorem R83_apply (a0 a1 : FVec Ideal S50000x128 .f32) (a2 a3 : FVec Ideal S128x128 .f32) (e8 : Edges) (i : S50000x128.Idx) :
    R83 a0 a1 a2 a3 e8 i = itemR (dotR a1 a3 i) (segSumR (dotR a0 a2) e8 i) (segCntR e8 (ix2 (i 0) (0 : Fin 1))) := by
  unfold R83 itemR
  rw [relu2_div_apply, meanR_apply]

theorem R79_apply (a0 a1 : FVec Ideal S50000x128 .f32) (a4 a5 a6 a7 : FVec Ideal S128x128 .f32) (e9 e10 : Edges) (i : S50000x128.Idx) :
    R79 a0 a1 a4 a5 a6 a7 e9 e10 i
      = userR (dotR a0 a5 i) (segSumR (dotR a1 a4) e9 i) (segCntR e9 (ix2 (i 0) (0 : Fin 1)))
          (dotR a0 a7 i) (segSumR (dotR a0 a6) e10 i) (segCntR e10 (ix2 (i 0) (0 : Fin 1))) := by
  unfold R79 userR
  rw [relu2_div_apply, ValueIdx.addf_apply, meanR_apply, meanR_apply]

/-- A plain product's entry `(r, q)`: the sum over `k` of `x[r, k] · w[k, q]`. -/
theorem dotR_apply (x : FVec Ideal S50000x128 .f32) (w : FVec Ideal S128x128 .f32) (i : S50000x128.Idx) :
    dotR x w i = ∑ k : Fin 128, x (ix2 (i 0) k) * w (ix2 k (i 1)) := by
  refine (Cert.ReferenceIdeal.Read.val_main_v0_apply x w i).trans ?_
  refine Finset.sum_congr rfl fun k _ => ?_
  have el : Cert.ReferenceIdeal.Read.lidx_main_v0 i k = ix2 (i 0) k := funext fun a => by
    match a with
    | ⟨0, _⟩ => rfl
    | ⟨1, _⟩ => rfl
  have er : Cert.ReferenceIdeal.Read.ridx_main_v0 i k = ix2 k (i 1) := funext fun a => by
    match a with
    | ⟨0, _⟩ => rfl
    | ⟨1, _⟩ => rfl
  rw [el, er]
  rfl

/-- The run's two results are these compositions of the arguments. -/
theorem res_out0_eq (m : (ℓ : Loc nD τ sig) → Buf (Elt Ideal) ℓ) (c : Dev nD) :
    Cert.ReferenceIdeal.Value.res_main_v79 m c
      = R79 (m ((c.tc : Thread nD τ).loc main_arg0)) (m ((c.tc : Thread nD τ).loc main_arg1)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg9)) (m ((c.tc : Thread nD τ).loc main_arg10)) := by
  unfold Cert.ReferenceIdeal.Value.res_main_v79
  rfl

end Cert.ReferenceIdeal.RefValue

end
-- ==== Proof.Bridge.lean ====
import proofs.«167871_j59854664237622_2_alg».proof.Proof.KI.Final
import proofs.«167871_j59854664237622_2_alg».proof.Proof.RefG
import proofs.«167871_j59854664237622_2_alg».proof.Proof.Spec
import Idealize.ShloMosaic.Lib.Pipeline.Value
import Idealize.ShloMosaic.Lib.ValueIdx

set_option maxRecDepth 16384

noncomputable section

namespace Cert.Proof.Bridge

open Idealize.ShloMosaic Idealize.ShloMosaic.ValueIdx
open Cert.Spec Cert.KernelIdeal Cert.KernelIdeal.Gen Cert.KernelIdeal.Hand

/-! # The kernel's results are the reference's

The kernel multiplies each feature array once by a panel of weights laid side by side and cuts the product into
`[50000,128]` slabs; the reference multiplies by each weight separately. Column `128 g + q` of the panel is column `q` of
the `g`-th weight, so slab `g` of the panel product is the product with the `g`-th weight: the same sum over the same
128 terms. The gather–scatter stretch is the same operations on both sides, so it is carried along unopened. What remains
is the combine at one entry: dividing by one against multiplying by one, and dividing a regrouped sum by two against
multiplying it by a half. -/

/-! ## A panel of weights read at a column -/

theorem cat4_read0 (u0 u1 u2 u3 : S128x128.Idx → EReal) (k q : Fin 128) :
    concatenate S128x512 1 [⟨S128x128, u0⟩, ⟨S128x128, u1⟩, ⟨S128x128, u2⟩, ⟨S128x128, u3⟩] concatenates_S128x128_S128x128_S128x128_S128x128_S128x512_d1 (ix2 k ⟨128 * 0 + q.val, by have := q.isLt; omega⟩) = u0 (ix2 k q) := by
  refine concatenate_apply_piece (t := S128x512) 1 [⟨S128x128, u0⟩, ⟨S128x128, u1⟩, ⟨S128x128, u2⟩, ⟨S128x128, u3⟩] concatenates_S128x128_S128x128_S128x128_S128x128_S128x512_d1
    (ix2 k ⟨128 * 0 + q.val, by have := q.isLt; omega⟩) 0 (by simp) S128x128 u0 rfl rfl (128 * 0) ?_ (ix2 k q) (fun b hb => ?_) ?_
  · rfl
  · match b with
    | ⟨0, _⟩ => rfl
    | ⟨1, _⟩ => exact absurd rfl hb
  · rfl

theorem cat4_read1 (u0 u1 u2 u3 : S128x128.Idx → EReal) (k q : Fin 128) :
    concatenate S128x512 1 [⟨S128x128, u0⟩, ⟨S128x128, u1⟩, ⟨S128x128, u2⟩, ⟨S128x128, u3⟩] concatenates_S128x128_S128x128_S128x128_S128x128_S128x512_d1 (ix2 k ⟨128 * 1 + q.val, by have := q.isLt; omega⟩) = u1 (ix2 k q) := by
  refine concatenate_apply_piece (t := S128x512) 1 [⟨S128x128, u0⟩, ⟨S128x128, u1⟩, ⟨S128x128, u2⟩, ⟨S128x128, u3⟩] concatenates_S128x128_S128x128_S128x128_S128x128_S128x512_d1
    (ix2 k ⟨128 * 1 + q.val, by have := q.isLt; omega⟩) 1 (by simp) S128x128 u1 rfl rfl (128 * 1) ?_ (ix2 k q) (fun b hb => ?_) ?_
  · rfl
  · match b with
    | ⟨0, _⟩ => rfl
    | ⟨1, _⟩ => exact absurd rfl hb
  · rfl

theorem cat4_read2 (u0 u1 u2 u3 : S128x128.Idx → EReal) (k q : Fin 128) :
    concatenate S128x512 1 [⟨S128x128, u0⟩, ⟨S128x128, u1⟩, ⟨S128x128, u2⟩, ⟨S128x128, u3⟩] concatenates_S128x128_S128x128_S128x128_S128x128_S128x512_d1 (ix2 k ⟨128 * 2 + q.val, by have := q.isLt; omega⟩) = u2 (ix2 k q) := by
  refine concatenate_apply_piece (t := S128x512) 1 [⟨S128x128, u0⟩, ⟨S128x128, u1⟩, ⟨S128x128, u2⟩, ⟨S128x128, u3⟩] concatenates_S128x128_S128x128_S128x128_S128x128_S128x512_d1
    (ix2 k ⟨128 * 2 + q.val, by have := q.isLt; omega⟩) 2 (by simp) S128x128 u2 rfl rfl (128 * 2) ?_ (ix2 k q) (fun b hb => ?_) ?_
  · rfl
  · match b with
    | ⟨0, _⟩ => rfl
    | ⟨1, _⟩ => exact absurd rfl hb
  · rfl

theorem cat4_read3 (u0 u1 u2 u3 : S128x128.Idx → EReal) (k q : Fin 128) :
    concatenate S128x512 1 [⟨S128x128, u0⟩, ⟨S128x128, u1⟩, ⟨S128x128, u2⟩, ⟨S128x128, u3⟩] concatenates_S128x128_S128x128_S128x128_S128x128_S128x512_d1 (ix2 k ⟨128 * 3 + q.val, by have := q.isLt; omega⟩) = u3 (ix2 k q) := by
  refine concatenate_apply_piece (t := S128x512) 1 [⟨S128x128, u0⟩, ⟨S128x128, u1⟩, ⟨S128x128, u2⟩, ⟨S128x128, u3⟩] concatenates_S128x128_S128x128_S128x128_S128x128_S128x512_d1
    (ix2 k ⟨128 * 3 + q.val, by have := q.isLt; omega⟩) 3 (by simp) S128x128 u3 rfl rfl (128 * 3) ?_ (ix2 k q) (fun b hb => ?_) ?_
  · rfl
  · match b with
    | ⟨0, _⟩ => rfl
    | ⟨1, _⟩ => exact absurd rfl hb
  · rfl

theorem cat2_read0 (u0 u1 : S128x128.Idx → EReal) (k q : Fin 128) :
    concatenate S128x256 1 [⟨S128x128, u0⟩, ⟨S128x128, u1⟩] concatenates_S128x128_S128x128_S128x256_d1 (ix2 k ⟨128 * 0 + q.val, by have := q.isLt; omega⟩) = u0 (ix2 k q) := by
  refine concatenate_apply_piece (t := S128x256) 1 [⟨S128x128, u0⟩, ⟨S128x128, u1⟩] concatenates_S128x128_S128x128_S128x256_d1
    (ix2 k ⟨128 * 0 + q.val, by have := q.isLt; omega⟩) 0 (by simp) S128x128 u0 rfl rfl (128 * 0) ?_ (ix2 k q) (fun b hb => ?_) ?_
  · rfl
  · match b with
    | ⟨0, _⟩ => rfl
    | ⟨1, _⟩ => exact absurd rfl hb
  · rfl

theorem cat2_read1 (u0 u1 : S128x128.Idx → EReal) (k q : Fin 128) :
    concatenate S128x256 1 [⟨S128x128, u0⟩, ⟨S128x128, u1⟩] concatenates_S128x128_S128x128_S128x256_d1 (ix2 k ⟨128 * 1 + q.val, by have := q.isLt; omega⟩) = u1 (ix2 k q) := by
  refine concatenate_apply_piece (t := S128x256) 1 [⟨S128x128, u0⟩, ⟨S128x128, u1⟩] concatenates_S128x128_S128x128_S128x256_d1
    (ix2 k ⟨128 * 1 + q.val, by have := q.isLt; omega⟩) 1 (by simp) S128x128 u1 rfl rfl (128 * 1) ?_ (ix2 k q) (fun b hb => ?_) ?_
  · rfl
  · match b with
    | ⟨0, _⟩ => rfl
    | ⟨1, _⟩ => exact absurd rfl hb
  · rfl

/-! ## A slab of the panel product is the product with one weight -/

/-- If columns `off … off + 127` of the panel `w` are the weight `u`, the rows of `x` against those columns are the plain
    product of `x` with `u`. -/
theorem projRows_eq_dot {n : ℕ} (x : S50000x128.Idx → EReal) (w : (⟨2, ![128, n]⟩ : Shape).Idx → EReal) (off : ℕ) (hoff : off + 128 ≤ n)
    (u : S128x128.Idx → EReal) (hw : ∀ k q : Fin 128, w (ix2 k ⟨off + q.val, by have := q.isLt; omega⟩) = u (ix2 k q)) :
    projRows x w off hoff = Cert.ReferenceIdeal.RefValue.dotR x u := by
  funext i
  refine Eq.trans ?_ (Cert.ReferenceIdeal.RefValue.dotR_apply x u i).symm
  exact Finset.sum_congr rfl fun k _ => congrArg (x (ix2 (i 0) k) * ·) (hw k (i 1))

/-! ## The gather–scatter stretch is the same function on both sides -/

theorem segSum_eq (P : S50000x128.Idx → EReal) (e) : segSum P e = Cert.ReferenceIdeal.RefValue.segSumR P e := rfl
theorem segCnt_eq (e) : segCnt e = Cert.ReferenceIdeal.RefValue.segCntR e := rfl

/-! ## The two results -/

theorem item_eq (a0 a1 : S50000x128.Idx → EReal) (a2 a3 a4 a5 a6 a7 : S128x128.Idx → EReal) (e8) :
    G2 (projRows a1 (concatenate S128x256 1 [⟨S128x128, a4⟩, ⟨S128x128, a3⟩] concatenates_S128x128_S128x128_S128x256_d1) (128 * 1) (by norm_num))
        (segSum (projRows a0 (concatenate S128x512 1 [⟨S128x128, a2⟩, ⟨S128x128, a5⟩, ⟨S128x128, a6⟩, ⟨S128x128, a7⟩]
          concatenates_S128x128_S128x128_S128x128_S128x128_S128x512_d1) (128 * 0) (by norm_num)) e8) (segCnt e8)
      = Cert.ReferenceIdeal.RefValue.R83 a0 a1 a2 a3 e8 := by
  rw [projRows_eq_dot a1 _ (128 * 1) _ a3 (cat2_read1 a4 a3), projRows_eq_dot a0 _ (128 * 0) _ a2 (cat4_read0 a2 a5 a6 a7),
    segSum_eq, segCnt_eq]
  funext i
  rw [Cert.ReferenceIdeal.RefValue.R83_apply]
  exact itemK_eq_itemR _ _ _

theorem user_eq (a0 a1 : S50000x128.Idx → EReal) (a2 a3 a4 a5 a6 a7 : S128x128.Idx → EReal) (e9 e10) :
    G3 (projRows a0 (concatenate S128x512 1 [⟨S128x128, a2⟩, ⟨S128x128, a5⟩, ⟨S128x128, a6⟩, ⟨S128x128, a7⟩]
          concatenates_S128x128_S128x128_S128x128_S128x128_S128x512_d1) (128 * 1) (by norm_num))
        (segSum (projRows a1 (concatenate S128x256 1 [⟨S128x128, a4⟩, ⟨S128x128, a3⟩] concatenates_S128x128_S128x128_S128x256_d1) (128 * 0) (by norm_num)) e9)
        (segCnt e9)
        (projRows a0 (concatenate S128x512 1 [⟨S128x128, a2⟩, ⟨S128x128, a5⟩, ⟨S128x128, a6⟩, ⟨S128x128, a7⟩]
          concatenates_S128x128_S128x128_S128x128_S128x128_S128x512_d1) (128 * 3) (by norm_num))
        (segSum (projRows a0 (concatenate S128x512 1 [⟨S128x128, a2⟩, ⟨S128x128, a5⟩, ⟨S128x128, a6⟩, ⟨S128x128, a7⟩]
          concatenates_S128x128_S128x128_S128x128_S128x128_S128x512_d1) (128 * 2) (by norm_num)) e10)
        (segCnt e10)
      = Cert.ReferenceIdeal.RefValue.R79 a0 a1 a4 a5 a6 a7 e9 e10 := by
  rw [projRows_eq_dot a0 _ (128 * 1) _ a5 (cat4_read1 a2 a5 a6 a7), projRows_eq_dot a1 _ (128 * 0) _ a4 (cat2_read0 a4 a3),
    projRows_eq_dot a0 _ (128 * 3) _ a7 (cat4_read3 a2 a5 a6 a7), projRows_eq_dot a0 _ (128 * 2) _ a6 (cat4_read2 a2 a5 a6 a7),
    segSum_eq, segSum_eq, segCnt_eq, segCnt_eq]
  funext i
  rw [Cert.ReferenceIdeal.RefValue.R79_apply]
  exact userK_eq_userR _ _ _ _ _ _

end Cert.Proof.Bridge

end
-- ==== Proof.lean ====
/-
  A heterogeneous message-passing layer on a user–item graph, as a kernel of four launches against its plain reference.

  Three relations (user→item, item→user, user→user) each project their source and target features by a `[128,128]`
  weight, gather the projected sources along 600000 edges, average them per target row, and add the projected target;
  the item side keeps its one relation, the user side halves the sum of its two, and both are rectified twice.

  The kernel lays the weights that multiply one feature array side by side and multiplies once (two launches, each
  writing its product in `[50000,128]` slabs), leaves the gather, the segment sums and the segment counts to host
  operations, and finishes with two pointwise launches that divide the sums by the raised counts, add, scale and rectify.

  The frames: every launch's body is run once symbolically on whole staging buffers (Proof/K, Proof/KI: R0 … R3), and
  the program is seven segments — host stretch, two launches, two host stretches, two launches — whose boundaries' buffer
  contents are a fold from the launch memory (Run); no segment writes an argument.
  The values at the ideal instance: each launch's result array is one function of the arrays it finds (Val0 … Val3), the
  host stretches are read back (Host), and the two results are followed back to the arguments (Final). A slab of a panel
  product is the product with one weight, the gather–scatter is the same function on both sides, and at one entry the two
  spellings of the combine agree on every extended real (Spec, Bridge) — no finiteness is needed.
  The reference's run and its reading are the generated modules; RefG names its composed terms.
-/
import proofs.«167871_j59854664237622_2_alg».proof.Defs
import proofs.«167871_j59854664237622_2_alg».proof.Proof.Gen.Kernel
import proofs.«167871_j59854664237622_2_alg».proof.Proof.Gen.KernelIdeal
import proofs.«167871_j59854664237622_2_alg».proof.Proof.Gen.ReferenceIdeal
import proofs.«167871_j59854664237622_2_alg».proof.Proof.Gen.Pre_finite_inputs
import proofs.«167871_j59854664237622_2_alg».proof.Proof.Gen.ReferenceIdeal.Run
import proofs.«167871_j59854664237622_2_alg».proof.Proof.K.Run
import proofs.«167871_j59854664237622_2_alg».proof.Proof.KI.Final
import proofs.«167871_j59854664237622_2_alg».proof.Proof.RefG
import proofs.«167871_j59854664237622_2_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

/-- The kernel as printed runs to the end and leaves its eleven arguments as launched. -/
theorem frame_k : Cert.frame_Kernel := fun m ρ _ =>
  (θ_run Cert.Kernel.defs _ _).mono (fun r h c =>
    ⟨(h c Cert.Kernel.main_arg0 (by decide)).trans (Cert.Kernel.Hand.W7_main_arg0 m ρ c),
      (h c Cert.Kernel.main_arg1 (by decide)).trans (Cert.Kernel.Hand.W7_main_arg1 m ρ c),
      (h c Cert.Kernel.main_arg2 (by decide)).trans (Cert.Kernel.Hand.W7_main_arg2 m ρ c),
      (h c Cert.Kernel.main_arg3 (by decide)).trans (Cert.Kernel.Hand.W7_main_arg3 m ρ c),
      (h c Cert.Kernel.main_arg4 (by decide)).trans (Cert.Kernel.Hand.W7_main_arg4 m ρ c),
      (h c Cert.Kernel.main_arg5 (by decide)).trans (Cert.Kernel.Hand.W7_main_arg5 m ρ c),
      (h c Cert.Kernel.main_arg6 (by decide)).trans (Cert.Kernel.Hand.W7_main_arg6 m ρ c),
      (h c Cert.Kernel.main_arg7 (by decide)).trans (Cert.Kernel.Hand.W7_main_arg7 m ρ c),
      (h c Cert.Kernel.main_arg8 (by decide)).trans (Cert.Kernel.Hand.W7_main_arg8 m ρ c),
      (h c Cert.Kernel.main_arg9 (by decide)).trans (Cert.Kernel.Hand.W7_main_arg9 m ρ c),
      (h c Cert.Kernel.main_arg10 (by decide)).trans (Cert.Kernel.Hand.W7_main_arg10 m ρ c)⟩)
    (Cert.Kernel.Hand.run_all (F := Bits) m ρ)

/-- So does the idealized kernel. -/
theorem frame_ki : Cert.frame_KernelIdeal := fun m ρ _ =>
  (θ_run Cert.KernelIdeal.defs _ _).mono (fun r h c =>
    ⟨(h c Cert.KernelIdeal.main_arg0 (by decide)).trans (Cert.KernelIdeal.Hand.W7_main_arg0 m ρ c),
      (h c Cert.KernelIdeal.main_arg1 (by decide)).trans (Cert.KernelIdeal.Hand.W7_main_arg1 m ρ c),
      (h c Cert.KernelIdeal.main_arg2 (by decide)).trans (Cert.KernelIdeal.Hand.W7_main_arg2 m ρ c),
      (h c Cert.KernelIdeal.main_arg3 (by decide)).trans (Cert.KernelIdeal.Hand.W7_main_arg3 m ρ c),
      (h c Cert.KernelIdeal.main_arg4 (by decide)).trans (Cert.KernelIdeal.Hand.W7_main_arg4 m ρ c),
      (h c Cert.KernelIdeal.main_arg5 (by decide)).trans (Cert.KernelIdeal.Hand.W7_main_arg5 m ρ c),
      (h c Cert.KernelIdeal.main_arg6 (by decide)).trans (Cert.KernelIdeal.Hand.W7_main_arg6 m ρ c),
      (h c Cert.KernelIdeal.main_arg7 (by decide)).trans (Cert.KernelIdeal.Hand.W7_main_arg7 m ρ c),
      (h c Cert.KernelIdeal.main_arg8 (by decide)).trans (Cert.KernelIdeal.Hand.W7_main_arg8 m ρ c),
      (h c Cert.KernelIdeal.main_arg9 (by decide)).trans (Cert.KernelIdeal.Hand.W7_main_arg9 m ρ c),
      (h c Cert.KernelIdeal.main_arg10 (by decide)).trans (Cert.KernelIdeal.Hand.W7_main_arg10 m ρ c)⟩)
    (Cert.KernelIdeal.Hand.run_all (F := Ideal) m ρ)

/-- The reference's frame is its generated run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote nothing. -/
theorem preserves : Cert.preserves_Kernel_KernelIdeal := trivial

/-- At the ideal instance both programs end with the reference's two compositions of the arguments: the kernel's
    results are followed back to them and matched entry by entry, the reference's are those compositions by definition. -/
theorem algebraic : Cert.algebraic_KernelIdeal_ReferenceIdeal := by
  intro m ρ m' ρ' _ hagree
  refine ⟨fun c => Cert.ReferenceIdeal.RefValue.R79 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    fun c => Cert.ReferenceIdeal.RefValue.R83 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg8)), ?_, ?_⟩
  · refine (θ_run Cert.KernelIdeal.defs _ _).mono (fun r h c => ⟨?_, ?_,
      (h c Cert.KernelIdeal.main_arg0 (by decide)).trans (Cert.KernelIdeal.Hand.W7_main_arg0 m ρ c),
      (h c Cert.KernelIdeal.main_arg1 (by decide)).trans (Cert.KernelIdeal.Hand.W7_main_arg1 m ρ c),
      (h c Cert.KernelIdeal.main_arg2 (by decide)).trans (Cert.KernelIdeal.Hand.W7_main_arg2 m ρ c),
      (h c Cert.KernelIdeal.main_arg3 (by decide)).trans (Cert.KernelIdeal.Hand.W7_main_arg3 m ρ c),
      (h c Cert.KernelIdeal.main_arg4 (by decide)).trans (Cert.KernelIdeal.Hand.W7_main_arg4 m ρ c),
      (h c Cert.KernelIdeal.main_arg5 (by decide)).trans (Cert.KernelIdeal.Hand.W7_main_arg5 m ρ c),
      (h c Cert.KernelIdeal.main_arg6 (by decide)).trans (Cert.KernelIdeal.Hand.W7_main_arg6 m ρ c),
      (h c Cert.KernelIdeal.main_arg7 (by decide)).trans (Cert.KernelIdeal.Hand.W7_main_arg7 m ρ c),
      (h c Cert.KernelIdeal.main_arg8 (by decide)).trans (Cert.KernelIdeal.Hand.W7_main_arg8 m ρ c),
      (h c Cert.KernelIdeal.main_arg9 (by decide)).trans (Cert.KernelIdeal.Hand.W7_main_arg9 m ρ c),
      (h c Cert.KernelIdeal.main_arg10 (by decide)).trans (Cert.KernelIdeal.Hand.W7_main_arg10 m ρ c)⟩)
      (Cert.KernelIdeal.Hand.run_all (F := Ideal) m ρ)
    · exact (h c Cert.KernelIdeal.main_v65 (by decide)).trans ((Cert.KernelIdeal.Hand.W7_v65 m ρ c).trans
        (Cert.Proof.Bridge.user_eq _ _ _ _ _ _ _ _ _ _))
    · exact (h c Cert.KernelIdeal.main_v64 (by decide)).trans ((Cert.KernelIdeal.Hand.W7_v64 m ρ c).trans
        (Cert.Proof.Bridge.item_eq _ _ _ _ _ _ _ _ _))
  · refine (θ_run Cert.ReferenceIdeal.defs _ _).mono (fun r h c => ⟨(h c).1.trans ?_, (h c).2.1.trans ?_, (h c).2.2⟩)
      (Cert.ReferenceIdeal.Value.run (F := Ideal) m' ρ')
    · obtain ⟨g0, g1, g2, g3, g4, g5, g6, g7, g8, g9, g10⟩ := hagree c
      rw [Cert.ReferenceIdeal.RefValue.res_out0_eq, g0, g1, g4, g5, g6, g7, g9, g10]
    · obtain ⟨g0, g1, g2, g3, g4, g5, g6, g7, g8, g9, g10⟩ := hagree c
      show Cert.ReferenceIdeal.RefValue.R83 _ _ _ _ _ = _
      rw [g0, g1, g2, g3, g8]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
